-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x120006 : Shape := ⟨2, ![2048, 120006]⟩
abbrev S_ : Shape := ⟨0, ![]⟩

class Facts : Prop where
  bcast_S_S2048x120006 : S_.BroadcastsInDim S2048x120006 (![] : Fin 0 → Fin S2048x120006.rank)
  reducesTo_S2048x120006_S_d0_1 : S2048x120006.ReducesTo [0, 1] S_
  h_S_ : 0 < S_.numel

variable [Facts]

def fn {F : FTy → Type} [FloatOps F] (main_arg0 : FVec F S2048x120006 .f32) : IVec S_ 1 :=
  let main_v0 : FVec F S2048x120006 .f32 := Host.absf main_arg0
  let main_cst : FVec F S_ .f32 := constant S_ .f32 0x7F800000#32
  let main_v1 : FVec F S2048x120006 .f32 := broadcastInDim S2048x120006 ![] bcast_S_S2048x120006 main_cst
  let main_v2 : IVec S2048x120006 1 := cmpf .olt main_v0 main_v1
  let main_c : IVec S_ 1 := constantI S_ 1 1#1
  let main_v3 : IVec S_ 1 := (fun x v => Host.reduce IntOp.andi x v reducesTo_S2048x120006_S_d0_1 h_S_) main_v2 main_c
  main_v3
-- ==== Kernel.lean ====
abbrev S2048x120006 : Shape := ⟨2, ![2048, 120006]⟩
abbrev S2048x6 : Shape := ⟨2, ![2048, 6]⟩
abbrev S2048x2 : Shape := ⟨2, ![2048, 2]⟩
abbrev S2048x1 : Shape := ⟨2, ![2048, 1]⟩
abbrev S2048 : Shape := ⟨1, ![2048]⟩
abbrev S_ : Shape := ⟨0, ![]⟩
abbrev S32x1 : Shape := ⟨2, ![32, 1]⟩
abbrev S2x8x128 : Shape := ⟨3, ![2, 8, 128]⟩
abbrev S2 : Shape := ⟨1, ![2]⟩
abbrev S1x128 : Shape := ⟨2, ![1, 128]⟩
abbrev S1 : Shape := ⟨1, ![1]⟩
abbrev S1x1x128 : Shape := ⟨3, ![1, 1, 128]⟩
abbrev S128 : Shape := ⟨1, ![128]⟩
abbrev S1x1 : Shape := ⟨2, ![1, 1]⟩

abbrev nBuf : Space → Nat
  | .hbm => 78
  | .vmem => 3
  | .smem => 3
  | _ => 0

abbrev bufTy : (tb : Table) → Fin (tcTables nBuf tb) → BufTy
  | .hbm, ⟨0, _⟩ => ⟨S2048x120006, .f32⟩
  | .hbm, ⟨1, _⟩ => ⟨S2048x6, .f32⟩
  | .hbm, ⟨2, _⟩ => ⟨S2048x2, .f32⟩
  | .hbm, ⟨3, _⟩ => ⟨S2048x2, .f32⟩
  | .hbm, ⟨4, _⟩ => ⟨S2048x2, .f32⟩
  | .hbm, ⟨5, _⟩ => ⟨S2048x2, .f32⟩
  | .hbm, ⟨6, _⟩ => ⟨S2048x2, .f32⟩
  | .hbm, ⟨7, _⟩ => ⟨S2048x2, .i32⟩
  | .hbm, ⟨8, _⟩ => ⟨S2048x1, .i32⟩
  | .hbm, ⟨9, _⟩ => ⟨S2048, .i32⟩
  | .hbm, ⟨10, _⟩ => ⟨S2048x1, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i1⟩
  | .hbm, ⟨30, _⟩ => ⟨S2048, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S2048, .i32⟩
  | .hbm, ⟨63, _⟩ => ⟨S2048, .i32⟩
  | .hbm, ⟨64, _⟩ => ⟨S_, .i32⟩
  | .hbm, ⟨65, _⟩ => ⟨S2048, .i32⟩
  | .hbm, ⟨66, _⟩ => ⟨S2048, .i1⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S_, .i1⟩
  | .hbm, ⟨72, _⟩ => ⟨S2048, .i1⟩
  | .hbm, ⟨73, _⟩ => ⟨S2048, .i1⟩
  | .hbm, ⟨74, _⟩ => ⟨S2048, .i1⟩
  | .hbm, ⟨75, _⟩ => ⟨S2048, .i32⟩
  | .hbm, ⟨76, _⟩ => ⟨S2048, .i32⟩
  | .hbm, ⟨77, _⟩ => ⟨S2048x1, .f32⟩
  | .local _ .vmem, ⟨0, _⟩ => ⟨S32x1, .f32⟩
  | .local _ .vmem, ⟨1, _⟩ => ⟨S32x1, .f32⟩
  | .local _ .vmem, ⟨2, _⟩ => ⟨S2x8x128, .f32⟩
  | .local _ .smem, ⟨0, _⟩ => ⟨S2048, .i32⟩
  | .local _ .smem, ⟨1, _⟩ => ⟨S2048, .i32⟩
  | .local _ .smem, ⟨2, _⟩ => ⟨S2048, .i32⟩
  | _, _ => ⟨S2048x120006, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c_0 : Ref sig .tc := ⟨.hbm, 16, rfl⟩
abbrev main_v14 : Ref sig .tc := ⟨.hbm, 17, rfl⟩
abbrev main_v15 : Ref sig .tc := ⟨.hbm, 18, rfl⟩
abbrev main_c_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_4 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_c_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_c_7 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_c_0 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_call2_c_1 : Ref sig .tc := ⟨.hbm, 64, rfl⟩
abbrev main_call2_v5 : Ref sig .tc := ⟨.hbm, 65, rfl⟩
abbrev main_call2_v6 : Ref sig .tc := ⟨.hbm, 66, rfl⟩
abbrev main_call2_c_2 : Ref sig .tc := ⟨.hbm, 67, rfl⟩
abbrev main_call2_v7 : Ref sig .tc := ⟨.hbm, 68, rfl⟩
abbrev main_call2_v8 : Ref sig .tc := ⟨.hbm, 69, rfl⟩
abbrev main_call2_c_3 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_v12 : Ref sig .tc := ⟨.hbm, 74, rfl⟩
abbrev main_call2_v13 : Ref sig .tc := ⟨.hbm, 75, rfl⟩
abbrev main_call2_v14 : Ref sig .tc := ⟨.hbm, 76, rfl⟩
abbrev main_v29 : Ref sig .tc := ⟨.hbm, 77, rfl⟩
abbrev main_v26 : Ref sig .tc := ⟨.smem, 0, rfl⟩
abbrev main_v27 : Ref sig .tc := ⟨.smem, 1, rfl⟩
abbrev main_v28 : Ref sig .tc := ⟨.smem, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![64], ![false]⟩

abbrev pre0 : Pipeline.Prefetch sig := ⟨3, ![main_v26.idx, main_v27.idx, main_v28.idx], fun | 0 => main_v26.names | 1 => main_v27.names | 2 => main_v28.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let c0_i32 : BitVec 32 := 0#32
  let v2 : BitVec 32 := Scalar.addi v0 c0_i32
  let v3 : Index := Scalar.indexCast v2
  ![v3.toNat]
def k0_mult1 (v4 : BitVec 32) : BitVec 32 :=
  let c128_i32 : BitVec 32 := 128#32
  let v5 : BitVec 32 := Scalar.muli v4 c128_i32
  v5

def k0_off2 (i : grid0.Coords) (v4 : BitVec 32) : Fin 2 → Nat :=
  let arg0 : BitVec 32 := BitVec.ofNat 32 (i 0).val
  let c32_i32 : BitVec 32 := 32#32
  let v0 : BitVec 32 := Scalar.muli arg0 c32_i32
  let c0_i32 : BitVec 32 := 0#32
  let v2 : BitVec 32 := Scalar.addi v0 c0_i32
  let c128_i32 : BitVec 32 := 128#32
  let v5 : BitVec 32 := Scalar.muli v4 c128_i32
  let v6 : BitVec 32 := v5
  ![v2.toNat, v6.toNat]

def k0_chk1 (i : grid0.Coords) (v4 : BitVec 32) : Prop :=
  (128 ∣ (k0_mult1 v4).toNat) ∧
  (∀ a, (k0_off2 i v4) a + S1x128.size a ≤ S2048x120006.size a)
instance k0_chk1.dec : ∀ (i : grid0.Coords) (v4 : BitVec 32), Decidable (k0_chk1 i v4) := fun i v4 => decidable_of_iff' _ (Iff.of_eq (k0_chk1.eq_1 i v4))
theorem k0_mult1_dvd : ∀ (i : grid0.Coords) (v4 : BitVec 32) (k0_hw1 : k0_chk1 i v4), 128 ∣ (k0_mult1 v4).toNat := fun i v4 k0_hw1 => k0_hw1.1
theorem k0_off2_inb : ∀ (i : grid0.Coords) (v4 : BitVec 32) (k0_hw1 : k0_chk1 i v4), ∀ a, (k0_off2 i v4) a + S1x128.size a ≤ S2048x120006.size a := fun i v4 k0_hw1 => k0_hw1.2

def k0_off3 (i : grid0.Coords) : Fin 1 → Nat :=
  let arg0 : BitVec 32 := BitVec.ofNat 32 (i 0).val
  let c32_i32 : BitVec 32 := 32#32
  let v0 : BitVec 32 := Scalar.muli arg0 c32_i32
  let c0_i32_5 : BitVec 32 := 0#32
  let v14 : BitVec 32 := Scalar.addi v0 c0_i32_5
  let v15 : Index := Scalar.indexCast v14
  ![v15.toNat]
def k0_mult2 (v16 : BitVec 32) : BitVec 32 :=
  let c128_i32_6 : BitVec 32 := 128#32
  let v17 : BitVec 32 := Scalar.muli v16 c128_i32_6
  v17

def k0_off4 (i : grid0.Coords) (v16 : BitVec 32) : Fin 2 → Nat :=
  let arg0 : BitVec 32 := BitVec.ofNat 32 (i 0).val
  let c32_i32 : BitVec 32 := 32#32
  let v0 : BitVec 32 := Scalar.muli arg0 c32_i32
  let c0_i32_5 : BitVec 32 := 0#32
  let v14 : BitVec 32 := Scalar.addi v0 c0_i32_5
  let c128_i32_6 : BitVec 32 := 128#32
  let v17 : BitVec 32 := Scalar.muli v16 c128_i32_6
  let v18 : BitVec 32 := v17
  ![v14.toNat, v18.toNat]

def k0_chk2 (i : grid0.Coords) (v16 : BitVec 32) : Prop :=
  (128 ∣ (k0_mult2 v16).toNat) ∧
  (∀ a, (k0_off4 i v16) a + S1x128.size a ≤ S2048x120006.size a)
instance k0_chk2.dec : ∀ (i : grid0.Coords) (v16 : BitVec 32), Decidable (k0_chk2 i v16) := fun i v16 => decidable_of_iff' _ (Iff.of_eq (k0_chk2.eq_1 i v16))
theorem k0_mult2_dvd : ∀ (i : grid0.Coords) (v16 : BitVec 32) (k0_hw2 : k0_chk2 i v16), 128 ∣ (k0_mult2 v16).toNat := fun i v16 k0_hw2 => k0_hw2.1
theorem k0_off4_inb : ∀ (i : grid0.Coords) (v16 : BitVec 32) (k0_hw2 : k0_chk2 i v16), ∀ a, (k0_off4 i v16) a + S1x128.size a ≤ S2048x120006.size a := fun i v16 k0_hw2 => k0_hw2.2

def k0_off5 (i : grid0.Coords) : Fin 1 → Nat :=
  let arg0 : BitVec 32 := BitVec.ofNat 32 (i 0).val
  let c32_i32 : BitVec 32 := 32#32
  let v0 : BitVec 32 := Scalar.muli arg0 c32_i32
  let c1_i32 : BitVec 32 := 1#32
  let v25 : BitVec 32 := Scalar.addi v0 c1_i32
  let v26 : Index := Scalar.indexCast v25
  ![v26.toNat]
def k0_mult3 (v27 : BitVec 32) : BitVec 32 :=
  let c128_i32_11 : BitVec 32 := 128#32
  let v28 : BitVec 32 := Scalar.muli v27 c128_i32_11
  v28

def k0_off6 (i : grid0.Coords) (v27 : BitVec 32) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v25 : BitVec 32 := Scalar.addi v0 c1_i32
  let c128_i32_11 : BitVec 32 := 128#32
  let v28 : BitVec 32 := Scalar.muli v27 c128_i32_11
  let v29 : BitVec 32 := v28
  ![v25.toNat, v29.toNat]

def k0_chk3 (i : grid0.Coords) (v27 : BitVec 32) : Prop :=
  (128 ∣ (k0_mult3 v27).toNat) ∧
  (∀ a, (k0_off6 i v27) a + S1x128.size a ≤ S2048x120006.size a)
instance k0_chk3.dec : ∀ (i : grid0.Coords) (v27 : BitVec 32), Decidable (k0_chk3 i v27) := fun i v27 => decidable_of_iff' _ (Iff.of_eq (k0_chk3.eq_1 i v27))
theorem k0_mult3_dvd : ∀ (i : grid0.Coords) (v27 : BitVec 32) (k0_hw3 : k0_chk3 i v27), 128 ∣ (k0_mult3 v27).toNat := fun i v27 k0_hw3 => k0_hw3.1
theorem k0_off6_inb : ∀ (i : grid0.Coords) (v27 : BitVec 32) (k0_hw3 : k0_chk3 i v27), ∀ a, (k0_off6 i v27) a + S1x128.size a ≤ S2048x120006.size a := fun i v27 k0_hw3 => k0_hw3.2

def k0_off7 (i : grid0.Coords) (c0_i32_4 : BitVec 32) : Fin 1 → Nat :=
  let arg0 : BitVec 32 := BitVec.ofNat 32 (i 0).val
  let c32_i32 : BitVec 32 := 32#32
  let v0 : BitVec 32 := Scalar.muli arg0 c32_i32
  let v13 : BitVec 32 := Scalar.addi v0 c0_i32_4
  let v36 : Index := Scalar.indexCast v13
  ![v36.toNat]
def k0_mult4 (v55 : BitVec 32) : BitVec 32 :=
  let c128_i32_25 : BitVec 32 := 128#32
  let v56 : BitVec 32 := Scalar.muli v55 c128_i32_25
  v56

def k0_off8 (i : grid0.Coords) (v55 : BitVec 32) : Fin 2 → Nat :=
  let arg0 : BitVec 32 := BitVec.ofNat 32 (i 0).val
  let c32_i32 : BitVec 32 := 32#32
  let v0 : BitVec 32 := Scalar.muli arg0 c32_i32
  let c1_i32_24 : BitVec 32 := 1#32
  let v53 : BitVec 32 := Scalar.addi v0 c1_i32_24
  let c128_i32_25 : BitVec 32 := 128#32
  let v56 : BitVec 32 := Scalar.muli v55 c128_i32_25
  let v57 : BitVec 32 := v56
  ![v53.toNat, v57.toNat]

def k0_chk4 (i : grid0.Coords) (v55 : BitVec 32) : Prop :=
  (128 ∣ (k0_mult4 v55).toNat) ∧
  (∀ a, (k0_off8 i v55) a + S1x128.size a ≤ S2048x120006.size a)
instance k0_chk4.dec : ∀ (i : grid0.Coords) (v55 : BitVec 32), Decidable (k0_chk4 i v55) := fun i v55 => decidable_of_iff' _ (Iff.of_eq (k0_chk4.eq_1 i v55))
theorem k0_mult4_dvd : ∀ (i : grid0.Coords) (v55 : BitVec 32) (k0_hw4 : k0_chk4 i v55), 128 ∣ (k0_mult4 v55).toNat := fun i v55 k0_hw4 => k0_hw4.1
theorem k0_off8_inb : ∀ (i : grid0.Coords) (v55 : BitVec 32) (k0_hw4 : k0_chk4 i v55), ∀ a, (k0_off8 i v55) a + S1x128.size a ≤ S2048x120006.size a := fun i v55 k0_hw4 => k0_hw4.2

def k0_off9 (i : grid0.Coords) : Fin 1 → Nat :=
  let arg0 : BitVec 32 := BitVec.ofNat 32 (i 0).val
  let c32_i32 : BitVec 32 := 32#32
  let v0 : BitVec 32 := Scalar.muli arg0 c32_i32
  let c2_i32 : BitVec 32 := 2#32
  let v64 : BitVec 32 := Scalar.addi v0 c2_i32
  let v65 : Index := Scalar.indexCast v64
  ![v65.toNat]
def k0_mult5 (v66 : BitVec 32) : BitVec 32 :=
  let c128_i32_30 : BitVec 32 := 128#32
  let v67 : BitVec 32 := Scalar.muli v66 c128_i32_30
  v67

def k0_off10 (i : grid0.Coords) (v66 : BitVec 32) : Fin 2 → Nat :=
  let arg0 : BitVec 32 := BitVec.ofNat 32 (i 0).val
  let c32_i32 : BitVec 32 := 32#32
  let v0 : BitVec 32 := Scalar.muli arg0 c32_i32
  let c2_i32 : BitVec 32 := 2#32
  let v64 : BitVec 32 := Scalar.addi v0 c2_i32
  let c128_i32_30 : BitVec 32 := 128#32
  let v67 : BitVec 32 := Scalar.muli v66 c128_i32_30
  let v68 : BitVec 32 := v67
  ![v64.toNat, v68.toNat]

def k0_chk5 (i : grid0.Coords) (v66 : BitVec 32) : Prop :=
  (128 ∣ (k0_mult5 v66).toNat) ∧
  (∀ a, (k0_off10 i v66) a + S1x128.size a ≤ S2048x120006.size a)
instance k0_chk5.dec : ∀ (i : grid0.Coords) (v66 : BitVec 32), Decidable (k0_chk5 i v66) := fun i v66 => decidable_of_iff' _ (Iff.of_eq (k0_chk5.eq_1 i v66))
theorem k0_mult5_dvd : ∀ (i : grid0.Coords) (v66 : BitVec 32) (k0_hw5 : k0_chk5 i v66), 128 ∣ (k0_mult5 v66).toNat := fun i v66 k0_hw5 => k0_hw5.1
theorem k0_off10_inb : ∀ (i : grid0.Coords) (v66 : BitVec 32) (k0_hw5 : k0_chk5 i v66), ∀ a, (k0_off10 i v66) a + S1x128.size a ≤ S2048x120006.size a := fun i v66 k0_hw5 => k0_hw5.2

def k0_off11 (i : grid0.Coords) (c1_i32_23 : BitVec 32) : Fin 1 → Nat :=
  let arg0 : BitVec 32 := BitVec.ofNat 32 (i 0).val
  let c32_i32 : BitVec 32 := 32#32
  let v0 : BitVec 32 := Scalar.muli arg0 c32_i32
  let v52 : BitVec 32 := Scalar.addi v0 c1_i32_23
  let v75 : Index := Scalar.indexCast v52
  ![v75.toNat]
def k0_mult6 (v94 : BitVec 32) : BitVec 32 :=
  let c128_i32_45 : BitVec 32 := 128#32
  let v95 : BitVec 32 := Scalar.muli v94 c128_i32_45
  v95

def k0_off12 (i : grid0.Coords) (v94 : BitVec 32) : Fin 2 → Nat :=
  let arg0 : BitVec 32 := BitVec.ofNat 32 (i 0).val
  let c32_i32 : BitVec 32 := 32#32
  let v0 : BitVec 32 := Scalar.muli arg0 c32_i32
  let c2_i32_44 : BitVec 32 := 2#32
  let v92 : BitVec 32 := Scalar.addi v0 c2_i32_44
  let c128_i32_45 : BitVec 32 := 128#32
  let v95 : BitVec 32 := Scalar.muli v94 c128_i32_45
  let v96 : BitVec 32 := v95
  ![v92.toNat, v96.toNat]

def k0_chk6 (i : grid0.Coords) (v94 : BitVec 32) : Prop :=
  (128 ∣ (k0_mult6 v94).toNat) ∧
  (∀ a, (k0_off12 i v94) a + S1x128.size a ≤ S2048x120006.size a)
instance k0_chk6.dec : ∀ (i : grid0.Coords) (v94 : BitVec 32), Decidable (k0_chk6 i v94) := fun i v94 => decidable_of_iff' _ (Iff.of_eq (k0_chk6.eq_1 i v94))
theorem k0_mult6_dvd : ∀ (i : grid0.Coords) (v94 : BitVec 32) (k0_hw6 : k0_chk6 i v94), 128 ∣ (k0_mult6 v94).toNat := fun i v94 k0_hw6 => k0_hw6.1
theorem k0_off12_inb : ∀ (i : grid0.Coords) (v94 : BitVec 32) (k0_hw6 : k0_chk6 i v94), ∀ a, (k0_off12 i v94) a + S1x128.size a ≤ S2048x120006.size a := fun i v94 k0_hw6 => k0_hw6.2

def k0_off13 (i : grid0.Coords) : Fin 1 → Nat :=
  let arg0 : BitVec 32 := BitVec.ofNat 32 (i 0).val
  let c32_i32 : BitVec 32 := 32#32
  let v0 : BitVec 32 := Scalar.muli arg0 c32_i32
  let c3_i32 : BitVec 32 := 3#32
  let v103 : BitVec 32 := Scalar.addi v0 c3_i32
  let v104 : Index := Scalar.indexCast v103
  ![v104.toNat]
def k0_mult7 (v105 : BitVec 32) : BitVec 32 :=
  let c128_i32_50 : BitVec 32 := 128#32
  let v106 : BitVec 32 := Scalar.muli v105 c128_i32_50
  v106

def k0_off14 (i : grid0.Coords) (v105 : BitVec 32) : Fin 2 → Nat :=
  let arg0 : BitVec 32 := BitVec.ofNat 32 (i 0).val
  let c32_i32 : BitVec 32 := 32#32
  let v0 : BitVec 32 := Scalar.muli arg0 c32_i32
  let c3_i32 : BitVec 32 := 3#32
  let v103 : BitVec 32 := Scalar.addi v0 c3_i32
  let c128_i32_50 : BitVec 32 := 128#32
  let v106 : BitVec 32 := Scalar.muli v105 c128_i32_50
  let v107 : BitVec 32 := v106
  ![v103.toNat, v107.toNat]

def k0_chk7 (i : grid0.Coords) (v105 : BitVec 32) : Prop :=
  (128 ∣ (k0_mult7 v105).toNat) ∧
  (∀ a, (k0_off14 i v105) a + S1x128.size a ≤ S2048x120006.size a)
instance k0_chk7.dec : ∀ (i : grid0.Coords) (v105 : BitVec 32), Decidable (k0_chk7 i v105) := fun i v105 => decidable_of_iff' _ (Iff.of_eq (k0_chk7.eq_1 i v105))
theorem k0_mult7_dvd : ∀ (i : grid0.Coords) (v105 : BitVec 32) (k0_hw7 : k0_chk7 i v105), 128 ∣ (k0_mult7 v105).toNat := fun i v105 k0_hw7 => k0_hw7.1
theorem k0_off14_inb : ∀ (i : grid0.Coords) (v105 : BitVec 32) (k0_hw7 : k0_chk7 i v105), ∀ a, (k0_off14 i v105) a + S1x128.size a ≤ S2048x120006.size a := fun i v105 k0_hw7 => k0_hw7.2

def k0_off15 (i : grid0.Coords) (c2_i32_43 : BitVec 32) : Fin 1 → Nat :=
  let arg0 : BitVec 32 := BitVec.ofNat 32 (i 0).val
  let c32_i32 : BitVec 32 := 32#32
  let v0 : BitVec 32 := Scalar.muli arg0 c32_i32
  let v91 : BitVec 32 := Scalar.addi v0 c2_i32_43
  let v114 : Index := Scalar.indexCast v91
  ![v114.toNat]
def k0_mult8 (v133 : BitVec 32) : BitVec 32 :=
  let c128_i32_65 : BitVec 32 := 128#32
  let v134 : BitVec 32 := Scalar.muli v133 c128_i32_65
  v134

def k0_off16 (i : grid0.Coords) (v133 : BitVec 32) : Fin 2 → Nat :=
  let arg0 : BitVec 32 := BitVec.ofNat 32 (i 0).val
  let c32_i32 : BitVec 32 := 32#32
  let v0 : BitVec 32 := Scalar.muli arg0 c32_i32
  let c3_i32_64 : BitVec 32 := 3#32
  let v131 : BitVec 32 := Scalar.addi v0 c3_i32_64
  let c128_i32_65 : BitVec 32 := 128#32
  let v134 : BitVec 32 := Scalar.muli v133 c128_i32_65
  let v135 : BitVec 32 := v134
  ![v131.toNat, v135.toNat]

def k0_chk8 (i : grid0.Coords) (v133 : BitVec 32) : Prop :=
  (128 ∣ (k0_mult8 v133).toNat) ∧
  (∀ a, (k0_off16 i v133) a + S1x128.size a ≤ S2048x120006.size a)
instance k0_chk8.dec : ∀ (i : grid0.Coords) (v133 : BitVec 32), Decidable (k0_chk8 i v133) := fun i v133 => decidable_of_iff' _ (Iff.of_eq (k0_chk8.eq_1 i v133))
theorem k0_mult8_dvd : ∀ (i : grid0.Coords) (v133 : BitVec 32) (k0_hw8 : k0_chk8 i v133), 128 ∣ (k0_mult8 v133).toNat := fun i v133 k0_hw8 => k0_hw8.1
theorem k0_off16_inb : ∀ (i : grid0.Coords) (v133 : BitVec 32) (k0_hw8 : k0_chk8 i v133), ∀ a, (k0_off16 i v133) a + S1x128.size a ≤ S2048x120006.size a := fun i v133 k0_hw8 => k0_hw8.2

def k0_off17 (i : grid0.Coords) : Fin 1 → Nat :=
  let arg0 : BitVec 32 := BitVec.ofNat 32 (i 0).val
  let c32_i32 : BitVec 32 := 32#32
  let v0 : BitVec 32 := Scalar.muli arg0 c32_i32
  let c4_i32 : BitVec 32 := 4#32
  let v142 : BitVec 32 := Scalar.addi v0 c4_i32
  let v143 : Index := Scalar.indexCast v142
  ![v143.toNat]
def k0_mult9 (v144 : BitVec 32) : BitVec 32 :=
  let c128_i32_70 : BitVec 32 := 128#32
  let v145 : BitVec 32 := Scalar.muli v144 c128_i32_70
  v145

def k0_off18 (i : grid0.Coords) (v144 : BitVec 32) : Fin 2 → Nat :=
  let arg0 : BitVec 32 := BitVec.ofNat 32 (i 0).val
  let c32_i32 : BitVec 32 := 32#32
  let v0 : BitVec 32 := Scalar.muli arg0 c32_i32
  let c4_i32 : BitVec 32 := 4#32
  let v142 : BitVec 32 := Scalar.addi v0 c4_i32
  let c128_i32_70 : BitVec 32 := 128#32
  let v145 : BitVec 32 := Scalar.muli v144 c128_i32_70
  let v146 : BitVec 32 := v145
  ![v142.toNat, v146.toNat]

def k0_chk9 (i : grid0.Coords) (v144 : BitVec 32) : Prop :=
  (128 ∣ (k0_mult9 v144).toNat) ∧
  (∀ a, (k0_off18 i v144) a + S1x128.size a ≤ S2048x120006.size a)
instance k0_chk9.dec : ∀ (i : grid0.Coords) (v144 : BitVec 32), Decidable (k0_chk9 i v144) := fun i v144 => decidable_of_iff' _ (Iff.of_eq (k0_chk9.eq_1 i v144))
theorem k0_mult9_dvd : ∀ (i : grid0.Coords) (v144 : BitVec 32) (k0_hw9 : k0_chk9 i v144), 128 ∣ (k0_mult9 v144).toNat := fun i v144 k0_hw9 => k0_hw9.1
theorem k0_off18_inb : ∀ (i : grid0.Coords) (v144 : BitVec 32) (k0_hw9 : k0_chk9 i v144), ∀ a, (k0_off18 i v144) a + S1x128.size a ≤ S2048x120006.size a := fun i v144 k0_hw9 => k0_hw9.2

def k0_off19 (i : grid0.Coords) (c3_i32_63 : BitVec 32) : Fin 1 → Nat :=
  let arg0 : BitVec 32 := BitVec.ofNat 32 (i 0).val
  let c32_i32 : BitVec 32 := 32#32
  let v0 : BitVec 32 := Scalar.muli arg0 c32_i32
  let v130 : BitVec 32 := Scalar.addi v0 c3_i32_63
  let v153 : Index := Scalar.indexCast v130
  ![v153.toNat]
def k0_mult10 (v172 : BitVec 32) : BitVec 32 :=
  let c128_i32_85 : BitVec 32 := 128#32
  let v173 : BitVec 32 := Scalar.muli v172 c128_i32_85
  v173

def k0_off20 (i : grid0.Coords) (v172 : BitVec 32) : Fin 2 → Nat :=
  let arg0 : BitVec 32 := BitVec.ofNat 32 (i 0).val
  let c32_i32 : BitVec 32 := 32#32
  let v0 : BitVec 32 := Scalar.muli arg0 c32_i32
  let c4_i32_84 : BitVec 32 := 4#32
  let v170 : BitVec 32 := Scalar.addi v0 c4_i32_84
  let c128_i32_85 : BitVec 32 := 128#32
  let v173 : BitVec 32 := Scalar.muli v172 c128_i32_85
  let v174 : BitVec 32 := v173
  ![v170.toNat, v174.toNat]

def k0_chk10 (i : grid0.Coords) (v172 : BitVec 32) : Prop :=
  (128 ∣ (k0_mult10 v172).toNat) ∧
  (∀ a, (k0_off20 i v172) a + S1x128.size a ≤ S2048x120006.size a)
instance k0_chk10.dec : ∀ (i : grid0.Coords) (v172 : BitVec 32), Decidable (k0_chk10 i v172) := fun i v172 => decidable_of_iff' _ (Iff.of_eq (k0_chk10.eq_1 i v172))
theorem k0_mult10_dvd : ∀ (i : grid0.Coords) (v172 : BitVec 32) (k0_hw10 : k0_chk10 i v172), 128 ∣ (k0_mult10 v172).toNat := fun i v172 k0_hw10 => k0_hw10.1
theorem k0_off20_inb : ∀ (i : grid0.Coords) (v172 : BitVec 32) (k0_hw10 : k0_chk10 i v172), ∀ a, (k0_off20 i v172) a + S1x128.size a ≤ S2048x120006.size a := fun i v172 k0_hw10 => k0_hw10.2

def k0_off21 (i : grid0.Coords) : Fin 1 → Nat :=
  let arg0 : BitVec 32 := BitVec.ofNat 32 (i 0).val
  let c32_i32 : BitVec 32 := 32#32
  let v0 : BitVec 32 := Scalar.muli arg0 c32_i32
  let c5_i32 : BitVec 32 := 5#32
  let v181 : BitVec 32 := Scalar.addi v0 c5_i32
  let v182 : Index := Scalar.indexCast v181
  ![v182.toNat]
def k0_mult11 (v183 : BitVec 32) : BitVec 32 :=
  let c128_i32_90 : BitVec 32 := 128#32
  let v184 : BitVec 32 := Scalar.muli v183 c128_i32_90
  v184

def k0_off22 (i : grid0.Coords) (v183 : BitVec 32) : Fin 2 → Nat :=
  let arg0 : BitVec 32 := BitVec.ofNat 32 (i 0).val
  let c32_i32 : BitVec 32 := 32#32
  let v0 : BitVec 32 := Scalar.muli arg0 c32_i32
  let c5_i32 : BitVec 32 := 5#32
  let v181 : BitVec 32 := Scalar.addi v0 c5_i32
  let c128_i32_90 : BitVec 32 := 128#32
  let v184 : BitVec 32 := Scalar.muli v183 c128_i32_90
  let v185 : BitVec 32 := v184
  ![v181.toNat, v185.toNat]

def k0_chk11 (i : grid0.Coords) (v183 : BitVec 32) : Prop :=
  (128 ∣ (k0_mult11 v183).toNat) ∧
  (∀ a, (k0_off22 i v183) a + S1x128.size a ≤ S2048x120006.size a)
instance k0_chk11.dec : ∀ (i : grid0.Coords) (v183 : BitVec 32), Decidable (k0_chk11 i v183) := fun i v183 => decidable_of_iff' _ (Iff.of_eq (k0_chk11.eq_1 i v183))
theorem k0_mult11_dvd : ∀ (i : grid0.Coords) (v183 : BitVec 32) (k0_hw11 : k0_chk11 i v183), 128 ∣ (k0_mult11 v183).toNat := fun i v183 k0_hw11 => k0_hw11.1
theorem k0_off22_inb : ∀ (i : grid0.Coords) (v183 : BitVec 32) (k0_hw11 : k0_chk11 i v183), ∀ a, (k0_off22 i v183) a + S1x128.size a ≤ S2048x120006.size a := fun i v183 k0_hw11 => k0_hw11.2

def k0_off23 (i : grid0.Coords) (c4_i32_83 : BitVec 32) : Fin 1 → Nat :=
  let arg0 : BitVec 32 := BitVec.ofNat 32 (i 0).val
  let c32_i32 : BitVec 32 := 32#32
  let v0 : BitVec 32 := Scalar.muli arg0 c32_i32
  let v169 : BitVec 32 := Scalar.addi v0 c4_i32_83
  let v192 : Index := Scalar.indexCast v169
  ![v192.toNat]
def k0_mult12 (v211 : BitVec 32) : BitVec 32 :=
  let c128_i32_105 : BitVec 32 := 128#32
  let v212 : BitVec 32 := Scalar.muli v211 c128_i32_105
  v212

def k0_off24 (i : grid0.Coords) (v211 : BitVec 32) : Fin 2 → Nat :=
  let arg0 : BitVec 32 := BitVec.ofNat 32 (i 0).val
  let c32_i32 : BitVec 32 := 32#32
  let v0 : BitVec 32 := Scalar.muli arg0 c32_i32
  let c5_i32_104 : BitVec 32 := 5#32
  let v209 : BitVec 32 := Scalar.addi v0 c5_i32_104
  let c128_i32_105 : BitVec 32 := 128#32
  let v212 : BitVec 32 := Scalar.muli v211 c128_i32_105
  let v213 : BitVec 32 := v212
  ![v209.toNat, v213.toNat]

def k0_chk12 (i : grid0.Coords) (v211 : BitVec 32) : Prop :=
  (128 ∣ (k0_mult12 v211).toNat) ∧
  (∀ a, (k0_off24 i v211) a + S1x128.size a ≤ S2048x120006.size a)
instance k0_chk12.dec : ∀ (i : grid0.Coords) (v211 : BitVec 32), Decidable (k0_chk12 i v211) := fun i v211 => decidable_of_iff' _ (Iff.of_eq (k0_chk12.eq_1 i v211))
theorem k0_mult12_dvd : ∀ (i : grid0.Coords) (v211 : BitVec 32) (k0_hw12 : k0_chk12 i v211), 128 ∣ (k0_mult12 v211).toNat := fun i v211 k0_hw12 => k0_hw12.1
theorem k0_off24_inb : ∀ (i : grid0.Coords) (v211 : BitVec 32) (k0_hw12 : k0_chk12 i v211), ∀ a, (k0_off24 i v211) a + S1x128.size a ≤ S2048x120006.size a := fun i v211 k0_hw12 => k0_hw12.2

def k0_off25 (i : grid0.Coords) : Fin 1 → Nat :=
  let arg0 : BitVec 32 := BitVec.ofNat 32 (i 0).val
  let c32_i32 : BitVec 32 := 32#32
  let v0 : BitVec 32 := Scalar.muli arg0 c32_i32
  let c6_i32 : BitVec 32 := 6#32
  let v220 : BitVec 32 := Scalar.addi v0 c6_i32
  let v221 : Index := Scalar.indexCast v220
  ![v221.toNat]
def k0_mult13 (v222 : BitVec 32) : BitVec 32 :=
  let c128_i32_110 : BitVec 32 := 128#32
  let v223 : BitVec 32 := Scalar.muli v222 c128_i32_110
  v223

def k0_off26 (i : grid0.Coords) (v222 : BitVec 32) : Fin 2 → Nat :=
  let arg0 : BitVec 32 := BitVec.ofNat 32 (i 0).val
  let c32_i32 : BitVec 32 := 32#32
  let v0 : BitVec 32 := Scalar.muli arg0 c32_i32
  let c6_i32 : BitVec 32 := 6#32
  let v220 : BitVec 32 := Scalar.addi v0 c6_i32
  let c128_i32_110 : BitVec 32 := 128#32
  let v223 : BitVec 32 := Scalar.muli v222 c128_i32_110
  let v224 : BitVec 32 := v223
  ![v220.toNat, v224.toNat]

def k0_chk13 (i : grid0.Coords) (v222 : BitVec 32) : Prop :=
  (128 ∣ (k0_mult13 v222).toNat) ∧
  (∀ a, (k0_off26 i v222) a + S1x128.size a ≤ S2048x120006.size a)
instance k0_chk13.dec : ∀ (i : grid0.Coords) (v222 : BitVec 32), Decidable (k0_chk13 i v222) := fun i v222 => decidable_of_iff' _ (Iff.of_eq (k0_chk13.eq_1 i v222))
theorem k0_mult13_dvd : ∀ (i : grid0.Coords) (v222 : BitVec 32) (k0_hw13 : k0_chk13 i v222), 128 ∣ (k0_mult13 v222).toNat := fun i v222 k0_hw13 => k0_hw13.1
theorem k0_off26_inb : ∀ (i : grid0.Coords) (v222 : BitVec 32) (k0_hw13 : k0_chk13 i v222), ∀ a, (k0_off26 i v222) a + S1x128.size a ≤ S2048x120006.size a := fun i v222 k0_hw13 => k0_hw13.2

def k0_off27 (i : grid0.Coords) (c5_i32_103 : BitVec 32) : Fin 1 → Nat :=
  let arg0 : BitVec 32 := BitVec.ofNat 32 (i 0).val
  let c32_i32 : BitVec 32 := 32#32
  let v0 : BitVec 32 := Scalar.muli arg0 c32_i32
  let v208 : BitVec 32 := Scalar.addi v0 c5_i32_103
  let v231 : Index := Scalar.indexCast v208
  ![v231.toNat]
def k0_mult14 (v250 : BitVec 32) : BitVec 32 :=
  let c128_i32_125 : BitVec 32 := 128#32
  let v251 : BitVec 32 := Scalar.muli v250 c128_i32_125
  v251

def k0_off28 (i : grid0.Coords) (v250 : BitVec 32) : Fin 2 → Nat :=
  let arg0 : BitVec 32 := BitVec.ofNat 32 (i 0).val
  let c32_i32 : BitVec 32 := 32#32
  let v0 : BitVec 32 := Scalar.muli arg0 c32_i32
  let c6_i32_124 : BitVec 32 := 6#32
  let v248 : BitVec 32 := Scalar.addi v0 c6_i32_124
  let c128_i32_125 : BitVec 32 := 128#32
  let v251 : BitVec 32 := Scalar.muli v250 c128_i32_125
  let v252 : BitVec 32 := v251
  ![v248.toNat, v252.toNat]

def k0_chk14 (i : grid0.Coords) (v250 : BitVec 32) : Prop :=
  (128 ∣ (k0_mult14 v250).toNat) ∧
  (∀ a, (k0_off28 i v250) a + S1x128.size a ≤ S2048x120006.size a)
instance k0_chk14.dec : ∀ (i : grid0.Coords) (v250 : BitVec 32), Decidable (k0_chk14 i v250) := fun i v250 => decidable_of_iff' _ (Iff.of_eq (k0_chk14.eq_1 i v250))
theorem k0_mult14_dvd : ∀ (i : grid0.Coords) (v250 : BitVec 32) (k0_hw14 : k0_chk14 i v250), 128 ∣ (k0_mult14 v250).toNat := fun i v250 k0_hw14 => k0_hw14.1
theorem k0_off28_inb : ∀ (i : grid0.Coords) (v250 : BitVec 32) (k0_hw14 : k0_chk14 i v250), ∀ a, (k0_off28 i v250) a + S1x128.size a ≤ S2048x120006.size a := fun i v250 k0_hw14 => k0_hw14.2

def k0_off29 (i : grid0.Coords) : Fin 1 → Nat :=
  let arg0 : BitVec 32 := BitVec.ofNat 32 (i 0).val
  let c32_i32 : BitVec 32 := 32#32
  let v0 : BitVec 32 := Scalar.muli arg0 c32_i32
  let c7_i32 : BitVec 32 := 7#32
  let v259 : BitVec 32 := Scalar.addi v0 c7_i32
  let v260 : Index := Scalar.indexCast v259
  ![v260.toNat]
def k0_mult15 (v261 : BitVec 32) : BitVec 32 :=
  let c128_i32_130 : BitVec 32 := 128#32
  let v262 : BitVec 32 := Scalar.muli v261 c128_i32_130
  v262

def k0_off30 (i : grid0.Coords) (v261 : BitVec 32) : Fin 2 → Nat :=
  let arg0 : BitVec 32 := BitVec.ofNat 32 (i 0).val
  let c32_i32 : BitVec 32 := 32#32
  let v0 : BitVec 32 := Scalar.muli arg0 c32_i32
  let c7_i32 : BitVec 32 := 7#32
  let v259 : BitVec 32 := Scalar.addi v0 c7_i32
  let c128_i32_130 : BitVec 32 := 128#32
  let v262 : BitVec 32 := Scalar.muli v261 c128_i32_130
  let v263 : BitVec 32 := v262
  ![v259.toNat, v263.toNat]

def k0_chk15 (i : grid0.Coords) (v261 : BitVec 32) : Prop :=
  (128 ∣ (k0_mult15 v261).toNat) ∧
  (∀ a, (k0_off30 i v261) a + S1x128.size a ≤ S2048x120006.size a)
instance k0_chk15.dec : ∀ (i : grid0.Coords) (v261 : BitVec 32), Decidable (k0_chk15 i v261) := fun i v261 => decidable_of_iff' _ (Iff.of_eq (k0_chk15.eq_1 i v261))
theorem k0_mult15_dvd : ∀ (i : grid0.Coords) (v261 : BitVec 32) (k0_hw15 : k0_chk15 i v261), 128 ∣ (k0_mult15 v261).toNat := fun i v261 k0_hw15 => k0_hw15.1
theorem k0_off30_inb : ∀ (i : grid0.Coords) (v261 : BitVec 32) (k0_hw15 : k0_chk15 i v261), ∀ a, (k0_off30 i v261) a + S1x128.size a ≤ S2048x120006.size a := fun i v261 k0_hw15 => k0_hw15.2

def k0_off31 (i : grid0.Coords) (c6_i32_123 : BitVec 32) : Fin 1 → Nat :=
  let arg0 : BitVec 32 := BitVec.ofNat 32 (i 0).val
  let c32_i32 : BitVec 32 := 32#32
  let v0 : BitVec 32 := Scalar.muli arg0 c32_i32
  let v247 : BitVec 32 := Scalar.addi v0 c6_i32_123
  let v270 : Index := Scalar.indexCast v247
  ![v270.toNat]
def k0_mult16 (v289 : BitVec 32) : BitVec 32 :=
  let c128_i32_145 : BitVec 32 := 128#32
  let v290 : BitVec 32 := Scalar.muli v289 c128_i32_145
  v290

def k0_off32 (i : grid0.Coords) (v289 : BitVec 32) : Fin 2 → Nat :=
  let arg0 : BitVec 32 := BitVec.ofNat 32 (i 0).val
  let c32_i32 : BitVec 32 := 32#32
  let v0 : BitVec 32 := Scalar.muli arg0 c32_i32
  let c7_i32_144 : BitVec 32 := 7#32
  let v287 : BitVec 32 := Scalar.addi v0 c7_i32_144
  let c128_i32_145 : BitVec 32 := 128#32
  let v290 : BitVec 32 := Scalar.muli v289 c128_i32_145
  let v291 : BitVec 32 := v290
  ![v287.toNat, v291.toNat]

def k0_chk16 (i : grid0.Coords) (v289 : BitVec 32) : Prop :=
  (128 ∣ (k0_mult16 v289).toNat) ∧
  (∀ a, (k0_off32 i v289) a + S1x128.size a ≤ S2048x120006.size a)
instance k0_chk16.dec : ∀ (i : grid0.Coords) (v289 : BitVec 32), Decidable (k0_chk16 i v289) := fun i v289 => decidable_of_iff' _ (Iff.of_eq (k0_chk16.eq_1 i v289))
theorem k0_mult16_dvd : ∀ (i : grid0.Coords) (v289 : BitVec 32) (k0_hw16 : k0_chk16 i v289), 128 ∣ (k0_mult16 v289).toNat := fun i v289 k0_hw16 => k0_hw16.1
theorem k0_off32_inb : ∀ (i : grid0.Coords) (v289 : BitVec 32) (k0_hw16 : k0_chk16 i v289), ∀ a, (k0_off32 i v289) a + S1x128.size a ≤ S2048x120006.size a := fun i v289 k0_hw16 => k0_hw16.2

def k0_off33 (i : grid0.Coords) : Fin 1 → Nat :=
  let arg0 : BitVec 32 := BitVec.ofNat 32 (i 0).val
  let c32_i32 : BitVec 32 := 32#32
  let v0 : BitVec 32 := Scalar.muli arg0 c32_i32
  let c8_i32 : BitVec 32 := 8#32
  let v298 : BitVec 32 := Scalar.addi v0 c8_i32
  let v299 : Index := Scalar.indexCast v298
  ![v299.toNat]
def k0_mult17 (v300 : BitVec 32) : BitVec 32 :=
  let c128_i32_150 : BitVec 32 := 128#32
  let v301 : BitVec 32 := Scalar.muli v300 c128_i32_150
  v301

def k0_off34 (i : grid0.Coords) (v300 : BitVec 32) : Fin 2 → Nat :=
  let arg0 : BitVec 32 := BitVec.ofNat 32 (i 0).val
  let c32_i32 : BitVec 32 := 32#32
  let v0 : BitVec 32 := Scalar.muli arg0 c32_i32
  let c8_i32 : BitVec 32 := 8#32
  let v298 : BitVec 32 := Scalar.addi v0 c8_i32
  let c128_i32_150 : BitVec 32 := 128#32
  let v301 : BitVec 32 := Scalar.muli v300 c128_i32_150
  let v302 : BitVec 32 := v301
  ![v298.toNat, v302.toNat]

def k0_chk17 (i : grid0.Coords) (v300 : BitVec 32) : Prop :=
  (128 ∣ (k0_mult17 v300).toNat) ∧
  (∀ a, (k0_off34 i v300) a + S1x128.size a ≤ S2048x120006.size a)
instance k0_chk17.dec : ∀ (i : grid0.Coords) (v300 : BitVec 32), Decidable (k0_chk17 i v300) := fun i v300 => decidable_of_iff' _ (Iff.of_eq (k0_chk17.eq_1 i v300))
theorem k0_mult17_dvd : ∀ (i : grid0.Coords) (v300 : BitVec 32) (k0_hw17 : k0_chk17 i v300), 128 ∣ (k0_mult17 v300).toNat := fun i v300 k0_hw17 => k0_hw17.1
theorem k0_off34_inb : ∀ (i : grid0.Coords) (v300 : BitVec 32) (k0_hw17 : k0_chk17 i v300), ∀ a, (k0_off34 i v300) a + S1x128.size a ≤ S2048x120006.size a := fun i v300 k0_hw17 => k0_hw17.2

def k0_off35 (i : grid0.Coords) (c7_i32_143 : BitVec 32) : Fin 1 → Nat :=
  let arg0 : BitVec 32 := BitVec.ofNat 32 (i 0).val
  let c32_i32 : BitVec 32 := 32#32
  let v0 : BitVec 32 := Scalar.muli arg0 c32_i32
  let v286 : BitVec 32 := Scalar.addi v0 c7_i32_143
  let v309 : Index := Scalar.indexCast v286
  ![v309.toNat]
def k0_mult18 (v328 : BitVec 32) : BitVec 32 :=
  let c128_i32_165 : BitVec 32 := 128#32
  let v329 : BitVec 32 := Scalar.muli v328 c128_i32_165
  v329

def k0_off36 (i : grid0.Coords) (v328 : BitVec 32) : Fin 2 → Nat :=
  let arg0 : BitVec 32 := BitVec.ofNat 32 (i 0).val
  let c32_i32 : BitVec 32 := 32#32
  let v0 : BitVec 32 := Scalar.muli arg0 c32_i32
  let c8_i32_164 : BitVec 32 := 8#32
  let v326 : BitVec 32 := Scalar.addi v0 c8_i32_164
  let c128_i32_165 : BitVec 32 := 128#32
  let v329 : BitVec 32 := Scalar.muli v328 c128_i32_165
  let v330 : BitVec 32 := v329
  ![v326.toNat, v330.toNat]

def k0_chk18 (i : grid0.Coords) (v328 : BitVec 32) : Prop :=
  (128 ∣ (k0_mult18 v328).toNat) ∧
  (∀ a, (k0_off36 i v328) a + S1x128.size a ≤ S2048x120006.size a)
instance k0_chk18.dec : ∀ (i : grid0.Coords) (v328 : BitVec 32), Decidable (k0_chk18 i v328) := fun i v328 => decidable_of_iff' _ (Iff.of_eq (k0_chk18.eq_1 i v328))
theorem k0_mult18_dvd : ∀ (i : grid0.Coords) (v328 : BitVec 32) (k0_hw18 : k0_chk18 i v328), 128 ∣ (k0_mult18 v328).toNat := fun i v328 k0_hw18 => k0_hw18.1
theorem k0_off36_inb : ∀ (i : grid0.Coords) (v328 : BitVec 32) (k0_hw18 : k0_chk18 i v328), ∀ a, (k0_off36 i v328) a + S1x128.size a ≤ S2048x120006.size a := fun i v328 k0_hw18 => k0_hw18.2

def k0_off37 (i : grid0.Coords) : Fin 1 → Nat :=
  let arg0 : BitVec 32 := BitVec.ofNat 32 (i 0).val
  let c32_i32 : BitVec 32 := 32#32
  let v0 : BitVec 32 := Scalar.muli arg0 c32_i32
  let c9_i32 : BitVec 32 := 9#32
  let v337 : BitVec 32 := Scalar.addi v0 c9_i32
  let v338 : Index := Scalar.indexCast v337
  ![v338.toNat]
def k0_mult19 (v339 : BitVec 32) : BitVec 32 :=
  let c128_i32_170 : BitVec 32 := 128#32
  let v340 : BitVec 32 := Scalar.muli v339 c128_i32_170
  v340

def k0_off38 (i : grid0.Coords) (v339 : BitVec 32) : Fin 2 → Nat :=
  let arg0 : BitVec 32 := BitVec.ofNat 32 (i 0).val
  let c32_i32 : BitVec 32 := 32#32
  let v0 : BitVec 32 := Scalar.muli arg0 c32_i32
  let c9_i32 : BitVec 32 := 9#32
  let v337 : BitVec 32 := Scalar.addi v0 c9_i32
  let c128_i32_170 : BitVec 32 := 128#32
  let v340 : BitVec 32 := Scalar.muli v339 c128_i32_170
  let v341 : BitVec 32 := v340
  ![v337.toNat, v341.toNat]

def k0_chk19 (i : grid0.Coords) (v339 : BitVec 32) : Prop :=
  (128 ∣ (k0_mult19 v339).toNat) ∧
  (∀ a, (k0_off38 i v339) a + S1x128.size a ≤ S2048x120006.size a)
instance k0_chk19.dec : ∀ (i : grid0.Coords) (v339 : BitVec 32), Decidable (k0_chk19 i v339) := fun i v339 => decidable_of_iff' _ (Iff.of_eq (k0_chk19.eq_1 i v339))
theorem k0_mult19_dvd : ∀ (i : grid0.Coords) (v339 : BitVec 32) (k0_hw19 : k0_chk19 i v339), 128 ∣ (k0_mult19 v339).toNat := fun i v339 k0_hw19 => k0_hw19.1
theorem k0_off38_inb : ∀ (i : grid0.Coords) (v339 : BitVec 32) (k0_hw19 : k0_chk19 i v339), ∀ a, (k0_off38 i v339) a + S1x128.size a ≤ S2048x120006.size a := fun i v339 k0_hw19 => k0_hw19.2

def k0_off39 (i : grid0.Coords) (c8_i32_163 : BitVec 32) : Fin 1 → Nat :=
  let arg0 : BitVec 32 := BitVec.ofNat 32 (i 0).val
  let c32_i32 : BitVec 32 := 32#32
  let v0 : BitVec 32 := Scalar.muli arg0 c32_i32
  let v325 : BitVec 32 := Scalar.addi v0 c8_i32_163
  let v348 : Index := Scalar.indexCast v325
  ![v348.toNat]
def k0_mult20 (v367 : BitVec 32) : BitVec 32 :=
  let c128_i32_185 : BitVec 32 := 128#32
  let v368 : BitVec 32 := Scalar.muli v367 c128_i32_185
  v368

def k0_off40 (i : grid0.Coords) (v367 : BitVec 32) : Fin 2 → Nat :=
  let arg0 : BitVec 32 := BitVec.ofNat 32 (i 0).val
  let c32_i32 : BitVec 32 := 32#32
  let v0 : BitVec 32 := Scalar.muli arg0 c32_i32
  let c9_i32_184 : BitVec 32 := 9#32
  let v365 : BitVec 32 := Scalar.addi v0 c9_i32_184
  let c128_i32_185 : BitVec 32 := 128#32
  let v368 : BitVec 32 := Scalar.muli v367 c128_i32_185
  let v369 : BitVec 32 := v368
  ![v365.toNat, v369.toNat]

def k0_chk20 (i : grid0.Coords) (v367 : BitVec 32) : Prop :=
  (128 ∣ (k0_mult20 v367).toNat) ∧
  (∀ a, (k0_off40 i v367) a + S1x128.size a ≤ S2048x120006.size a)
instance k0_chk20.dec : ∀ (i : grid0.Coords) (v367 : BitVec 32), Decidable (k0_chk20 i v367) := fun i v367 => decidable_of_iff' _ (Iff.of_eq (k0_chk20.eq_1 i v367))
theorem k0_mult20_dvd : ∀ (i : grid0.Coords) (v367 : BitVec 32) (k0_hw20 : k0_chk20 i v367), 128 ∣ (k0_mult20 v367).toNat := fun i v367 k0_hw20 => k0_hw20.1
theorem k0_off40_inb : ∀ (i : grid0.Coords) (v367 : BitVec 32) (k0_hw20 : k0_chk20 i v367), ∀ a, (k0_off40 i v367) a + S1x128.size a ≤ S2048x120006.size a := fun i v367 k0_hw20 => k0_hw20.2

def k0_off41 (i : grid0.Coords) : Fin 1 → Nat :=
  let arg0 : BitVec 32 := BitVec.ofNat 32 (i 0).val
  let c32_i32 : BitVec 32 := 32#32
  let v0 : BitVec 32 := Scalar.muli arg0 c32_i32
  let c10_i32 : BitVec 32 := 10#32
  let v376 : BitVec 32 := Scalar.addi v0 c10_i32
  let v377 : Index := Scalar.indexCast v376
  ![v377.toNat]
def k0_mult21 (v378 : BitVec 32) : BitVec 32 :=
  let c128_i32_190 : BitVec 32 := 128#32
  let v379 : BitVec 32 := Scalar.muli v378 c128_i32_190
  v379

def k0_off42 (i : grid0.Coords) (v378 : BitVec 32) : Fin 2 → Nat :=
  let arg0 : BitVec 32 := BitVec.ofNat 32 (i 0).val
  let c32_i32 : BitVec 32 := 32#32
  let v0 : BitVec 32 := Scalar.muli arg0 c32_i32
  let c10_i32 : BitVec 32 := 10#32
  let v376 : BitVec 32 := Scalar.addi v0 c10_i32
  let c128_i32_190 : BitVec 32 := 128#32
  let v379 : BitVec 32 := Scalar.muli v378 c128_i32_190
  let v380 : BitVec 32 := v379
  ![v376.toNat, v380.toNat]

def k0_chk21 (i : grid0.Coords) (v378 : BitVec 32) : Prop :=
  (128 ∣ (k0_mult21 v378).toNat) ∧
  (∀ a, (k0_off42 i v378) a + S1x128.size a ≤ S2048x120006.size a)
instance k0_chk21.dec : ∀ (i : grid0.Coords) (v378 : BitVec 32), Decidable (k0_chk21 i v378) := fun i v378 => decidable_of_iff' _ (Iff.of_eq (k0_chk21.eq_1 i v378))
theorem k0_mult21_dvd : ∀ (i : grid0.Coords) (v378 : BitVec 32) (k0_hw21 : k0_chk21 i v378), 128 ∣ (k0_mult21 v378).toNat := fun i v378 k0_hw21 => k0_hw21.1
theorem k0_off42_inb : ∀ (i : grid0.Coords) (v378 : BitVec 32) (k0_hw21 : k0_chk21 i v378), ∀ a, (k0_off42 i v378) a + S1x128.size a ≤ S2048x120006.size a := fun i v378 k0_hw21 => k0_hw21.2

def k0_off43 (i : grid0.Coords) (c9_i32_183 : BitVec 32) : Fin 1 → Nat :=
  let arg0 : BitVec 32 := BitVec.ofNat 32 (i 0).val
  let c32_i32 : BitVec 32 := 32#32
  let v0 : BitVec 32 := Scalar.muli arg0 c32_i32
  let v364 : BitVec 32 := Scalar.addi v0 c9_i32_183
  let v387 : Index := Scalar.indexCast v364
  ![v387.toNat]
def k0_mult22 (v406 : BitVec 32) : BitVec 32 :=
  let c128_i32_205 : BitVec 32 := 128#32
  let v407 : BitVec 32 := Scalar.muli v406 c128_i32_205
  v407

def k0_off44 (i : grid0.Coords) (v406 : BitVec 32) : Fin 2 → Nat :=
  let arg0 : BitVec 32 := BitVec.ofNat 32 (i 0).val
  let c32_i32 : BitVec 32 := 32#32
  let v0 : BitVec 32 := Scalar.muli arg0 c32_i32
  let c10_i32_204 : BitVec 32 := 10#32
  let v404 : BitVec 32 := Scalar.addi v0 c10_i32_204
  let c128_i32_205 : BitVec 32 := 128#32
  let v407 : BitVec 32 := Scalar.muli v406 c128_i32_205
  let v408 : BitVec 32 := v407
  ![v404.toNat, v408.toNat]

def k0_chk22 (i : grid0.Coords) (v406 : BitVec 32) : Prop :=
  (128 ∣ (k0_mult22 v406).toNat) ∧
  (∀ a, (k0_off44 i v406) a + S1x128.size a ≤ S2048x120006.size a)
instance k0_chk22.dec : ∀ (i : grid0.Coords) (v406 : BitVec 32), Decidable (k0_chk22 i v406) := fun i v406 => decidable_of_iff' _ (Iff.of_eq (k0_chk22.eq_1 i v406))
theorem k0_mult22_dvd : ∀ (i : grid0.Coords) (v406 : BitVec 32) (k0_hw22 : k0_chk22 i v406), 128 ∣ (k0_mult22 v406).toNat := fun i v406 k0_hw22 => k0_hw22.1
theorem k0_off44_inb : ∀ (i : grid0.Coords) (v406 : BitVec 32) (k0_hw22 : k0_chk22 i v406), ∀ a, (k0_off44 i v406) a + S1x128.size a ≤ S2048x120006.size a := fun i v406 k0_hw22 => k0_hw22.2

def k0_off45 (i : grid0.Coords) : Fin 1 → Nat :=
  let arg0 : BitVec 32 := BitVec.ofNat 32 (i 0).val
  let c32_i32 : BitVec 32 := 32#32
  let v0 : BitVec 32 := Scalar.muli arg0 c32_i32
  let c11_i32 : BitVec 32 := 11#32
  let v415 : BitVec 32 := Scalar.addi v0 c11_i32
  let v416 : Index := Scalar.indexCast v415
  ![v416.toNat]
def k0_mult23 (v417 : BitVec 32) : BitVec 32 :=
  let c128_i32_210 : BitVec 32 := 128#32
  let v418 : BitVec 32 := Scalar.muli v417 c128_i32_210
  v418

def k0_off46 (i : grid0.Coords) (v417 : BitVec 32) : Fin 2 → Nat :=
  let arg0 : BitVec 32 := BitVec.ofNat 32 (i 0).val
  let c32_i32 : BitVec 32 := 32#32
  let v0 : BitVec 32 := Scalar.muli arg0 c32_i32
  let c11_i32 : BitVec 32 := 11#32
  let v415 : BitVec 32 := Scalar.addi v0 c11_i32
  let c128_i32_210 : BitVec 32 := 128#32
  let v418 : BitVec 32 := Scalar.muli v417 c128_i32_210
  let v419 : BitVec 32 := v418
  ![v415.toNat, v419.toNat]

def k0_chk23 (i : grid0.Coords) (v417 : BitVec 32) : Prop :=
  (128 ∣ (k0_mult23 v417).toNat) ∧
  (∀ a, (k0_off46 i v417) a + S1x128.size a ≤ S2048x120006.size a)
instance k0_chk23.dec : ∀ (i : grid0.Coords) (v417 : BitVec 32), Decidable (k0_chk23 i v417) := fun i v417 => decidable_of_iff' _ (Iff.of_eq (k0_chk23.eq_1 i v417))
theorem k0_mult23_dvd : ∀ (i : grid0.Coords) (v417 : BitVec 32) (k0_hw23 : k0_chk23 i v417), 128 ∣ (k0_mult23 v417).toNat := fun i v417 k0_hw23 => k0_hw23.1
theorem k0_off46_inb : ∀ (i : grid0.Coords) (v417 : BitVec 32) (k0_hw23 : k0_chk23 i v417), ∀ a, (k0_off46 i v417) a + S1x128.size a ≤ S2048x120006.size a := fun i v417 k0_hw23 => k0_hw23.2

def k0_off47 (i : grid0.Coords) (c10_i32_203 : BitVec 32) : Fin 1 → Nat :=
  let arg0 : BitVec 32 := BitVec.ofNat 32 (i 0).val
  let c32_i32 : BitVec 32 := 32#32
  let v0 : BitVec 32 := Scalar.muli arg0 c32_i32
  let v403 : BitVec 32 := Scalar.addi v0 c10_i32_203
  let v426 : Index := Scalar.indexCast v403
  ![v426.toNat]
def k0_mult24 (v445 : BitVec 32) : BitVec 32 :=
  let c128_i32_225 : BitVec 32 := 128#32
  let v446 : BitVec 32 := Scalar.muli v445 c128_i32_225
  v446

def k0_off48 (i : grid0.Coords) (v445 : BitVec 32) : Fin 2 → Nat :=
  let arg0 : BitVec 32 := BitVec.ofNat 32 (i 0).val
  let c32_i32 : BitVec 32 := 32#32
  let v0 : BitVec 32 := Scalar.muli arg0 c32_i32
  let c11_i32_224 : BitVec 32 := 11#32
  let v443 : BitVec 32 := Scalar.addi v0 c11_i32_224
  let c128_i32_225 : BitVec 32 := 128#32
  let v446 : BitVec 32 := Scalar.muli v445 c128_i32_225
  let v447 : BitVec 32 := v446
  ![v443.toNat, v447.toNat]

def k0_chk24 (i : grid0.Coords) (v445 : BitVec 32) : Prop :=
  (128 ∣ (k0_mult24 v445).toNat) ∧
  (∀ a, (k0_off48 i v445) a + S1x128.size a ≤ S2048x120006.size a)
instance k0_chk24.dec : ∀ (i : grid0.Coords) (v445 : BitVec 32), Decidable (k0_chk24 i v445) := fun i v445 => decidable_of_iff' _ (Iff.of_eq (k0_chk24.eq_1 i v445))
theorem k0_mult24_dvd : ∀ (i : grid0.Coords) (v445 : BitVec 32) (k0_hw24 : k0_chk24 i v445), 128 ∣ (k0_mult24 v445).toNat := fun i v445 k0_hw24 => k0_hw24.1
theorem k0_off48_inb : ∀ (i : grid0.Coords) (v445 : BitVec 32) (k0_hw24 : k0_chk24 i v445), ∀ a, (k0_off48 i v445) a + S1x128.size a ≤ S2048x120006.size a := fun i v445 k0_hw24 => k0_hw24.2

def k0_off49 (i : grid0.Coords) : Fin 1 → Nat :=
  let arg0 : BitVec 32 := BitVec.ofNat 32 (i 0).val
  let c32_i32 : BitVec 32 := 32#32
  let v0 : BitVec 32 := Scalar.muli arg0 c32_i32
  let c12_i32 : BitVec 32 := 12#32
  let v454 : BitVec 32 := Scalar.addi v0 c12_i32
  let v455 : Index := Scalar.indexCast v454
  ![v455.toNat]
def k0_mult25 (v456 : BitVec 32) : BitVec 32 :=
  let c128_i32_230 : BitVec 32 := 128#32
  let v457 : BitVec 32 := Scalar.muli v456 c128_i32_230
  v457

def k0_off50 (i : grid0.Coords) (v456 : BitVec 32) : Fin 2 → Nat :=
  let arg0 : BitVec 32 := BitVec.ofNat 32 (i 0).val
  let c32_i32 : BitVec 32 := 32#32
  let v0 : BitVec 32 := Scalar.muli arg0 c32_i32
  let c12_i32 : BitVec 32 := 12#32
  let v454 : BitVec 32 := Scalar.addi v0 c12_i32
  let c128_i32_230 : BitVec 32 := 128#32
  let v457 : BitVec 32 := Scalar.muli v456 c128_i32_230
  let v458 : BitVec 32 := v457
  ![v454.toNat, v458.toNat]

def k0_chk25 (i : grid0.Coords) (v456 : BitVec 32) : Prop :=
  (128 ∣ (k0_mult25 v456).toNat) ∧
  (∀ a, (k0_off50 i v456) a + S1x128.size a ≤ S2048x120006.size a)
instance k0_chk25.dec : ∀ (i : grid0.Coords) (v456 : BitVec 32), Decidable (k0_chk25 i v456) := fun i v456 => decidable_of_iff' _ (Iff.of_eq (k0_chk25.eq_1 i v456))
theorem k0_mult25_dvd : ∀ (i : grid0.Coords) (v456 : BitVec 32) (k0_hw25 : k0_chk25 i v456), 128 ∣ (k0_mult25 v456).toNat := fun i v456 k0_hw25 => k0_hw25.1
theorem k0_off50_inb : ∀ (i : grid0.Coords) (v456 : BitVec 32) (k0_hw25 : k0_chk25 i v456), ∀ a, (k0_off50 i v456) a + S1x128.size a ≤ S2048x120006.size a := fun i v456 k0_hw25 => k0_hw25.2

def k0_off51 (i : grid0.Coords) (c11_i32_223 : BitVec 32) : Fin 1 → Nat :=
  let arg0 : BitVec 32 := BitVec.ofNat 32 (i 0).val
  let c32_i32 : BitVec 32 := 32#32
  let v0 : BitVec 32 := Scalar.muli arg0 c32_i32
  let v442 : BitVec 32 := Scalar.addi v0 c11_i32_223
  let v465 : Index := Scalar.indexCast v442
  ![v465.toNat]
def k0_mult26 (v484 : BitVec 32) : BitVec 32 :=
  let c128_i32_245 : BitVec 32 := 128#32
  let v485 : BitVec 32 := Scalar.muli v484 c128_i32_245
  v485

def k0_off52 (i : grid0.Coords) (v484 : BitVec 32) : Fin 2 → Nat :=
  let arg0 : BitVec 32 := BitVec.ofNat 32 (i 0).val
  let c32_i32 : BitVec 32 := 32#32
  let v0 : BitVec 32 := Scalar.muli arg0 c32_i32
  let c12_i32_244 : BitVec 32 := 12#32
  let v482 : BitVec 32 := Scalar.addi v0 c12_i32_244
  let c128_i32_245 : BitVec 32 := 128#32
  let v485 : BitVec 32 := Scalar.muli v484 c128_i32_245
  let v486 : BitVec 32 := v485
  ![v482.toNat, v486.toNat]

def k0_chk26 (i : grid0.Coords) (v484 : BitVec 32) : Prop :=
  (128 ∣ (k0_mult26 v484).toNat) ∧
  (∀ a, (k0_off52 i v484) a + S1x128.size a ≤ S2048x120006.size a)
instance k0_chk26.dec : ∀ (i : grid0.Coords) (v484 : BitVec 32), Decidable (k0_chk26 i v484) := fun i v484 => decidable_of_iff' _ (Iff.of_eq (k0_chk26.eq_1 i v484))
theorem k0_mult26_dvd : ∀ (i : grid0.Coords) (v484 : BitVec 32) (k0_hw26 : k0_chk26 i v484), 128 ∣ (k0_mult26 v484).toNat := fun i v484 k0_hw26 => k0_hw26.1
theorem k0_off52_inb : ∀ (i : grid0.Coords) (v484 : BitVec 32) (k0_hw26 : k0_chk26 i v484), ∀ a, (k0_off52 i v484) a + S1x128.size a ≤ S2048x120006.size a := fun i v484 k0_hw26 => k0_hw26.2

def k0_off53 (i : grid0.Coords) : Fin 1 → Nat :=
  let arg0 : BitVec 32 := BitVec.ofNat 32 (i 0).val
  let c32_i32 : BitVec 32 := 32#32
  let v0 : BitVec 32 := Scalar.muli arg0 c32_i32
  let c13_i32 : BitVec 32 := 13#32
  let v493 : BitVec 32 := Scalar.addi v0 c13_i32
  let v494 : Index := Scalar.indexCast v493
  ![v494.toNat]
def k0_mult27 (v495 : BitVec 32) : BitVec 32 :=
  let c128_i32_250 : BitVec 32 := 128#32
  let v496 : BitVec 32 := Scalar.muli v495 c128_i32_250
  v496

def k0_off54 (i : grid0.Coords) (v495 : BitVec 32) : Fin 2 → Nat :=
  let arg0 : BitVec 32 := BitVec.ofNat 32 (i 0).val
  let c32_i32 : BitVec 32 := 32#32
  let v0 : BitVec 32 := Scalar.muli arg0 c32_i32
  let c13_i32 : BitVec 32 := 13#32
  let v493 : BitVec 32 := Scalar.addi v0 c13_i32
  let c128_i32_250 : BitVec 32 := 128#32
  let v496 : BitVec 32 := Scalar.muli v495 c128_i32_250
  let v497 : BitVec 32 := v496
  ![v493.toNat, v497.toNat]

def k0_chk27 (i : grid0.Coords) (v495 : BitVec 32) : Prop :=
  (128 ∣ (k0_mult27 v495).toNat) ∧
  (∀ a, (k0_off54 i v495) a + S1x128.size a ≤ S2048x120006.size a)
instance k0_chk27.dec : ∀ (i : grid0.Coords) (v495 : BitVec 32), Decidable (k0_chk27 i v495) := fun i v495 => decidable_of_iff' _ (Iff.of_eq (k0_chk27.eq_1 i v495))
theorem k0_mult27_dvd : ∀ (i : grid0.Coords) (v495 : BitVec 32) (k0_hw27 : k0_chk27 i v495), 128 ∣ (k0_mult27 v495).toNat := fun i v495 k0_hw27 => k0_hw27.1
theorem k0_off54_inb : ∀ (i : grid0.Coords) (v495 : BitVec 32) (k0_hw27 : k0_chk27 i v495), ∀ a, (k0_off54 i v495) a + S1x128.size a ≤ S2048x120006.size a := fun i v495 k0_hw27 => k0_hw27.2

def k0_off55 (i : grid0.Coords) (c12_i32_243 : BitVec 32) : Fin 1 → Nat :=
  let arg0 : BitVec 32 := BitVec.ofNat 32 (i 0).val
  let c32_i32 : BitVec 32 := 32#32
  let v0 : BitVec 32 := Scalar.muli arg0 c32_i32
  let v481 : BitVec 32 := Scalar.addi v0 c12_i32_243
  let v504 : Index := Scalar.indexCast v481
  ![v504.toNat]
def k0_mult28 (v523 : BitVec 32) : BitVec 32 :=
  let c128_i32_265 : BitVec 32 := 128#32
  let v524 : BitVec 32 := Scalar.muli v523 c128_i32_265
  v524

def k0_off56 (i : grid0.Coords) (v523 : BitVec 32) : Fin 2 → Nat :=
  let arg0 : BitVec 32 := BitVec.ofNat 32 (i 0).val
  let c32_i32 : BitVec 32 := 32#32
  let v0 : BitVec 32 := Scalar.muli arg0 c32_i32
  let c13_i32_264 : BitVec 32 := 13#32
  let v521 : BitVec 32 := Scalar.addi v0 c13_i32_264
  let c128_i32_265 : BitVec 32 := 128#32
  let v524 : BitVec 32 := Scalar.muli v523 c128_i32_265
  let v525 : BitVec 32 := v524
  ![v521.toNat, v525.toNat]

def k0_chk28 (i : grid0.Coords) (v523 : BitVec 32) : Prop :=
  (128 ∣ (k0_mult28 v523).toNat) ∧
  (∀ a, (k0_off56 i v523) a + S1x128.size a ≤ S2048x120006.size a)
instance k0_chk28.dec : ∀ (i : grid0.Coords) (v523 : BitVec 32), Decidable (k0_chk28 i v523) := fun i v523 => decidable_of_iff' _ (Iff.of_eq (k0_chk28.eq_1 i v523))
theorem k0_mult28_dvd : ∀ (i : grid0.Coords) (v523 : BitVec 32) (k0_hw28 : k0_chk28 i v523), 128 ∣ (k0_mult28 v523).toNat := fun i v523 k0_hw28 => k0_hw28.1
theorem k0_off56_inb : ∀ (i : grid0.Coords) (v523 : BitVec 32) (k0_hw28 : k0_chk28 i v523), ∀ a, (k0_off56 i v523) a + S1x128.size a ≤ S2048x120006.size a := fun i v523 k0_hw28 => k0_hw28.2

def k0_off57 (i : grid0.Coords) : Fin 1 → Nat :=
  let arg0 : BitVec 32 := BitVec.ofNat 32 (i 0).val
  let c32_i32 : BitVec 32 := 32#32
  let v0 : BitVec 32 := Scalar.muli arg0 c32_i32
  let c14_i32 : BitVec 32 := 14#32
  let v532 : BitVec 32 := Scalar.addi v0 c14_i32
  let v533 : Index := Scalar.indexCast v532
  ![v533.toNat]
def k0_mult29 (v534 : BitVec 32) : BitVec 32 :=
  let c128_i32_270 : BitVec 32 := 128#32
  let v535 : BitVec 32 := Scalar.muli v534 c128_i32_270
  v535

def k0_off58 (i : grid0.Coords) (v534 : BitVec 32) : Fin 2 → Nat :=
  let arg0 : BitVec 32 := BitVec.ofNat 32 (i 0).val
  let c32_i32 : BitVec 32 := 32#32
  let v0 : BitVec 32 := Scalar.muli arg0 c32_i32
  let c14_i32 : BitVec 32 := 14#32
  let v532 : BitVec 32 := Scalar.addi v0 c14_i32
  let c128_i32_270 : BitVec 32 := 128#32
  let v535 : BitVec 32 := Scalar.muli v534 c128_i32_270
  let v536 : BitVec 32 := v535
  ![v532.toNat, v536.toNat]

def k0_chk29 (i : grid0.Coords) (v534 : BitVec 32) : Prop :=
  (128 ∣ (k0_mult29 v534).toNat) ∧
  (∀ a, (k0_off58 i v534) a + S1x128.size a ≤ S2048x120006.size a)
instance k0_chk29.dec : ∀ (i : grid0.Coords) (v534 : BitVec 32), Decidable (k0_chk29 i v534) := fun i v534 => decidable_of_iff' _ (Iff.of_eq (k0_chk29.eq_1 i v534))
theorem k0_mult29_dvd : ∀ (i : grid0.Coords) (v534 : BitVec 32) (k0_hw29 : k0_chk29 i v534), 128 ∣ (k0_mult29 v534).toNat := fun i v534 k0_hw29 => k0_hw29.1
theorem k0_off58_inb : ∀ (i : grid0.Coords) (v534 : BitVec 32) (k0_hw29 : k0_chk29 i v534), ∀ a, (k0_off58 i v534) a + S1x128.size a ≤ S2048x120006.size a := fun i v534 k0_hw29 => k0_hw29.2

def k0_off59 (i : grid0.Coords) (c13_i32_263 : BitVec 32) : Fin 1 → Nat :=
  let arg0 : BitVec 32 := BitVec.ofNat 32 (i 0).val
  let c32_i32 : BitVec 32 := 32#32
  let v0 : BitVec 32 := Scalar.muli arg0 c32_i32
  let v520 : BitVec 32 := Scalar.addi v0 c13_i32_263
  let v543 : Index := Scalar.indexCast v520
  ![v543.toNat]
def k0_mult30 (v562 : BitVec 32) : BitVec 32 :=
  let c128_i32_285 : BitVec 32 := 128#32
  let v563 : BitVec 32 := Scalar.muli v562 c128_i32_285
  v563

def k0_off60 (i : grid0.Coords) (v562 : BitVec 32) : Fin 2 → Nat :=
  let arg0 : BitVec 32 := BitVec.ofNat 32 (i 0).val
  let c32_i32 : BitVec 32 := 32#32
  let v0 : BitVec 32 := Scalar.muli arg0 c32_i32
  let c14_i32_284 : BitVec 32 := 14#32
  let v560 : BitVec 32 := Scalar.addi v0 c14_i32_284
  let c128_i32_285 : BitVec 32 := 128#32
  let v563 : BitVec 32 := Scalar.muli v562 c128_i32_285
  let v564 : BitVec 32 := v563
  ![v560.toNat, v564.toNat]

def k0_chk30 (i : grid0.Coords) (v562 : BitVec 32) : Prop :=
  (128 ∣ (k0_mult30 v562).toNat) ∧
  (∀ a, (k0_off60 i v562) a + S1x128.size a ≤ S2048x120006.size a)
instance k0_chk30.dec : ∀ (i : grid0.Coords) (v562 : BitVec 32), Decidable (k0_chk30 i v562) := fun i v562 => decidable_of_iff' _ (Iff.of_eq (k0_chk30.eq_1 i v562))
theorem k0_mult30_dvd : ∀ (i : grid0.Coords) (v562 : BitVec 32) (k0_hw30 : k0_chk30 i v562), 128 ∣ (k0_mult30 v562).toNat := fun i v562 k0_hw30 => k0_hw30.1
theorem k0_off60_inb : ∀ (i : grid0.Coords) (v562 : BitVec 32) (k0_hw30 : k0_chk30 i v562), ∀ a, (k0_off60 i v562) a + S1x128.size a ≤ S2048x120006.size a := fun i v562 k0_hw30 => k0_hw30.2

def k0_off61 (i : grid0.Coords) : Fin 1 → Nat :=
  let arg0 : BitVec 32 := BitVec.ofNat 32 (i 0).val
  let c32_i32 : BitVec 32 := 32#32
  let v0 : BitVec 32 := Scalar.muli arg0 c32_i32
  let c15_i32 : BitVec 32 := 15#32
  let v571 : BitVec 32 := Scalar.addi v0 c15_i32
  let v572 : Index := Scalar.indexCast v571
  ![v572.toNat]
def k0_mult31 (v573 : BitVec 32) : BitVec 32 :=
  let c128_i32_290 : BitVec 32 := 128#32
  let v574 : BitVec 32 := Scalar.muli v573 c128_i32_290
  v574

def k0_off62 (i : grid0.Coords) (v573 : BitVec 32) : Fin 2 → Nat :=
  let arg0 : BitVec 32 := BitVec.ofNat 32 (i 0).val
  let c32_i32 : BitVec 32 := 32#32
  let v0 : BitVec 32 := Scalar.muli arg0 c32_i32
  let c15_i32 : BitVec 32 := 15#32
  let v571 : BitVec 32 := Scalar.addi v0 c15_i32
  let c128_i32_290 : BitVec 32 := 128#32
  let v574 : BitVec 32 := Scalar.muli v573 c128_i32_290
  let v575 : BitVec 32 := v574
  ![v571.toNat, v575.toNat]

def k0_chk31 (i : grid0.Coords) (v573 : BitVec 32) : Prop :=
  (128 ∣ (k0_mult31 v573).toNat) ∧
  (∀ a, (k0_off62 i v573) a + S1x128.size a ≤ S2048x120006.size a)
instance k0_chk31.dec : ∀ (i : grid0.Coords) (v573 : BitVec 32), Decidable (k0_chk31 i v573) := fun i v573 => decidable_of_iff' _ (Iff.of_eq (k0_chk31.eq_1 i v573))
theorem k0_mult31_dvd : ∀ (i : grid0.Coords) (v573 : BitVec 32) (k0_hw31 : k0_chk31 i v573), 128 ∣ (k0_mult31 v573).toNat := fun i v573 k0_hw31 => k0_hw31.1
theorem k0_off62_inb : ∀ (i : grid0.Coords) (v573 : BitVec 32) (k0_hw31 : k0_chk31 i v573), ∀ a, (k0_off62 i v573) a + S1x128.size a ≤ S2048x120006.size a := fun i v573 k0_hw31 => k0_hw31.2

def k0_off63 (i : grid0.Coords) (c14_i32_283 : BitVec 32) : Fin 1 → Nat :=
  let arg0 : BitVec 32 := BitVec.ofNat 32 (i 0).val
  let c32_i32 : BitVec 32 := 32#32
  let v0 : BitVec 32 := Scalar.muli arg0 c32_i32
  let v559 : BitVec 32 := Scalar.addi v0 c14_i32_283
  let v582 : Index := Scalar.indexCast v559
  ![v582.toNat]
def k0_mult32 (v601 : BitVec 32) : BitVec 32 :=
  let c128_i32_305 : BitVec 32 := 128#32
  let v602 : BitVec 32 := Scalar.muli v601 c128_i32_305
  v602

def k0_off64 (i : grid0.Coords) (v601 : BitVec 32) : Fin 2 → Nat :=
  let arg0 : BitVec 32 := BitVec.ofNat 32 (i 0).val
  let c32_i32 : BitVec 32 := 32#32
  let v0 : BitVec 32 := Scalar.muli arg0 c32_i32
  let c15_i32_304 : BitVec 32 := 15#32
  let v599 : BitVec 32 := Scalar.addi v0 c15_i32_304
  let c128_i32_305 : BitVec 32 := 128#32
  let v602 : BitVec 32 := Scalar.muli v601 c128_i32_305
  let v603 : BitVec 32 := v602
  ![v599.toNat, v603.toNat]

def k0_chk32 (i : grid0.Coords) (v601 : BitVec 32) : Prop :=
  (128 ∣ (k0_mult32 v601).toNat) ∧
  (∀ a, (k0_off64 i v601) a + S1x128.size a ≤ S2048x120006.size a)
instance k0_chk32.dec : ∀ (i : grid0.Coords) (v601 : BitVec 32), Decidable (k0_chk32 i v601) := fun i v601 => decidable_of_iff' _ (Iff.of_eq (k0_chk32.eq_1 i v601))
theorem k0_mult32_dvd : ∀ (i : grid0.Coords) (v601 : BitVec 32) (k0_hw32 : k0_chk32 i v601), 128 ∣ (k0_mult32 v601).toNat := fun i v601 k0_hw32 => k0_hw32.1
theorem k0_off64_inb : ∀ (i : grid0.Coords) (v601 : BitVec 32) (k0_hw32 : k0_chk32 i v601), ∀ a, (k0_off64 i v601) a + S1x128.size a ≤ S2048x120006.size a := fun i v601 k0_hw32 => k0_hw32.2

def k0_off65 (i : grid0.Coords) : Fin 1 → Nat :=
  let arg0 : BitVec 32 := BitVec.ofNat 32 (i 0).val
  let c32_i32 : BitVec 32 := 32#32
  let v0 : BitVec 32 := Scalar.muli arg0 c32_i32
  let c16_i32 : BitVec 32 := 16#32
  let v610 : BitVec 32 := Scalar.addi v0 c16_i32
  let v611 : Index := Scalar.indexCast v610
  ![v611.toNat]
def k0_mult33 (v612 : BitVec 32) : BitVec 32 :=
  let c128_i32_310 : BitVec 32 := 128#32
  let v613 : BitVec 32 := Scalar.muli v612 c128_i32_310
  v613

def k0_off66 (i : grid0.Coords) (v612 : BitVec 32) : Fin 2 → Nat :=
  let arg0 : BitVec 32 := BitVec.ofNat 32 (i 0).val
  let c32_i32 : BitVec 32 := 32#32
  let v0 : BitVec 32 := Scalar.muli arg0 c32_i32
  let c16_i32 : BitVec 32 := 16#32
  let v610 : BitVec 32 := Scalar.addi v0 c16_i32
  let c128_i32_310 : BitVec 32 := 128#32
  let v613 : BitVec 32 := Scalar.muli v612 c128_i32_310
  let v614 : BitVec 32 := v613
  ![v610.toNat, v614.toNat]

def k0_chk33 (i : grid0.Coords) (v612 : BitVec 32) : Prop :=
  (128 ∣ (k0_mult33 v612).toNat) ∧
  (∀ a, (k0_off66 i v612) a + S1x128.size a ≤ S2048x120006.size a)
instance k0_chk33.dec : ∀ (i : grid0.Coords) (v612 : BitVec 32), Decidable (k0_chk33 i v612) := fun i v612 => decidable_of_iff' _ (Iff.of_eq (k0_chk33.eq_1 i v612))
theorem k0_mult33_dvd : ∀ (i : grid0.Coords) (v612 : BitVec 32) (k0_hw33 : k0_chk33 i v612), 128 ∣ (k0_mult33 v612).toNat := fun i v612 k0_hw33 => k0_hw33.1
theorem k0_off66_inb : ∀ (i : grid0.Coords) (v612 : BitVec 32) (k0_hw33 : k0_chk33 i v612), ∀ a, (k0_off66 i v612) a + S1x128.size a ≤ S2048x120006.size a := fun i v612 k0_hw33 => k0_hw33.2

def k0_off67 (i : grid0.Coords) (c15_i32_303 : BitVec 32) : Fin 1 → Nat :=
  let arg0 : BitVec 32 := BitVec.ofNat 32 (i 0).val
  let c32_i32 : BitVec 32 := 32#32
  let v0 : BitVec 32 := Scalar.muli arg0 c32_i32
  let v598 : BitVec 32 := Scalar.addi v0 c15_i32_303
  let v621 : Index := Scalar.indexCast v598
  ![v621.toNat]
def k0_mult34 (v640 : BitVec 32) : BitVec 32 :=
  let c128_i32_325 : BitVec 32 := 128#32
  let v641 : BitVec 32 := Scalar.muli v640 c128_i32_325
  v641

def k0_off68 (i : grid0.Coords) (v640 : BitVec 32) : Fin 2 → Nat :=
  let arg0 : BitVec 32 := BitVec.ofNat 32 (i 0).val
  let c32_i32 : BitVec 32 := 32#32
  let v0 : BitVec 32 := Scalar.muli arg0 c32_i32
  let c16_i32_324 : BitVec 32 := 16#32
  let v638 : BitVec 32 := Scalar.addi v0 c16_i32_324
  let c128_i32_325 : BitVec 32 := 128#32
  let v641 : BitVec 32 := Scalar.muli v640 c128_i32_325
  let v642 : BitVec 32 := v641
  ![v638.toNat, v642.toNat]

def k0_chk34 (i : grid0.Coords) (v640 : BitVec 32) : Prop :=
  (128 ∣ (k0_mult34 v640).toNat) ∧
  (∀ a, (k0_off68 i v640) a + S1x128.size a ≤ S2048x120006.size a)
instance k0_chk34.dec : ∀ (i : grid0.Coords) (v640 : BitVec 32), Decidable (k0_chk34 i v640) := fun i v640 => decidable_of_iff' _ (Iff.of_eq (k0_chk34.eq_1 i v640))
theorem k0_mult34_dvd : ∀ (i : grid0.Coords) (v640 : BitVec 32) (k0_hw34 : k0_chk34 i v640), 128 ∣ (k0_mult34 v640).toNat := fun i v640 k0_hw34 => k0_hw34.1
theorem k0_off68_inb : ∀ (i : grid0.Coords) (v640 : BitVec 32) (k0_hw34 : k0_chk34 i v640), ∀ a, (k0_off68 i v640) a + S1x128.size a ≤ S2048x120006.size a := fun i v640 k0_hw34 => k0_hw34.2

def k0_off69 (i : grid0.Coords) : Fin 1 → Nat :=
  let arg0 : BitVec 32 := BitVec.ofNat 32 (i 0).val
  let c32_i32 : BitVec 32 := 32#32
  let v0 : BitVec 32 := Scalar.muli arg0 c32_i32
  let c17_i32 : BitVec 32 := 17#32
  let v649 : BitVec 32 := Scalar.addi v0 c17_i32
  let v650 : Index := Scalar.indexCast v649
  ![v650.toNat]
def k0_mult35 (v651 : BitVec 32) : BitVec 32 :=
  let c128_i32_330 : BitVec 32 := 128#32
  let v652 : BitVec 32 := Scalar.muli v651 c128_i32_330
  v652

def k0_off70 (i : grid0.Coords) (v651 : BitVec 32) : Fin 2 → Nat :=
  let arg0 : BitVec 32 := BitVec.ofNat 32 (i 0).val
  let c32_i32 : BitVec 32 := 32#32
  let v0 : BitVec 32 := Scalar.muli arg0 c32_i32
  let c17_i32 : BitVec 32 := 17#32
  let v649 : BitVec 32 := Scalar.addi v0 c17_i32
  let c128_i32_330 : BitVec 32 := 128#32
  let v652 : BitVec 32 := Scalar.muli v651 c128_i32_330
  let v653 : BitVec 32 := v652
  ![v649.toNat, v653.toNat]

def k0_chk35 (i : grid0.Coords) (v651 : BitVec 32) : Prop :=
  (128 ∣ (k0_mult35 v651).toNat) ∧
  (∀ a, (k0_off70 i v651) a + S1x128.size a ≤ S2048x120006.size a)
instance k0_chk35.dec : ∀ (i : grid0.Coords) (v651 : BitVec 32), Decidable (k0_chk35 i v651) := fun i v651 => decidable_of_iff' _ (Iff.of_eq (k0_chk35.eq_1 i v651))
theorem k0_mult35_dvd : ∀ (i : grid0.Coords) (v651 : BitVec 32) (k0_hw35 : k0_chk35 i v651), 128 ∣ (k0_mult35 v651).toNat := fun i v651 k0_hw35 => k0_hw35.1
theorem k0_off70_inb : ∀ (i : grid0.Coords) (v651 : BitVec 32) (k0_hw35 : k0_chk35 i v651), ∀ a, (k0_off70 i v651) a + S1x128.size a ≤ S2048x120006.size a := fun i v651 k0_hw35 => k0_hw35.2

def k0_off71 (i : grid0.Coords) (c16_i32_323 : BitVec 32) : Fin 1 → Nat :=
  let arg0 : BitVec 32 := BitVec.ofNat 32 (i 0).val
  let c32_i32 : BitVec 32 := 32#32
  let v0 : BitVec 32 := Scalar.muli arg0 c32_i32
  let v637 : BitVec 32 := Scalar.addi v0 c16_i32_323
  let v660 : Index := Scalar.indexCast v637
  ![v660.toNat]
def k0_mult36 (v679 : BitVec 32) : BitVec 32 :=
  let c128_i32_345 : BitVec 32 := 128#32
  let v680 : BitVec 32 := Scalar.muli v679 c128_i32_345
  v680

def k0_off72 (i : grid0.Coords) (v679 : BitVec 32) : Fin 2 → Nat :=
  let arg0 : BitVec 32 := BitVec.ofNat 32 (i 0).val
  let c32_i32 : BitVec 32 := 32#32
  let v0 : BitVec 32 := Scalar.muli arg0 c32_i32
  let c17_i32_344 : BitVec 32 := 17#32
  let v677 : BitVec 32 := Scalar.addi v0 c17_i32_344
  let c128_i32_345 : BitVec 32 := 128#32
  let v680 : BitVec 32 := Scalar.muli v679 c128_i32_345
  let v681 : BitVec 32 := v680
  ![v677.toNat, v681.toNat]

def k0_chk36 (i : grid0.Coords) (v679 : BitVec 32) : Prop :=
  (128 ∣ (k0_mult36 v679).toNat) ∧
  (∀ a, (k0_off72 i v679) a + S1x128.size a ≤ S2048x120006.size a)
instance k0_chk36.dec : ∀ (i : grid0.Coords) (v679 : BitVec 32), Decidable (k0_chk36 i v679) := fun i v679 => decidable_of_iff' _ (Iff.of_eq (k0_chk36.eq_1 i v679))
theorem k0_mult36_dvd : ∀ (i : grid0.Coords) (v679 : BitVec 32) (k0_hw36 : k0_chk36 i v679), 128 ∣ (k0_mult36 v679).toNat := fun i v679 k0_hw36 => k0_hw36.1
theorem k0_off72_inb : ∀ (i : grid0.Coords) (v679 : BitVec 32) (k0_hw36 : k0_chk36 i v679), ∀ a, (k0_off72 i v679) a + S1x128.size a ≤ S2048x120006.size a := fun i v679 k0_hw36 => k0_hw36.2

def k0_off73 (i : grid0.Coords) : Fin 1 → Nat :=
  let arg0 : BitVec 32 := BitVec.ofNat 32 (i 0).val
  let c32_i32 : BitVec 32 := 32#32
  let v0 : BitVec 32 := Scalar.muli arg0 c32_i32
  let c18_i32 : BitVec 32 := 18#32
  let v688 : BitVec 32 := Scalar.addi v0 c18_i32
  let v689 : Index := Scalar.indexCast v688
  ![v689.toNat]
def k0_mult37 (v690 : BitVec 32) : BitVec 32 :=
  let c128_i32_350 : BitVec 32 := 128#32
  let v691 : BitVec 32 := Scalar.muli v690 c128_i32_350
  v691

def k0_off74 (i : grid0.Coords) (v690 : BitVec 32) : Fin 2 → Nat :=
  let arg0 : BitVec 32 := BitVec.ofNat 32 (i 0).val
  let c32_i32 : BitVec 32 := 32#32
  let v0 : BitVec 32 := Scalar.muli arg0 c32_i32
  let c18_i32 : BitVec 32 := 18#32
  let v688 : BitVec 32 := Scalar.addi v0 c18_i32
  let c128_i32_350 : BitVec 32 := 128#32
  let v691 : BitVec 32 := Scalar.muli v690 c128_i32_350
  let v692 : BitVec 32 := v691
  ![v688.toNat, v692.toNat]

def k0_chk37 (i : grid0.Coords) (v690 : BitVec 32) : Prop :=
  (128 ∣ (k0_mult37 v690).toNat) ∧
  (∀ a, (k0_off74 i v690) a + S1x128.size a ≤ S2048x120006.size a)
instance k0_chk37.dec : ∀ (i : grid0.Coords) (v690 : BitVec 32), Decidable (k0_chk37 i v690) := fun i v690 => decidable_of_iff' _ (Iff.of_eq (k0_chk37.eq_1 i v690))
theorem k0_mult37_dvd : ∀ (i : grid0.Coords) (v690 : BitVec 32) (k0_hw37 : k0_chk37 i v690), 128 ∣ (k0_mult37 v690).toNat := fun i v690 k0_hw37 => k0_hw37.1
theorem k0_off74_inb : ∀ (i : grid0.Coords) (v690 : BitVec 32) (k0_hw37 : k0_chk37 i v690), ∀ a, (k0_off74 i v690) a + S1x128.size a ≤ S2048x120006.size a := fun i v690 k0_hw37 => k0_hw37.2

def k0_off75 (i : grid0.Coords) (c17_i32_343 : BitVec 32) : Fin 1 → Nat :=
  let arg0 : BitVec 32 := BitVec.ofNat 32 (i 0).val
  let c32_i32 : BitVec 32 := 32#32
  let v0 : BitVec 32 := Scalar.muli arg0 c32_i32
  let v676 : BitVec 32 := Scalar.addi v0 c17_i32_343
  let v699 : Index := Scalar.indexCast v676
  ![v699.toNat]
def k0_mult38 (v718 : BitVec 32) : BitVec 32 :=
  let c128_i32_365 : BitVec 32 := 128#32
  let v719 : BitVec 32 := Scalar.muli v718 c128_i32_365
  v719

def k0_off76 (i : grid0.Coords) (v718 : BitVec 32) : Fin 2 → Nat :=
  let arg0 : BitVec 32 := BitVec.ofNat 32 (i 0).val
  let c32_i32 : BitVec 32 := 32#32
  let v0 : BitVec 32 := Scalar.muli arg0 c32_i32
  let c18_i32_364 : BitVec 32 := 18#32
  let v716 : BitVec 32 := Scalar.addi v0 c18_i32_364
  let c128_i32_365 : BitVec 32 := 128#32
  let v719 : BitVec 32 := Scalar.muli v718 c128_i32_365
  let v720 : BitVec 32 := v719
  ![v716.toNat, v720.toNat]

def k0_chk38 (i : grid0.Coords) (v718 : BitVec 32) : Prop :=
  (128 ∣ (k0_mult38 v718).toNat) ∧
  (∀ a, (k0_off76 i v718) a + S1x128.size a ≤ S2048x120006.size a)
instance k0_chk38.dec : ∀ (i : grid0.Coords) (v718 : BitVec 32), Decidable (k0_chk38 i v718) := fun i v718 => decidable_of_iff' _ (Iff.of_eq (k0_chk38.eq_1 i v718))
theorem k0_mult38_dvd : ∀ (i : grid0.Coords) (v718 : BitVec 32) (k0_hw38 : k0_chk38 i v718), 128 ∣ (k0_mult38 v718).toNat := fun i v718 k0_hw38 => k0_hw38.1
theorem k0_off76_inb : ∀ (i : grid0.Coords) (v718 : BitVec 32) (k0_hw38 : k0_chk38 i v718), ∀ a, (k0_off76 i v718) a + S1x128.size a ≤ S2048x120006.size a := fun i v718 k0_hw38 => k0_hw38.2

def k0_off77 (i : grid0.Coords) : Fin 1 → Nat :=
  let arg0 : BitVec 32 := BitVec.ofNat 32 (i 0).val
  let c32_i32 : BitVec 32 := 32#32
  let v0 : BitVec 32 := Scalar.muli arg0 c32_i32
  let c19_i32 : BitVec 32 := 19#32
  let v727 : BitVec 32 := Scalar.addi v0 c19_i32
  let v728 : Index := Scalar.indexCast v727
  ![v728.toNat]
def k0_mult39 (v729 : BitVec 32) : BitVec 32 :=
  let c128_i32_370 : BitVec 32 := 128#32
  let v730 : BitVec 32 := Scalar.muli v729 c128_i32_370
  v730

def k0_off78 (i : grid0.Coords) (v729 : BitVec 32) : Fin 2 → Nat :=
  let arg0 : BitVec 32 := BitVec.ofNat 32 (i 0).val
  let c32_i32 : BitVec 32 := 32#32
  let v0 : BitVec 32 := Scalar.muli arg0 c32_i32
  let c19_i32 : BitVec 32 := 19#32
  let v727 : BitVec 32 := Scalar.addi v0 c19_i32
  let c128_i32_370 : BitVec 32 := 128#32
  let v730 : BitVec 32 := Scalar.muli v729 c128_i32_370
  let v731 : BitVec 32 := v730
  ![v727.toNat, v731.toNat]

def k0_chk39 (i : grid0.Coords) (v729 : BitVec 32) : Prop :=
  (128 ∣ (k0_mult39 v729).toNat) ∧
  (∀ a, (k0_off78 i v729) a + S1x128.size a ≤ S2048x120006.size a)
instance k0_chk39.dec : ∀ (i : grid0.Coords) (v729 : BitVec 32), Decidable (k0_chk39 i v729) := fun i v729 => decidable_of_iff' _ (Iff.of_eq (k0_chk39.eq_1 i v729))
theorem k0_mult39_dvd : ∀ (i : grid0.Coords) (v729 : BitVec 32) (k0_hw39 : k0_chk39 i v729), 128 ∣ (k0_mult39 v729).toNat := fun i v729 k0_hw39 => k0_hw39.1
theorem k0_off78_inb : ∀ (i : grid0.Coords) (v729 : BitVec 32) (k0_hw39 : k0_chk39 i v729), ∀ a, (k0_off78 i v729) a + S1x128.size a ≤ S2048x120006.size a := fun i v729 k0_hw39 => k0_hw39.2

def k0_off79 (i : grid0.Coords) (c18_i32_363 : BitVec 32) : Fin 1 → Nat :=
  let arg0 : BitVec 32 := BitVec.ofNat 32 (i 0).val
  let c32_i32 : BitVec 32 := 32#32
  let v0 : BitVec 32 := Scalar.muli arg0 c32_i32
  let v715 : BitVec 32 := Scalar.addi v0 c18_i32_363
  let v738 : Index := Scalar.indexCast v715
  ![v738.toNat]
def k0_mult40 (v757 : BitVec 32) : BitVec 32 :=
  let c128_i32_385 : BitVec 32 := 128#32
  let v758 : BitVec 32 := Scalar.muli v757 c128_i32_385
  v758

def k0_off80 (i : grid0.Coords) (v757 : BitVec 32) : Fin 2 → Nat :=
  let arg0 : BitVec 32 := BitVec.ofNat 32 (i 0).val
  let c32_i32 : BitVec 32 := 32#32
  let v0 : BitVec 32 := Scalar.muli arg0 c32_i32
  let c19_i32_384 : BitVec 32 := 19#32
  let v755 : BitVec 32 := Scalar.addi v0 c19_i32_384
  let c128_i32_385 : BitVec 32 := 128#32
  let v758 : BitVec 32 := Scalar.muli v757 c128_i32_385
  let v759 : BitVec 32 := v758
  ![v755.toNat, v759.toNat]

def k0_chk40 (i : grid0.Coords) (v757 : BitVec 32) : Prop :=
  (128 ∣ (k0_mult40 v757).toNat) ∧
  (∀ a, (k0_off80 i v757) a + S1x128.size a ≤ S2048x120006.size a)
instance k0_chk40.dec : ∀ (i : grid0.Coords) (v757 : BitVec 32), Decidable (k0_chk40 i v757) := fun i v757 => decidable_of_iff' _ (Iff.of_eq (k0_chk40.eq_1 i v757))
theorem k0_mult40_dvd : ∀ (i : grid0.Coords) (v757 : BitVec 32) (k0_hw40 : k0_chk40 i v757), 128 ∣ (k0_mult40 v757).toNat := fun i v757 k0_hw40 => k0_hw40.1
theorem k0_off80_inb : ∀ (i : grid0.Coords) (v757 : BitVec 32) (k0_hw40 : k0_chk40 i v757), ∀ a, (k0_off80 i v757) a + S1x128.size a ≤ S2048x120006.size a := fun i v757 k0_hw40 => k0_hw40.2

def k0_off81 (i : grid0.Coords) : Fin 1 → Nat :=
  let arg0 : BitVec 32 := BitVec.ofNat 32 (i 0).val
  let c32_i32 : BitVec 32 := 32#32
  let v0 : BitVec 32 := Scalar.muli arg0 c32_i32
  let c20_i32 : BitVec 32 := 20#32
  let v766 : BitVec 32 := Scalar.addi v0 c20_i32
  let v767 : Index := Scalar.indexCast v766
  ![v767.toNat]
def k0_mult41 (v768 : BitVec 32) : BitVec 32 :=
  let c128_i32_390 : BitVec 32 := 128#32
  let v769 : BitVec 32 := Scalar.muli v768 c128_i32_390
  v769

def k0_off82 (i : grid0.Coords) (v768 : BitVec 32) : Fin 2 → Nat :=
  let arg0 : BitVec 32 := BitVec.ofNat 32 (i 0).val
  let c32_i32 : BitVec 32 := 32#32
  let v0 : BitVec 32 := Scalar.muli arg0 c32_i32
  let c20_i32 : BitVec 32 := 20#32
  let v766 : BitVec 32 := Scalar.addi v0 c20_i32
  let c128_i32_390 : BitVec 32 := 128#32
  let v769 : BitVec 32 := Scalar.muli v768 c128_i32_390
  let v770 : BitVec 32 := v769
  ![v766.toNat, v770.toNat]

def k0_chk41 (i : grid0.Coords) (v768 : BitVec 32) : Prop :=
  (128 ∣ (k0_mult41 v768).toNat) ∧
  (∀ a, (k0_off82 i v768) a + S1x128.size a ≤ S2048x120006.size a)
instance k0_chk41.dec : ∀ (i : grid0.Coords) (v768 : BitVec 32), Decidable (k0_chk41 i v768) := fun i v768 => decidable_of_iff' _ (Iff.of_eq (k0_chk41.eq_1 i v768))
theorem k0_mult41_dvd : ∀ (i : grid0.Coords) (v768 : BitVec 32) (k0_hw41 : k0_chk41 i v768), 128 ∣ (k0_mult41 v768).toNat := fun i v768 k0_hw41 => k0_hw41.1
theorem k0_off82_inb : ∀ (i : grid0.Coords) (v768 : BitVec 32) (k0_hw41 : k0_chk41 i v768), ∀ a, (k0_off82 i v768) a + S1x128.size a ≤ S2048x120006.size a := fun i v768 k0_hw41 => k0_hw41.2

def k0_off83 (i : grid0.Coords) (c19_i32_383 : BitVec 32) : Fin 1 → Nat :=
  let arg0 : BitVec 32 := BitVec.ofNat 32 (i 0).val
  let c32_i32 : BitVec 32 := 32#32
  let v0 : BitVec 32 := Scalar.muli arg0 c32_i32
  let v754 : BitVec 32 := Scalar.addi v0 c19_i32_383
  let v777 : Index := Scalar.indexCast v754
  ![v777.toNat]
def k0_mult42 (v796 : BitVec 32) : BitVec 32 :=
  let c128_i32_405 : BitVec 32 := 128#32
  let v797 : BitVec 32 := Scalar.muli v796 c128_i32_405
  v797

def k0_off84 (i : grid0.Coords) (v796 : BitVec 32) : Fin 2 → Nat :=
  let arg0 : BitVec 32 := BitVec.ofNat 32 (i 0).val
  let c32_i32 : BitVec 32 := 32#32
  let v0 : BitVec 32 := Scalar.muli arg0 c32_i32
  let c20_i32_404 : BitVec 32 := 20#32
  let v794 : BitVec 32 := Scalar.addi v0 c20_i32_404
  let c128_i32_405 : BitVec 32 := 128#32
  let v797 : BitVec 32 := Scalar.muli v796 c128_i32_405
  let v798 : BitVec 32 := v797
  ![v794.toNat, v798.toNat]

def k0_chk42 (i : grid0.Coords) (v796 : BitVec 32) : Prop :=
  (128 ∣ (k0_mult42 v796).toNat) ∧
  (∀ a, (k0_off84 i v796) a + S1x128.size a ≤ S2048x120006.size a)
instance k0_chk42.dec : ∀ (i : grid0.Coords) (v796 : BitVec 32), Decidable (k0_chk42 i v796) := fun i v796 => decidable_of_iff' _ (Iff.of_eq (k0_chk42.eq_1 i v796))
theorem k0_mult42_dvd : ∀ (i : grid0.Coords) (v796 : BitVec 32) (k0_hw42 : k0_chk42 i v796), 128 ∣ (k0_mult42 v796).toNat := fun i v796 k0_hw42 => k0_hw42.1
theorem k0_off84_inb : ∀ (i : grid0.Coords) (v796 : BitVec 32) (k0_hw42 : k0_chk42 i v796), ∀ a, (k0_off84 i v796) a + S1x128.size a ≤ S2048x120006.size a := fun i v796 k0_hw42 => k0_hw42.2

def k0_off85 (i : grid0.Coords) : Fin 1 → Nat :=
  let arg0 : BitVec 32 := BitVec.ofNat 32 (i 0).val
  let c32_i32 : BitVec 32 := 32#32
  let v0 : BitVec 32 := Scalar.muli arg0 c32_i32
  let c21_i32 : BitVec 32 := 21#32
  let v805 : BitVec 32 := Scalar.addi v0 c21_i32
  let v806 : Index := Scalar.indexCast v805
  ![v806.toNat]
def k0_mult43 (v807 : BitVec 32) : BitVec 32 :=
  let c128_i32_410 : BitVec 32 := 128#32
  let v808 : BitVec 32 := Scalar.muli v807 c128_i32_410
  v808

def k0_off86 (i : grid0.Coords) (v807 : BitVec 32) : Fin 2 → Nat :=
  let arg0 : BitVec 32 := BitVec.ofNat 32 (i 0).val
  let c32_i32 : BitVec 32 := 32#32
  let v0 : BitVec 32 := Scalar.muli arg0 c32_i32
  let c21_i32 : BitVec 32 := 21#32
  let v805 : BitVec 32 := Scalar.addi v0 c21_i32
  let c128_i32_410 : BitVec 32 := 128#32
  let v808 : BitVec 32 := Scalar.muli v807 c128_i32_410
  let v809 : BitVec 32 := v808
  ![v805.toNat, v809.toNat]

def k0_chk43 (i : grid0.Coords) (v807 : BitVec 32) : Prop :=
  (128 ∣ (k0_mult43 v807).toNat) ∧
  (∀ a, (k0_off86 i v807) a + S1x128.size a ≤ S2048x120006.size a)
instance k0_chk43.dec : ∀ (i : grid0.Coords) (v807 : BitVec 32), Decidable (k0_chk43 i v807) := fun i v807 => decidable_of_iff' _ (Iff.of_eq (k0_chk43.eq_1 i v807))
theorem k0_mult43_dvd : ∀ (i : grid0.Coords) (v807 : BitVec 32) (k0_hw43 : k0_chk43 i v807), 128 ∣ (k0_mult43 v807).toNat := fun i v807 k0_hw43 => k0_hw43.1
theorem k0_off86_inb : ∀ (i : grid0.Coords) (v807 : BitVec 32) (k0_hw43 : k0_chk43 i v807), ∀ a, (k0_off86 i v807) a + S1x128.size a ≤ S2048x120006.size a := fun i v807 k0_hw43 => k0_hw43.2

def k0_off87 (i : grid0.Coords) (c20_i32_403 : BitVec 32) : Fin 1 → Nat :=
  let arg0 : BitVec 32 := BitVec.ofNat 32 (i 0).val
  let c32_i32 : BitVec 32 := 32#32
  let v0 : BitVec 32 := Scalar.muli arg0 c32_i32
  let v793 : BitVec 32 := Scalar.addi v0 c20_i32_403
  let v816 : Index := Scalar.indexCast v793
  ![v816.toNat]
def k0_mult44 (v835 : BitVec 32) : BitVec 32 :=
  let c128_i32_425 : BitVec 32 := 128#32
  let v836 : BitVec 32 := Scalar.muli v835 c128_i32_425
  v836

def k0_off88 (i : grid0.Coords) (v835 : BitVec 32) : Fin 2 → Nat :=
  let arg0 : BitVec 32 := BitVec.ofNat 32 (i 0).val
  let c32_i32 : BitVec 32 := 32#32
  let v0 : BitVec 32 := Scalar.muli arg0 c32_i32
  let c21_i32_424 : BitVec 32 := 21#32
  let v833 : BitVec 32 := Scalar.addi v0 c21_i32_424
  let c128_i32_425 : BitVec 32 := 128#32
  let v836 : BitVec 32 := Scalar.muli v835 c128_i32_425
  let v837 : BitVec 32 := v836
  ![v833.toNat, v837.toNat]

def k0_chk44 (i : grid0.Coords) (v835 : BitVec 32) : Prop :=
  (128 ∣ (k0_mult44 v835).toNat) ∧
  (∀ a, (k0_off88 i v835) a + S1x128.size a ≤ S2048x120006.size a)
instance k0_chk44.dec : ∀ (i : grid0.Coords) (v835 : BitVec 32), Decidable (k0_chk44 i v835) := fun i v835 => decidable_of_iff' _ (Iff.of_eq (k0_chk44.eq_1 i v835))
theorem k0_mult44_dvd : ∀ (i : grid0.Coords) (v835 : BitVec 32) (k0_hw44 : k0_chk44 i v835), 128 ∣ (k0_mult44 v835).toNat := fun i v835 k0_hw44 => k0_hw44.1
theorem k0_off88_inb : ∀ (i : grid0.Coords) (v835 : BitVec 32) (k0_hw44 : k0_chk44 i v835), ∀ a, (k0_off88 i v835) a + S1x128.size a ≤ S2048x120006.size a := fun i v835 k0_hw44 => k0_hw44.2

def k0_off89 (i : grid0.Coords) : Fin 1 → Nat :=
  let arg0 : BitVec 32 := BitVec.ofNat 32 (i 0).val
  let c32_i32 : BitVec 32 := 32#32
  let v0 : BitVec 32 := Scalar.muli arg0 c32_i32
  let c22_i32 : BitVec 32 := 22#32
  let v844 : BitVec 32 := Scalar.addi v0 c22_i32
  let v845 : Index := Scalar.indexCast v844
  ![v845.toNat]
def k0_mult45 (v846 : BitVec 32) : BitVec 32 :=
  let c128_i32_430 : BitVec 32 := 128#32
  let v847 : BitVec 32 := Scalar.muli v846 c128_i32_430
  v847

def k0_off90 (i : grid0.Coords) (v846 : BitVec 32) : Fin 2 → Nat :=
  let arg0 : BitVec 32 := BitVec.ofNat 32 (i 0).val
  let c32_i32 : BitVec 32 := 32#32
  let v0 : BitVec 32 := Scalar.muli arg0 c32_i32
  let c22_i32 : BitVec 32 := 22#32
  let v844 : BitVec 32 := Scalar.addi v0 c22_i32
  let c128_i32_430 : BitVec 32 := 128#32
  let v847 : BitVec 32 := Scalar.muli v846 c128_i32_430
  let v848 : BitVec 32 := v847
  ![v844.toNat, v848.toNat]

def k0_chk45 (i : grid0.Coords) (v846 : BitVec 32) : Prop :=
  (128 ∣ (k0_mult45 v846).toNat) ∧
  (∀ a, (k0_off90 i v846) a + S1x128.size a ≤ S2048x120006.size a)
instance k0_chk45.dec : ∀ (i : grid0.Coords) (v846 : BitVec 32), Decidable (k0_chk45 i v846) := fun i v846 => decidable_of_iff' _ (Iff.of_eq (k0_chk45.eq_1 i v846))
theorem k0_mult45_dvd : ∀ (i : grid0.Coords) (v846 : BitVec 32) (k0_hw45 : k0_chk45 i v846), 128 ∣ (k0_mult45 v846).toNat := fun i v846 k0_hw45 => k0_hw45.1
theorem k0_off90_inb : ∀ (i : grid0.Coords) (v846 : BitVec 32) (k0_hw45 : k0_chk45 i v846), ∀ a, (k0_off90 i v846) a + S1x128.size a ≤ S2048x120006.size a := fun i v846 k0_hw45 => k0_hw45.2

def k0_off91 (i : grid0.Coords) (c21_i32_423 : BitVec 32) : Fin 1 → Nat :=
  let arg0 : BitVec 32 := BitVec.ofNat 32 (i 0).val
  let c32_i32 : BitVec 32 := 32#32
  let v0 : BitVec 32 := Scalar.muli arg0 c32_i32
  let v832 : BitVec 32 := Scalar.addi v0 c21_i32_423
  let v855 : Index := Scalar.indexCast v832
  ![v855.toNat]
def k0_mult46 (v874 : BitVec 32) : BitVec 32 :=
  let c128_i32_445 : BitVec 32 := 128#32
  let v875 : BitVec 32 := Scalar.muli v874 c128_i32_445
  v875

def k0_off92 (i : grid0.Coords) (v874 : BitVec 32) : Fin 2 → Nat :=
  let arg0 : BitVec 32 := BitVec.ofNat 32 (i 0).val
  let c32_i32 : BitVec 32 := 32#32
  let v0 : BitVec 32 := Scalar.muli arg0 c32_i32
  let c22_i32_444 : BitVec 32 := 22#32
  let v872 : BitVec 32 := Scalar.addi v0 c22_i32_444
  let c128_i32_445 : BitVec 32 := 128#32
  let v875 : BitVec 32 := Scalar.muli v874 c128_i32_445
  let v876 : BitVec 32 := v875
  ![v872.toNat, v876.toNat]

def k0_chk46 (i : grid0.Coords) (v874 : BitVec 32) : Prop :=
  (128 ∣ (k0_mult46 v874).toNat) ∧
  (∀ a, (k0_off92 i v874) a + S1x128.size a ≤ S2048x120006.size a)
instance k0_chk46.dec : ∀ (i : grid0.Coords) (v874 : BitVec 32), Decidable (k0_chk46 i v874) := fun i v874 => decidable_of_iff' _ (Iff.of_eq (k0_chk46.eq_1 i v874))
theorem k0_mult46_dvd : ∀ (i : grid0.Coords) (v874 : BitVec 32) (k0_hw46 : k0_chk46 i v874), 128 ∣ (k0_mult46 v874).toNat := fun i v874 k0_hw46 => k0_hw46.1
theorem k0_off92_inb : ∀ (i : grid0.Coords) (v874 : BitVec 32) (k0_hw46 : k0_chk46 i v874), ∀ a, (k0_off92 i v874) a + S1x128.size a ≤ S2048x120006.size a := fun i v874 k0_hw46 => k0_hw46.2

def k0_off93 (i : grid0.Coords) : Fin 1 → Nat :=
  let arg0 : BitVec 32 := BitVec.ofNat 32 (i 0).val
  let c32_i32 : BitVec 32 := 32#32
  let v0 : BitVec 32 := Scalar.muli arg0 c32_i32
  let c23_i32 : BitVec 32 := 23#32
  let v883 : BitVec 32 := Scalar.addi v0 c23_i32
  let v884 : Index := Scalar.indexCast v883
  ![v884.toNat]
def k0_mult47 (v885 : BitVec 32) : BitVec 32 :=
  let c128_i32_450 : BitVec 32 := 128#32
  let v886 : BitVec 32 := Scalar.muli v885 c128_i32_450
  v886

def k0_off94 (i : grid0.Coords) (v885 : BitVec 32) : Fin 2 → Nat :=
  let arg0 : BitVec 32 := BitVec.ofNat 32 (i 0).val
  let c32_i32 : BitVec 32 := 32#32
  let v0 : BitVec 32 := Scalar.muli arg0 c32_i32
  let c23_i32 : BitVec 32 := 23#32
  let v883 : BitVec 32 := Scalar.addi v0 c23_i32
  let c128_i32_450 : BitVec 32 := 128#32
  let v886 : BitVec 32 := Scalar.muli v885 c128_i32_450
  let v887 : BitVec 32 := v886
  ![v883.toNat, v887.toNat]

def k0_chk47 (i : grid0.Coords) (v885 : BitVec 32) : Prop :=
  (128 ∣ (k0_mult47 v885).toNat) ∧
  (∀ a, (k0_off94 i v885) a + S1x128.size a ≤ S2048x120006.size a)
instance k0_chk47.dec : ∀ (i : grid0.Coords) (v885 : BitVec 32), Decidable (k0_chk47 i v885) := fun i v885 => decidable_of_iff' _ (Iff.of_eq (k0_chk47.eq_1 i v885))
theorem k0_mult47_dvd : ∀ (i : grid0.Coords) (v885 : BitVec 32) (k0_hw47 : k0_chk47 i v885), 128 ∣ (k0_mult47 v885).toNat := fun i v885 k0_hw47 => k0_hw47.1
theorem k0_off94_inb : ∀ (i : grid0.Coords) (v885 : BitVec 32) (k0_hw47 : k0_chk47 i v885), ∀ a, (k0_off94 i v885) a + S1x128.size a ≤ S2048x120006.size a := fun i v885 k0_hw47 => k0_hw47.2

def k0_off95 (i : grid0.Coords) (c22_i32_443 : BitVec 32) : Fin 1 → Nat :=
  let arg0 : BitVec 32 := BitVec.ofNat 32 (i 0).val
  let c32_i32 : BitVec 32 := 32#32
  let v0 : BitVec 32 := Scalar.muli arg0 c32_i32
  let v871 : BitVec 32 := Scalar.addi v0 c22_i32_443
  let v894 : Index := Scalar.indexCast v871
  ![v894.toNat]
def k0_mult48 (v913 : BitVec 32) : BitVec 32 :=
  let c128_i32_465 : BitVec 32 := 128#32
  let v914 : BitVec 32 := Scalar.muli v913 c128_i32_465
  v914

def k0_off96 (i : grid0.Coords) (v913 : BitVec 32) : Fin 2 → Nat :=
  let arg0 : BitVec 32 := BitVec.ofNat 32 (i 0).val
  let c32_i32 : BitVec 32 := 32#32
  let v0 : BitVec 32 := Scalar.muli arg0 c32_i32
  let c23_i32_464 : BitVec 32 := 23#32
  let v911 : BitVec 32 := Scalar.addi v0 c23_i32_464
  let c128_i32_465 : BitVec 32 := 128#32
  let v914 : BitVec 32 := Scalar.muli v913 c128_i32_465
  let v915 : BitVec 32 := v914
  ![v911.toNat, v915.toNat]

def k0_chk48 (i : grid0.Coords) (v913 : BitVec 32) : Prop :=
  (128 ∣ (k0_mult48 v913).toNat) ∧
  (∀ a, (k0_off96 i v913) a + S1x128.size a ≤ S2048x120006.size a)
instance k0_chk48.dec : ∀ (i : grid0.Coords) (v913 : BitVec 32), Decidable (k0_chk48 i v913) := fun i v913 => decidable_of_iff' _ (Iff.of_eq (k0_chk48.eq_1 i v913))
theorem k0_mult48_dvd : ∀ (i : grid0.Coords) (v913 : BitVec 32) (k0_hw48 : k0_chk48 i v913), 128 ∣ (k0_mult48 v913).toNat := fun i v913 k0_hw48 => k0_hw48.1
theorem k0_off96_inb : ∀ (i : grid0.Coords) (v913 : BitVec 32) (k0_hw48 : k0_chk48 i v913), ∀ a, (k0_off96 i v913) a + S1x128.size a ≤ S2048x120006.size a := fun i v913 k0_hw48 => k0_hw48.2

def k0_off97 (i : grid0.Coords) : Fin 1 → Nat :=
  let arg0 : BitVec 32 := BitVec.ofNat 32 (i 0).val
  let c32_i32 : BitVec 32 := 32#32
  let v0 : BitVec 32 := Scalar.muli arg0 c32_i32
  let c24_i32 : BitVec 32 := 24#32
  let v922 : BitVec 32 := Scalar.addi v0 c24_i32
  let v923 : Index := Scalar.indexCast v922
  ![v923.toNat]
def k0_mult49 (v924 : BitVec 32) : BitVec 32 :=
  let c128_i32_470 : BitVec 32 := 128#32
  let v925 : BitVec 32 := Scalar.muli v924 c128_i32_470
  v925

def k0_off98 (i : grid0.Coords) (v924 : BitVec 32) : Fin 2 → Nat :=
  let arg0 : BitVec 32 := BitVec.ofNat 32 (i 0).val
  let c32_i32 : BitVec 32 := 32#32
  let v0 : BitVec 32 := Scalar.muli arg0 c32_i32
  let c24_i32 : BitVec 32 := 24#32
  let v922 : BitVec 32 := Scalar.addi v0 c24_i32
  let c128_i32_470 : BitVec 32 := 128#32
  let v925 : BitVec 32 := Scalar.muli v924 c128_i32_470
  let v926 : BitVec 32 := v925
  ![v922.toNat, v926.toNat]

def k0_chk49 (i : grid0.Coords) (v924 : BitVec 32) : Prop :=
  (128 ∣ (k0_mult49 v924).toNat) ∧
  (∀ a, (k0_off98 i v924) a + S1x128.size a ≤ S2048x120006.size a)
instance k0_chk49.dec : ∀ (i : grid0.Coords) (v924 : BitVec 32), Decidable (k0_chk49 i v924) := fun i v924 => decidable_of_iff' _ (Iff.of_eq (k0_chk49.eq_1 i v924))
theorem k0_mult49_dvd : ∀ (i : grid0.Coords) (v924 : BitVec 32) (k0_hw49 : k0_chk49 i v924), 128 ∣ (k0_mult49 v924).toNat := fun i v924 k0_hw49 => k0_hw49.1
theorem k0_off98_inb : ∀ (i : grid0.Coords) (v924 : BitVec 32) (k0_hw49 : k0_chk49 i v924), ∀ a, (k0_off98 i v924) a + S1x128.size a ≤ S2048x120006.size a := fun i v924 k0_hw49 => k0_hw49.2

def k0_off99 (i : grid0.Coords) (c23_i32_463 : BitVec 32) : Fin 1 → Nat :=
  let arg0 : BitVec 32 := BitVec.ofNat 32 (i 0).val
  let c32_i32 : BitVec 32 := 32#32
  let v0 : BitVec 32 := Scalar.muli arg0 c32_i32
  let v910 : BitVec 32 := Scalar.addi v0 c23_i32_463
  let v933 : Index := Scalar.indexCast v910
  ![v933.toNat]
def k0_mult50 (v952 : BitVec 32) : BitVec 32 :=
  let c128_i32_485 : BitVec 32 := 128#32
  let v953 : BitVec 32 := Scalar.muli v952 c128_i32_485
  v953

def k0_off100 (i : grid0.Coords) (v952 : BitVec 32) : Fin 2 → Nat :=
  let arg0 : BitVec 32 := BitVec.ofNat 32 (i 0).val
  let c32_i32 : BitVec 32 := 32#32
  let v0 : BitVec 32 := Scalar.muli arg0 c32_i32
  let c24_i32_484 : BitVec 32 := 24#32
  let v950 : BitVec 32 := Scalar.addi v0 c24_i32_484
  let c128_i32_485 : BitVec 32 := 128#32
  let v953 : BitVec 32 := Scalar.muli v952 c128_i32_485
  let v954 : BitVec 32 := v953
  ![v950.toNat, v954.toNat]

def k0_chk50 (i : grid0.Coords) (v952 : BitVec 32) : Prop :=
  (128 ∣ (k0_mult50 v952).toNat) ∧
  (∀ a, (k0_off100 i v952) a + S1x128.size a ≤ S2048x120006.size a)
instance k0_chk50.dec : ∀ (i : grid0.Coords) (v952 : BitVec 32), Decidable (k0_chk50 i v952) := fun i v952 => decidable_of_iff' _ (Iff.of_eq (k0_chk50.eq_1 i v952))
theorem k0_mult50_dvd : ∀ (i : grid0.Coords) (v952 : BitVec 32) (k0_hw50 : k0_chk50 i v952), 128 ∣ (k0_mult50 v952).toNat := fun i v952 k0_hw50 => k0_hw50.1
theorem k0_off100_inb : ∀ (i : grid0.Coords) (v952 : BitVec 32) (k0_hw50 : k0_chk50 i v952), ∀ a, (k0_off100 i v952) a + S1x128.size a ≤ S2048x120006.size a := fun i v952 k0_hw50 => k0_hw50.2

def k0_off101 (i : grid0.Coords) : Fin 1 → Nat :=
  let arg0 : BitVec 32 := BitVec.ofNat 32 (i 0).val
  let c32_i32 : BitVec 32 := 32#32
  let v0 : BitVec 32 := Scalar.muli arg0 c32_i32
  let c25_i32 : BitVec 32 := 25#32
  let v961 : BitVec 32 := Scalar.addi v0 c25_i32
  let v962 : Index := Scalar.indexCast v961
  ![v962.toNat]
def k0_mult51 (v963 : BitVec 32) : BitVec 32 :=
  let c128_i32_490 : BitVec 32 := 128#32
  let v964 : BitVec 32 := Scalar.muli v963 c128_i32_490
  v964

def k0_off102 (i : grid0.Coords) (v963 : BitVec 32) : Fin 2 → Nat :=
  let arg0 : BitVec 32 := BitVec.ofNat 32 (i 0).val
  let c32_i32 : BitVec 32 := 32#32
  let v0 : BitVec 32 := Scalar.muli arg0 c32_i32
  let c25_i32 : BitVec 32 := 25#32
  let v961 : BitVec 32 := Scalar.addi v0 c25_i32
  let c128_i32_490 : BitVec 32 := 128#32
  let v964 : BitVec 32 := Scalar.muli v963 c128_i32_490
  let v965 : BitVec 32 := v964
  ![v961.toNat, v965.toNat]

def k0_chk51 (i : grid0.Coords) (v963 : BitVec 32) : Prop :=
  (128 ∣ (k0_mult51 v963).toNat) ∧
  (∀ a, (k0_off102 i v963) a + S1x128.size a ≤ S2048x120006.size a)
instance k0_chk51.dec : ∀ (i : grid0.Coords) (v963 : BitVec 32), Decidable (k0_chk51 i v963) := fun i v963 => decidable_of_iff' _ (Iff.of_eq (k0_chk51.eq_1 i v963))
theorem k0_mult51_dvd : ∀ (i : grid0.Coords) (v963 : BitVec 32) (k0_hw51 : k0_chk51 i v963), 128 ∣ (k0_mult51 v963).toNat := fun i v963 k0_hw51 => k0_hw51.1
theorem k0_off102_inb : ∀ (i : grid0.Coords) (v963 : BitVec 32) (k0_hw51 : k0_chk51 i v963), ∀ a, (k0_off102 i v963) a + S1x128.size a ≤ S2048x120006.size a := fun i v963 k0_hw51 => k0_hw51.2

def k0_off103 (i : grid0.Coords) (c24_i32_483 : BitVec 32) : Fin 1 → Nat :=
  let arg0 : BitVec 32 := BitVec.ofNat 32 (i 0).val
  let c32_i32 : BitVec 32 := 32#32
  let v0 : BitVec 32 := Scalar.muli arg0 c32_i32
  let v949 : BitVec 32 := Scalar.addi v0 c24_i32_483
  let v972 : Index := Scalar.indexCast v949
  ![v972.toNat]
def k0_mult52 (v991 : BitVec 32) : BitVec 32 :=
  let c128_i32_505 : BitVec 32 := 128#32
  let v992 : BitVec 32 := Scalar.muli v991 c128_i32_505
  v992

def k0_off104 (i : grid0.Coords) (v991 : BitVec 32) : Fin 2 → Nat :=
  let arg0 : BitVec 32 := BitVec.ofNat 32 (i 0).val
  let c32_i32 : BitVec 32 := 32#32
  let v0 : BitVec 32 := Scalar.muli arg0 c32_i32
  let c25_i32_504 : BitVec 32 := 25#32
  let v989 : BitVec 32 := Scalar.addi v0 c25_i32_504
  let c128_i32_505 : BitVec 32 := 128#32
  let v992 : BitVec 32 := Scalar.muli v991 c128_i32_505
  let v993 : BitVec 32 := v992
  ![v989.toNat, v993.toNat]

def k0_chk52 (i : grid0.Coords) (v991 : BitVec 32) : Prop :=
  (128 ∣ (k0_mult52 v991).toNat) ∧
  (∀ a, (k0_off104 i v991) a + S1x128.size a ≤ S2048x120006.size a)
instance k0_chk52.dec : ∀ (i : grid0.Coords) (v991 : BitVec 32), Decidable (k0_chk52 i v991) := fun i v991 => decidable_of_iff' _ (Iff.of_eq (k0_chk52.eq_1 i v991))
theorem k0_mult52_dvd : ∀ (i : grid0.Coords) (v991 : BitVec 32) (k0_hw52 : k0_chk52 i v991), 128 ∣ (k0_mult52 v991).toNat := fun i v991 k0_hw52 => k0_hw52.1
theorem k0_off104_inb : ∀ (i : grid0.Coords) (v991 : BitVec 32) (k0_hw52 : k0_chk52 i v991), ∀ a, (k0_off104 i v991) a + S1x128.size a ≤ S2048x120006.size a := fun i v991 k0_hw52 => k0_hw52.2

def k0_off105 (i : grid0.Coords) : Fin 1 → Nat :=
  let arg0 : BitVec 32 := BitVec.ofNat 32 (i 0).val
  let c32_i32 : BitVec 32 := 32#32
  let v0 : BitVec 32 := Scalar.muli arg0 c32_i32
  let c26_i32 : BitVec 32 := 26#32
  let v1000 : BitVec 32 := Scalar.addi v0 c26_i32
  let v1001 : Index := Scalar.indexCast v1000
  ![v1001.toNat]
def k0_mult53 (v1002 : BitVec 32) : BitVec 32 :=
  let c128_i32_510 : BitVec 32 := 128#32
  let v1003 : BitVec 32 := Scalar.muli v1002 c128_i32_510
  v1003

def k0_off106 (i : grid0.Coords) (v1002 : BitVec 32) : Fin 2 → Nat :=
  let arg0 : BitVec 32 := BitVec.ofNat 32 (i 0).val
  let c32_i32 : BitVec 32 := 32#32
  let v0 : BitVec 32 := Scalar.muli arg0 c32_i32
  let c26_i32 : BitVec 32 := 26#32
  let v1000 : BitVec 32 := Scalar.addi v0 c26_i32
  let c128_i32_510 : BitVec 32 := 128#32
  let v1003 : BitVec 32 := Scalar.muli v1002 c128_i32_510
  let v1004 : BitVec 32 := v1003
  ![v1000.toNat, v1004.toNat]

def k0_chk53 (i : grid0.Coords) (v1002 : BitVec 32) : Prop :=
  (128 ∣ (k0_mult53 v1002).toNat) ∧
  (∀ a, (k0_off106 i v1002) a + S1x128.size a ≤ S2048x120006.size a)
instance k0_chk53.dec : ∀ (i : grid0.Coords) (v1002 : BitVec 32), Decidable (k0_chk53 i v1002) := fun i v1002 => decidable_of_iff' _ (Iff.of_eq (k0_chk53.eq_1 i v1002))
theorem k0_mult53_dvd : ∀ (i : grid0.Coords) (v1002 : BitVec 32) (k0_hw53 : k0_chk53 i v1002), 128 ∣ (k0_mult53 v1002).toNat := fun i v1002 k0_hw53 => k0_hw53.1
theorem k0_off106_inb : ∀ (i : grid0.Coords) (v1002 : BitVec 32) (k0_hw53 : k0_chk53 i v1002), ∀ a, (k0_off106 i v1002) a + S1x128.size a ≤ S2048x120006.size a := fun i v1002 k0_hw53 => k0_hw53.2

def k0_off107 (i : grid0.Coords) (c25_i32_503 : BitVec 32) : Fin 1 → Nat :=
  let arg0 : BitVec 32 := BitVec.ofNat 32 (i 0).val
  let c32_i32 : BitVec 32 := 32#32
  let v0 : BitVec 32 := Scalar.muli arg0 c32_i32
  let v988 : BitVec 32 := Scalar.addi v0 c25_i32_503
  let v1011 : Index := Scalar.indexCast v988
  ![v1011.toNat]
def k0_mult54 (v1030 : BitVec 32) : BitVec 32 :=
  let c128_i32_525 : BitVec 32 := 128#32
  let v1031 : BitVec 32 := Scalar.muli v1030 c128_i32_525
  v1031

def k0_off108 (i : grid0.Coords) (v1030 : BitVec 32) : Fin 2 → Nat :=
  let arg0 : BitVec 32 := BitVec.ofNat 32 (i 0).val
  let c32_i32 : BitVec 32 := 32#32
  let v0 : BitVec 32 := Scalar.muli arg0 c32_i32
  let c26_i32_524 : BitVec 32 := 26#32
  let v1028 : BitVec 32 := Scalar.addi v0 c26_i32_524
  let c128_i32_525 : BitVec 32 := 128#32
  let v1031 : BitVec 32 := Scalar.muli v1030 c128_i32_525
  let v1032 : BitVec 32 := v1031
  ![v1028.toNat, v1032.toNat]

def k0_chk54 (i : grid0.Coords) (v1030 : BitVec 32) : Prop :=
  (128 ∣ (k0_mult54 v1030).toNat) ∧
  (∀ a, (k0_off108 i v1030) a + S1x128.size a ≤ S2048x120006.size a)
instance k0_chk54.dec : ∀ (i : grid0.Coords) (v1030 : BitVec 32), Decidable (k0_chk54 i v1030) := fun i v1030 => decidable_of_iff' _ (Iff.of_eq (k0_chk54.eq_1 i v1030))
theorem k0_mult54_dvd : ∀ (i : grid0.Coords) (v1030 : BitVec 32) (k0_hw54 : k0_chk54 i v1030), 128 ∣ (k0_mult54 v1030).toNat := fun i v1030 k0_hw54 => k0_hw54.1
theorem k0_off108_inb : ∀ (i : grid0.Coords) (v1030 : BitVec 32) (k0_hw54 : k0_chk54 i v1030), ∀ a, (k0_off108 i v1030) a + S1x128.size a ≤ S2048x120006.size a := fun i v1030 k0_hw54 => k0_hw54.2

def k0_off109 (i : grid0.Coords) : Fin 1 → Nat :=
  let arg0 : BitVec 32 := BitVec.ofNat 32 (i 0).val
  let c32_i32 : BitVec 32 := 32#32
  let v0 : BitVec 32 := Scalar.muli arg0 c32_i32
  let c27_i32 : BitVec 32 := 27#32
  let v1039 : BitVec 32 := Scalar.addi v0 c27_i32
  let v1040 : Index := Scalar.indexCast v1039
  ![v1040.toNat]
def k0_mult55 (v1041 : BitVec 32) : BitVec 32 :=
  let c128_i32_530 : BitVec 32 := 128#32
  let v1042 : BitVec 32 := Scalar.muli v1041 c128_i32_530
  v1042

def k0_off110 (i : grid0.Coords) (v1041 : BitVec 32) : Fin 2 → Nat :=
  let arg0 : BitVec 32 := BitVec.ofNat 32 (i 0).val
  let c32_i32 : BitVec 32 := 32#32
  let v0 : BitVec 32 := Scalar.muli arg0 c32_i32
  let c27_i32 : BitVec 32 := 27#32
  let v1039 : BitVec 32 := Scalar.addi v0 c27_i32
  let c128_i32_530 : BitVec 32 := 128#32
  let v1042 : BitVec 32 := Scalar.muli v1041 c128_i32_530
  let v1043 : BitVec 32 := v1042
  ![v1039.toNat, v1043.toNat]

def k0_chk55 (i : grid0.Coords) (v1041 : BitVec 32) : Prop :=
  (128 ∣ (k0_mult55 v1041).toNat) ∧
  (∀ a, (k0_off110 i v1041) a + S1x128.size a ≤ S2048x120006.size a)
instance k0_chk55.dec : ∀ (i : grid0.Coords) (v1041 : BitVec 32), Decidable (k0_chk55 i v1041) := fun i v1041 => decidable_of_iff' _ (Iff.of_eq (k0_chk55.eq_1 i v1041))
theorem k0_mult55_dvd : ∀ (i : grid0.Coords) (v1041 : BitVec 32) (k0_hw55 : k0_chk55 i v1041), 128 ∣ (k0_mult55 v1041).toNat := fun i v1041 k0_hw55 => k0_hw55.1
theorem k0_off110_inb : ∀ (i : grid0.Coords) (v1041 : BitVec 32) (k0_hw55 : k0_chk55 i v1041), ∀ a, (k0_off110 i v1041) a + S1x128.size a ≤ S2048x120006.size a := fun i v1041 k0_hw55 => k0_hw55.2

def k0_off111 (i : grid0.Coords) (c26_i32_523 : BitVec 32) : Fin 1 → Nat :=
  let arg0 : BitVec 32 := BitVec.ofNat 32 (i 0).val
  let c32_i32 : BitVec 32 := 32#32
  let v0 : BitVec 32 := Scalar.muli arg0 c32_i32
  let v1027 : BitVec 32 := Scalar.addi v0 c26_i32_523
  let v1050 : Index := Scalar.indexCast v1027
  ![v1050.toNat]
def k0_mult56 (v1069 : BitVec 32) : BitVec 32 :=
  let c128_i32_545 : BitVec 32 := 128#32
  let v1070 : BitVec 32 := Scalar.muli v1069 c128_i32_545
  v1070

def k0_off112 (i : grid0.Coords) (v1069 : BitVec 32) : Fin 2 → Nat :=
  let arg0 : BitVec 32 := BitVec.ofNat 32 (i 0).val
  let c32_i32 : BitVec 32 := 32#32
  let v0 : BitVec 32 := Scalar.muli arg0 c32_i32
  let c27_i32_544 : BitVec 32 := 27#32
  let v1067 : BitVec 32 := Scalar.addi v0 c27_i32_544
  let c128_i32_545 : BitVec 32 := 128#32
  let v1070 : BitVec 32 := Scalar.muli v1069 c128_i32_545
  let v1071 : BitVec 32 := v1070
  ![v1067.toNat, v1071.toNat]

def k0_chk56 (i : grid0.Coords) (v1069 : BitVec 32) : Prop :=
  (128 ∣ (k0_mult56 v1069).toNat) ∧
  (∀ a, (k0_off112 i v1069) a + S1x128.size a ≤ S2048x120006.size a)
instance k0_chk56.dec : ∀ (i : grid0.Coords) (v1069 : BitVec 32), Decidable (k0_chk56 i v1069) := fun i v1069 => decidable_of_iff' _ (Iff.of_eq (k0_chk56.eq_1 i v1069))
theorem k0_mult56_dvd : ∀ (i : grid0.Coords) (v1069 : BitVec 32) (k0_hw56 : k0_chk56 i v1069), 128 ∣ (k0_mult56 v1069).toNat := fun i v1069 k0_hw56 => k0_hw56.1
theorem k0_off112_inb : ∀ (i : grid0.Coords) (v1069 : BitVec 32) (k0_hw56 : k0_chk56 i v1069), ∀ a, (k0_off112 i v1069) a + S1x128.size a ≤ S2048x120006.size a := fun i v1069 k0_hw56 => k0_hw56.2

def k0_off113 (i : grid0.Coords) : Fin 1 → Nat :=
  let arg0 : BitVec 32 := BitVec.ofNat 32 (i 0).val
  let c32_i32 : BitVec 32 := 32#32
  let v0 : BitVec 32 := Scalar.muli arg0 c32_i32
  let c28_i32 : BitVec 32 := 28#32
  let v1078 : BitVec 32 := Scalar.addi v0 c28_i32
  let v1079 : Index := Scalar.indexCast v1078
  ![v1079.toNat]
def k0_mult57 (v1080 : BitVec 32) : BitVec 32 :=
  let c128_i32_550 : BitVec 32 := 128#32
  let v1081 : BitVec 32 := Scalar.muli v1080 c128_i32_550
  v1081

def k0_off114 (i : grid0.Coords) (v1080 : BitVec 32) : Fin 2 → Nat :=
  let arg0 : BitVec 32 := BitVec.ofNat 32 (i 0).val
  let c32_i32 : BitVec 32 := 32#32
  let v0 : BitVec 32 := Scalar.muli arg0 c32_i32
  let c28_i32 : BitVec 32 := 28#32
  let v1078 : BitVec 32 := Scalar.addi v0 c28_i32
  let c128_i32_550 : BitVec 32 := 128#32
  let v1081 : BitVec 32 := Scalar.muli v1080 c128_i32_550
  let v1082 : BitVec 32 := v1081
  ![v1078.toNat, v1082.toNat]

def k0_chk57 (i : grid0.Coords) (v1080 : BitVec 32) : Prop :=
  (128 ∣ (k0_mult57 v1080).toNat) ∧
  (∀ a, (k0_off114 i v1080) a + S1x128.size a ≤ S2048x120006.size a)
instance k0_chk57.dec : ∀ (i : grid0.Coords) (v1080 : BitVec 32), Decidable (k0_chk57 i v1080) := fun i v1080 => decidable_of_iff' _ (Iff.of_eq (k0_chk57.eq_1 i v1080))
theorem k0_mult57_dvd : ∀ (i : grid0.Coords) (v1080 : BitVec 32) (k0_hw57 : k0_chk57 i v1080), 128 ∣ (k0_mult57 v1080).toNat := fun i v1080 k0_hw57 => k0_hw57.1
theorem k0_off114_inb : ∀ (i : grid0.Coords) (v1080 : BitVec 32) (k0_hw57 : k0_chk57 i v1080), ∀ a, (k0_off114 i v1080) a + S1x128.size a ≤ S2048x120006.size a := fun i v1080 k0_hw57 => k0_hw57.2

def k0_off115 (i : grid0.Coords) (c27_i32_543 : BitVec 32) : Fin 1 → Nat :=
  let arg0 : BitVec 32 := BitVec.ofNat 32 (i 0).val
  let c32_i32 : BitVec 32 := 32#32
  let v0 : BitVec 32 := Scalar.muli arg0 c32_i32
  let v1066 : BitVec 32 := Scalar.addi v0 c27_i32_543
  let v1089 : Index := Scalar.indexCast v1066
  ![v1089.toNat]
def k0_mult58 (v1108 : BitVec 32) : BitVec 32 :=
  let c128_i32_565 : BitVec 32 := 128#32
  let v1109 : BitVec 32 := Scalar.muli v1108 c128_i32_565
  v1109

def k0_off116 (i : grid0.Coords) (v1108 : BitVec 32) : Fin 2 → Nat :=
  let arg0 : BitVec 32 := BitVec.ofNat 32 (i 0).val
  let c32_i32 : BitVec 32 := 32#32
  let v0 : BitVec 32 := Scalar.muli arg0 c32_i32
  let c28_i32_564 : BitVec 32 := 28#32
  let v1106 : BitVec 32 := Scalar.addi v0 c28_i32_564
  let c128_i32_565 : BitVec 32 := 128#32
  let v1109 : BitVec 32 := Scalar.muli v1108 c128_i32_565
  let v1110 : BitVec 32 := v1109
  ![v1106.toNat, v1110.toNat]

def k0_chk58 (i : grid0.Coords) (v1108 : BitVec 32) : Prop :=
  (128 ∣ (k0_mult58 v1108).toNat) ∧
  (∀ a, (k0_off116 i v1108) a + S1x128.size a ≤ S2048x120006.size a)
instance k0_chk58.dec : ∀ (i : grid0.Coords) (v1108 : BitVec 32), Decidable (k0_chk58 i v1108) := fun i v1108 => decidable_of_iff' _ (Iff.of_eq (k0_chk58.eq_1 i v1108))
theorem k0_mult58_dvd : ∀ (i : grid0.Coords) (v1108 : BitVec 32) (k0_hw58 : k0_chk58 i v1108), 128 ∣ (k0_mult58 v1108).toNat := fun i v1108 k0_hw58 => k0_hw58.1
theorem k0_off116_inb : ∀ (i : grid0.Coords) (v1108 : BitVec 32) (k0_hw58 : k0_chk58 i v1108), ∀ a, (k0_off116 i v1108) a + S1x128.size a ≤ S2048x120006.size a := fun i v1108 k0_hw58 => k0_hw58.2

def k0_off117 (i : grid0.Coords) : Fin 1 → Nat :=
  let arg0 : BitVec 32 := BitVec.ofNat 32 (i 0).val
  let c32_i32 : BitVec 32 := 32#32
  let v0 : BitVec 32 := Scalar.muli arg0 c32_i32
  let c29_i32 : BitVec 32 := 29#32
  let v1117 : BitVec 32 := Scalar.addi v0 c29_i32
  let v1118 : Index := Scalar.indexCast v1117
  ![v1118.toNat]
def k0_mult59 (v1119 : BitVec 32) : BitVec 32 :=
  let c128_i32_570 : BitVec 32 := 128#32
  let v1120 : BitVec 32 := Scalar.muli v1119 c128_i32_570
  v1120

def k0_off118 (i : grid0.Coords) (v1119 : BitVec 32) : Fin 2 → Nat :=
  let arg0 : BitVec 32 := BitVec.ofNat 32 (i 0).val
  let c32_i32 : BitVec 32 := 32#32
  let v0 : BitVec 32 := Scalar.muli arg0 c32_i32
  let c29_i32 : BitVec 32 := 29#32
  let v1117 : BitVec 32 := Scalar.addi v0 c29_i32
  let c128_i32_570 : BitVec 32 := 128#32
  let v1120 : BitVec 32 := Scalar.muli v1119 c128_i32_570
  let v1121 : BitVec 32 := v1120
  ![v1117.toNat, v1121.toNat]

def k0_chk59 (i : grid0.Coords) (v1119 : BitVec 32) : Prop :=
  (128 ∣ (k0_mult59 v1119).toNat) ∧
  (∀ a, (k0_off118 i v1119) a + S1x128.size a ≤ S2048x120006.size a)
instance k0_chk59.dec : ∀ (i : grid0.Coords) (v1119 : BitVec 32), Decidable (k0_chk59 i v1119) := fun i v1119 => decidable_of_iff' _ (Iff.of_eq (k0_chk59.eq_1 i v1119))
theorem k0_mult59_dvd : ∀ (i : grid0.Coords) (v1119 : BitVec 32) (k0_hw59 : k0_chk59 i v1119), 128 ∣ (k0_mult59 v1119).toNat := fun i v1119 k0_hw59 => k0_hw59.1
theorem k0_off118_inb : ∀ (i : grid0.Coords) (v1119 : BitVec 32) (k0_hw59 : k0_chk59 i v1119), ∀ a, (k0_off118 i v1119) a + S1x128.size a ≤ S2048x120006.size a := fun i v1119 k0_hw59 => k0_hw59.2

def k0_off119 (i : grid0.Coords) (c28_i32_563 : BitVec 32) : Fin 1 → Nat :=
  let arg0 : BitVec 32 := BitVec.ofNat 32 (i 0).val
  let c32_i32 : BitVec 32 := 32#32
  let v0 : BitVec 32 := Scalar.muli arg0 c32_i32
  let v1105 : BitVec 32 := Scalar.addi v0 c28_i32_563
  let v1128 : Index := Scalar.indexCast v1105
  ![v1128.toNat]
def k0_mult60 (v1147 : BitVec 32) : BitVec 32 :=
  let c128_i32_585 : BitVec 32 := 128#32
  let v1148 : BitVec 32 := Scalar.muli v1147 c128_i32_585
  v1148

def k0_off120 (i : grid0.Coords) (v1147 : BitVec 32) : Fin 2 → Nat :=
  let arg0 : BitVec 32 := BitVec.ofNat 32 (i 0).val
  let c32_i32 : BitVec 32 := 32#32
  let v0 : BitVec 32 := Scalar.muli arg0 c32_i32
  let c29_i32_584 : BitVec 32 := 29#32
  let v1145 : BitVec 32 := Scalar.addi v0 c29_i32_584
  let c128_i32_585 : BitVec 32 := 128#32
  let v1148 : BitVec 32 := Scalar.muli v1147 c128_i32_585
  let v1149 : BitVec 32 := v1148
  ![v1145.toNat, v1149.toNat]

def k0_chk60 (i : grid0.Coords) (v1147 : BitVec 32) : Prop :=
  (128 ∣ (k0_mult60 v1147).toNat) ∧
  (∀ a, (k0_off120 i v1147) a + S1x128.size a ≤ S2048x120006.size a)
instance k0_chk60.dec : ∀ (i : grid0.Coords) (v1147 : BitVec 32), Decidable (k0_chk60 i v1147) := fun i v1147 => decidable_of_iff' _ (Iff.of_eq (k0_chk60.eq_1 i v1147))
theorem k0_mult60_dvd : ∀ (i : grid0.Coords) (v1147 : BitVec 32) (k0_hw60 : k0_chk60 i v1147), 128 ∣ (k0_mult60 v1147).toNat := fun i v1147 k0_hw60 => k0_hw60.1
theorem k0_off120_inb : ∀ (i : grid0.Coords) (v1147 : BitVec 32) (k0_hw60 : k0_chk60 i v1147), ∀ a, (k0_off120 i v1147) a + S1x128.size a ≤ S2048x120006.size a := fun i v1147 k0_hw60 => k0_hw60.2

def k0_off121 (i : grid0.Coords) : Fin 1 → Nat :=
  let arg0 : BitVec 32 := BitVec.ofNat 32 (i 0).val
  let c32_i32 : BitVec 32 := 32#32
  let v0 : BitVec 32 := Scalar.muli arg0 c32_i32
  let c30_i32 : BitVec 32 := 30#32
  let v1156 : BitVec 32 := Scalar.addi v0 c30_i32
  let v1157 : Index := Scalar.indexCast v1156
  ![v1157.toNat]
def k0_mult61 (v1158 : BitVec 32) : BitVec 32 :=
  let c128_i32_590 : BitVec 32 := 128#32
  let v1159 : BitVec 32 := Scalar.muli v1158 c128_i32_590
  v1159

def k0_off122 (i : grid0.Coords) (v1158 : BitVec 32) : Fin 2 → Nat :=
  let arg0 : BitVec 32 := BitVec.ofNat 32 (i 0).val
  let c32_i32 : BitVec 32 := 32#32
  let v0 : BitVec 32 := Scalar.muli arg0 c32_i32
  let c30_i32 : BitVec 32 := 30#32
  let v1156 : BitVec 32 := Scalar.addi v0 c30_i32
  let c128_i32_590 : BitVec 32 := 128#32
  let v1159 : BitVec 32 := Scalar.muli v1158 c128_i32_590
  let v1160 : BitVec 32 := v1159
  ![v1156.toNat, v1160.toNat]

def k0_chk61 (i : grid0.Coords) (v1158 : BitVec 32) : Prop :=
  (128 ∣ (k0_mult61 v1158).toNat) ∧
  (∀ a, (k0_off122 i v1158) a + S1x128.size a ≤ S2048x120006.size a)
instance k0_chk61.dec : ∀ (i : grid0.Coords) (v1158 : BitVec 32), Decidable (k0_chk61 i v1158) := fun i v1158 => decidable_of_iff' _ (Iff.of_eq (k0_chk61.eq_1 i v1158))
theorem k0_mult61_dvd : ∀ (i : grid0.Coords) (v1158 : BitVec 32) (k0_hw61 : k0_chk61 i v1158), 128 ∣ (k0_mult61 v1158).toNat := fun i v1158 k0_hw61 => k0_hw61.1
theorem k0_off122_inb : ∀ (i : grid0.Coords) (v1158 : BitVec 32) (k0_hw61 : k0_chk61 i v1158), ∀ a, (k0_off122 i v1158) a + S1x128.size a ≤ S2048x120006.size a := fun i v1158 k0_hw61 => k0_hw61.2

def k0_off123 (i : grid0.Coords) (c29_i32_583 : BitVec 32) : Fin 1 → Nat :=
  let arg0 : BitVec 32 := BitVec.ofNat 32 (i 0).val
  let c32_i32 : BitVec 32 := 32#32
  let v0 : BitVec 32 := Scalar.muli arg0 c32_i32
  let v1144 : BitVec 32 := Scalar.addi v0 c29_i32_583
  let v1167 : Index := Scalar.indexCast v1144
  ![v1167.toNat]
def k0_mult62 (v1186 : BitVec 32) : BitVec 32 :=
  let c128_i32_605 : BitVec 32 := 128#32
  let v1187 : BitVec 32 := Scalar.muli v1186 c128_i32_605
  v1187

def k0_off124 (i : grid0.Coords) (v1186 : BitVec 32) : Fin 2 → Nat :=
  let arg0 : BitVec 32 := BitVec.ofNat 32 (i 0).val
  let c32_i32 : BitVec 32 := 32#32
  let v0 : BitVec 32 := Scalar.muli arg0 c32_i32
  let c30_i32_604 : BitVec 32 := 30#32
  let v1184 : BitVec 32 := Scalar.addi v0 c30_i32_604
  let c128_i32_605 : BitVec 32 := 128#32
  let v1187 : BitVec 32 := Scalar.muli v1186 c128_i32_605
  let v1188 : BitVec 32 := v1187
  ![v1184.toNat, v1188.toNat]

def k0_chk62 (i : grid0.Coords) (v1186 : BitVec 32) : Prop :=
  (128 ∣ (k0_mult62 v1186).toNat) ∧
  (∀ a, (k0_off124 i v1186) a + S1x128.size a ≤ S2048x120006.size a)
instance k0_chk62.dec : ∀ (i : grid0.Coords) (v1186 : BitVec 32), Decidable (k0_chk62 i v1186) := fun i v1186 => decidable_of_iff' _ (Iff.of_eq (k0_chk62.eq_1 i v1186))
theorem k0_mult62_dvd : ∀ (i : grid0.Coords) (v1186 : BitVec 32) (k0_hw62 : k0_chk62 i v1186), 128 ∣ (k0_mult62 v1186).toNat := fun i v1186 k0_hw62 => k0_hw62.1
theorem k0_off124_inb : ∀ (i : grid0.Coords) (v1186 : BitVec 32) (k0_hw62 : k0_chk62 i v1186), ∀ a, (k0_off124 i v1186) a + S1x128.size a ≤ S2048x120006.size a := fun i v1186 k0_hw62 => k0_hw62.2

def k0_off125 (i : grid0.Coords) : Fin 1 → Nat :=
  let arg0 : BitVec 32 := BitVec.ofNat 32 (i 0).val
  let c32_i32 : BitVec 32 := 32#32
  let v0 : BitVec 32 := Scalar.muli arg0 c32_i32
  let c31_i32 : BitVec 32 := 31#32
  let v1195 : BitVec 32 := Scalar.addi v0 c31_i32
  let v1196 : Index := Scalar.indexCast v1195
  ![v1196.toNat]
def k0_mult63 (v1197 : BitVec 32) : BitVec 32 :=
  let c128_i32_610 : BitVec 32 := 128#32
  let v1198 : BitVec 32 := Scalar.muli v1197 c128_i32_610
  v1198

def k0_off126 (i : grid0.Coords) (v1197 : BitVec 32) : Fin 2 → Nat :=
  let arg0 : BitVec 32 := BitVec.ofNat 32 (i 0).val
  let c32_i32 : BitVec 32 := 32#32
  let v0 : BitVec 32 := Scalar.muli arg0 c32_i32
  let c31_i32 : BitVec 32 := 31#32
  let v1195 : BitVec 32 := Scalar.addi v0 c31_i32
  let c128_i32_610 : BitVec 32 := 128#32
  let v1198 : BitVec 32 := Scalar.muli v1197 c128_i32_610
  let v1199 : BitVec 32 := v1198
  ![v1195.toNat, v1199.toNat]

def k0_chk63 (i : grid0.Coords) (v1197 : BitVec 32) : Prop :=
  (128 ∣ (k0_mult63 v1197).toNat) ∧
  (∀ a, (k0_off126 i v1197) a + S1x128.size a ≤ S2048x120006.size a)
instance k0_chk63.dec : ∀ (i : grid0.Coords) (v1197 : BitVec 32), Decidable (k0_chk63 i v1197) := fun i v1197 => decidable_of_iff' _ (Iff.of_eq (k0_chk63.eq_1 i v1197))
theorem k0_mult63_dvd : ∀ (i : grid0.Coords) (v1197 : BitVec 32) (k0_hw63 : k0_chk63 i v1197), 128 ∣ (k0_mult63 v1197).toNat := fun i v1197 k0_hw63 => k0_hw63.1
theorem k0_off126_inb : ∀ (i : grid0.Coords) (v1197 : BitVec 32) (k0_hw63 : k0_chk63 i v1197), ∀ a, (k0_off126 i v1197) a + S1x128.size a ≤ S2048x120006.size a := fun i v1197 k0_hw63 => k0_hw63.2

def k0_off127 (i : grid0.Coords) (c30_i32_603 : BitVec 32) : Fin 1 → Nat :=
  let arg0 : BitVec 32 := BitVec.ofNat 32 (i 0).val
  let c32_i32 : BitVec 32 := 32#32
  let v0 : BitVec 32 := Scalar.muli arg0 c32_i32
  let v1183 : BitVec 32 := Scalar.addi v0 c30_i32_603
  let v1206 : Index := Scalar.indexCast v1183
  ![v1206.toNat]
def k0_mult64 (v1225 : BitVec 32) : BitVec 32 :=
  let c128_i32_625 : BitVec 32 := 128#32
  let v1226 : BitVec 32 := Scalar.muli v1225 c128_i32_625
  v1226

def k0_off128 (i : grid0.Coords) (v1225 : BitVec 32) : Fin 2 → Nat :=
  let arg0 : BitVec 32 := BitVec.ofNat 32 (i 0).val
  let c32_i32 : BitVec 32 := 32#32
  let v0 : BitVec 32 := Scalar.muli arg0 c32_i32
  let c31_i32_624 : BitVec 32 := 31#32
  let v1223 : BitVec 32 := Scalar.addi v0 c31_i32_624
  let c128_i32_625 : BitVec 32 := 128#32
  let v1226 : BitVec 32 := Scalar.muli v1225 c128_i32_625
  let v1227 : BitVec 32 := v1226
  ![v1223.toNat, v1227.toNat]

def k0_chk64 (i : grid0.Coords) (v1225 : BitVec 32) : Prop :=
  (128 ∣ (k0_mult64 v1225).toNat) ∧
  (∀ a, (k0_off128 i v1225) a + S1x128.size a ≤ S2048x120006.size a)
instance k0_chk64.dec : ∀ (i : grid0.Coords) (v1225 : BitVec 32), Decidable (k0_chk64 i v1225) := fun i v1225 => decidable_of_iff' _ (Iff.of_eq (k0_chk64.eq_1 i v1225))
theorem k0_mult64_dvd : ∀ (i : grid0.Coords) (v1225 : BitVec 32) (k0_hw64 : k0_chk64 i v1225), 128 ∣ (k0_mult64 v1225).toNat := fun i v1225 k0_hw64 => k0_hw64.1
theorem k0_off128_inb : ∀ (i : grid0.Coords) (v1225 : BitVec 32) (k0_hw64 : k0_chk64 i v1225), ∀ a, (k0_off128 i v1225) a + S1x128.size a ≤ S2048x120006.size a := fun i v1225 k0_hw64 => k0_hw64.2

def k0_off129 (i : grid0.Coords) : Fin 1 → Nat :=
  let arg0 : BitVec 32 := BitVec.ofNat 32 (i 0).val
  let c32_i32 : BitVec 32 := 32#32
  let v0 : BitVec 32 := Scalar.muli arg0 c32_i32
  let c31_i32_623 : BitVec 32 := 31#32
  let v1222 : BitVec 32 := Scalar.addi v0 c31_i32_623
  let v1234 : Index := Scalar.indexCast v1222
  ![v1234.toNat]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  slices_S2048x120006_S2048x6_0_120000 : S2048x120006.Slices ![0, 120000] S2048x6
  slices_S2048x6_S2048x2_0_0 : S2048x6.Slices ![0, 0] S2048x2
  slices_S2048x6_S2048x2_0_2 : S2048x6.Slices ![0, 2] S2048x2
  slices_S2048x6_S2048x2_0_4 : S2048x6.Slices ![0, 4] S2048x2
  slices_S2048x2_S2048x1_0_0 : S2048x2.Slices ![0, 0] S2048x1
  shapeCasts_S2048x1_S2048 : S2048x1.ShapeCasts S2048
  slices_S2048x2_S2048x1_0_1 : S2048x2.Slices ![0, 1] S2048x1
  bcast_S_S2048 : S_.BroadcastsInDim S2048 (![] : Fin 0 → Fin S2048.rank)
  natLt_1_32 : 1 < 32
  iota_S1x128_d1_w32 : S1x128.Iotas .tc 32 [1]
  numel1_S1 : S1.numel = 1
  inb_S2_S1_0 : ∀ a, (![0] : Fin 1 → Nat) a + S1.size a ≤ S2.size a
  squeezes_S1_S_ : S1.Squeezes S_
  inb_S2x8x128_S1x1x128_0_0_0 : ∀ a, (![0, 0, 0] : Fin 3 → Nat) a + S1x1x128.size a ≤ S2x8x128.size a
  squeezes_S1x1x128_S128 : S1x1x128.Squeezes S128
  squeezes_S1x128_S128 : S1x128.Squeezes S128
  inb_S2_S1_1 : ∀ a, (![1] : Fin 1 → Nat) a + S1.size a ≤ S2.size a
  inb_S2x8x128_S1x1x128_1_0_0 : ∀ a, (![1, 0, 0] : Fin 3 → Nat) a + S1x1x128.size a ≤ S2x8x128.size a
  h_S1x1x128 : 0 < S1x1x128.numel
  shapeCasts_S1x1x128_S1x128 : S1x1x128.ShapeCasts S1x128
  reduces_S1x128_S1 : S1x128.Reduces [1] S1
  shapeCasts_S1_S1x1 : S1.ShapeCasts S1x1
  inb_S32x1_S1x1_0_0 : ∀ a, (![0, 0] : Fin 2 → Nat) a + S1x1.size a ≤ S32x1.size a
  h_S1x1 : 0 < S1x1.numel
  inb_S32x1_S1x1_1_0 : ∀ a, (![1, 0] : Fin 2 → Nat) a + S1x1.size a ≤ S32x1.size a
  inb_S32x1_S1x1_2_0 : ∀ a, (![2, 0] : Fin 2 → Nat) a + S1x1.size a ≤ S32x1.size a
  inb_S32x1_S1x1_3_0 : ∀ a, (![3, 0] : Fin 2 → Nat) a + S1x1.size a ≤ S32x1.size a
  inb_S32x1_S1x1_4_0 : ∀ a, (![4, 0] : Fin 2 → Nat) a + S1x1.size a ≤ S32x1.size a
  inb_S32x1_S1x1_5_0 : ∀ a, (![5, 0] : Fin 2 → Nat) a + S1x1.size a ≤ S32x1.size a
  inb_S32x1_S1x1_6_0 : ∀ a, (![6, 0] : Fin 2 → Nat) a + S1x1.size a ≤ S32x1.size a
  inb_S32x1_S1x1_7_0 : ∀ a, (![7, 0] : Fin 2 → Nat) a + S1x1.size a ≤ S32x1.size a
  inb_S32x1_S1x1_8_0 : ∀ a, (![8, 0] : Fin 2 → Nat) a + S1x1.size a ≤ S32x1.size a
  inb_S32x1_S1x1_9_0 : ∀ a, (![9, 0] : Fin 2 → Nat) a + S1x1.size a ≤ S32x1.size a
  inb_S32x1_S1x1_10_0 : ∀ a, (![10, 0] : Fin 2 → Nat) a + S1x1.size a ≤ S32x1.size a
  inb_S32x1_S1x1_11_0 : ∀ a, (![11, 0] : Fin 2 → Nat) a + S1x1.size a ≤ S32x1.size a
  inb_S32x1_S1x1_12_0 : ∀ a, (![12, 0] : Fin 2 → Nat) a + S1x1.size a ≤ S32x1.size a
  inb_S32x1_S1x1_13_0 : ∀ a, (![13, 0] : Fin 2 → Nat) a + S1x1.size a ≤ S32x1.size a
  inb_S32x1_S1x1_14_0 : ∀ a, (![14, 0] : Fin 2 → Nat) a + S1x1.size a ≤ S32x1.size a
  inb_S32x1_S1x1_15_0 : ∀ a, (![15, 0] : Fin 2 → Nat) a + S1x1.size a ≤ S32x1.size a
  inb_S32x1_S1x1_16_0 : ∀ a, (![16, 0] : Fin 2 → Nat) a + S1x1.size a ≤ S32x1.size a
  inb_S32x1_S1x1_17_0 : ∀ a, (![17, 0] : Fin 2 → Nat) a + S1x1.size a ≤ S32x1.size a
  inb_S32x1_S1x1_18_0 : ∀ a, (![18, 0] : Fin 2 → Nat) a + S1x1.size a ≤ S32x1.size a
  inb_S32x1_S1x1_19_0 : ∀ a, (![19, 0] : Fin 2 → Nat) a + S1x1.size a ≤ S32x1.size a
  inb_S32x1_S1x1_20_0 : ∀ a, (![20, 0] : Fin 2 → Nat) a + S1x1.size a ≤ S32x1.size a
  inb_S32x1_S1x1_21_0 : ∀ a, (![21, 0] : Fin 2 → Nat) a + S1x1.size a ≤ S32x1.size a
  inb_S32x1_S1x1_22_0 : ∀ a, (![22, 0] : Fin 2 → Nat) a + S1x1.size a ≤ S32x1.size a
  inb_S32x1_S1x1_23_0 : ∀ a, (![23, 0] : Fin 2 → Nat) a + S1x1.size a ≤ S32x1.size a
  inb_S32x1_S1x1_24_0 : ∀ a, (![24, 0] : Fin 2 → Nat) a + S1x1.size a ≤ S32x1.size a
  inb_S32x1_S1x1_25_0 : ∀ a, (![25, 0] : Fin 2 → Nat) a + S1x1.size a ≤ S32x1.size a
  inb_S32x1_S1x1_26_0 : ∀ a, (![26, 0] : Fin 2 → Nat) a + S1x1.size a ≤ S32x1.size a
  inb_S32x1_S1x1_27_0 : ∀ a, (![27, 0] : Fin 2 → Nat) a + S1x1.size a ≤ S32x1.size a
  inb_S32x1_S1x1_28_0 : ∀ a, (![28, 0] : Fin 2 → Nat) a + S1x1.size a ≤ S32x1.size a
  inb_S32x1_S1x1_29_0 : ∀ a, (![29, 0] : Fin 2 → Nat) a + S1x1.size a ≤ S32x1.size a
  inb_S32x1_S1x1_30_0 : ∀ a, (![30, 0] : Fin 2 → Nat) a + S1x1.size a ≤ S32x1.size a
  inb_S32x1_S1x1_31_0 : ∀ a, (![31, 0] : Fin 2 → Nat) a + S1x1.size a ≤ S32x1.size a
  hcc0_scratch1 : 2 + S2.numel ≤ 4
  hrank0 : 0 < grid0.rank
  k0_off1_inb : ∀ i : grid0.Coords, ∀ a, (k0_off1 i) a + S1.size a ≤ S2048.size a
  k0_off3_inb : ∀ i : grid0.Coords, ∀ a, (k0_off3 i) a + S1.size a ≤ S2048.size a
  k0_off5_inb : ∀ i : grid0.Coords, ∀ a, (k0_off5 i) a + S1.size a ≤ S2048.size a
  k0_off7_inb : ∀ i : grid0.Coords, ∀ (r : Fin 2), ∀ a, (k0_off7 i (BitVec.ofNat 32 r.val)) a + S1.size a ≤ S2048.size a
  k0_off9_inb : ∀ i : grid0.Coords, ∀ a, (k0_off9 i) a + S1.size a ≤ S2048.size a
  k0_off11_inb : ∀ i : grid0.Coords, ∀ (r : Fin 2), ∀ a, (k0_off11 i (BitVec.ofNat 32 (1 + r.val))) a + S1.size a ≤ S2048.size a
  k0_off13_inb : ∀ i : grid0.Coords, ∀ a, (k0_off13 i) a + S1.size a ≤ S2048.size a
  k0_off15_inb : ∀ i : grid0.Coords, ∀ (r : Fin 2), ∀ a, (k0_off15 i (BitVec.ofNat 32 (2 + r.val))) a + S1.size a ≤ S2048.size a
  k0_off17_inb : ∀ i : grid0.Coords, ∀ a, (k0_off17 i) a + S1.size a ≤ S2048.size a
  k0_off19_inb : ∀ i : grid0.Coords, ∀ (r : Fin 2), ∀ a, (k0_off19 i (BitVec.ofNat 32 (3 + r.val))) a + S1.size a ≤ S2048.size a
  k0_off21_inb : ∀ i : grid0.Coords, ∀ a, (k0_off21 i) a + S1.size a ≤ S2048.size a
  k0_off23_inb : ∀ i : grid0.Coords, ∀ (r : Fin 2), ∀ a, (k0_off23 i (BitVec.ofNat 32 (4 + r.val))) a + S1.size a ≤ S2048.size a
  k0_off25_inb : ∀ i : grid0.Coords, ∀ a, (k0_off25 i) a + S1.size a ≤ S2048.size a
  k0_off27_inb : ∀ i : grid0.Coords, ∀ (r : Fin 2), ∀ a, (k0_off27 i (BitVec.ofNat 32 (5 + r.val))) a + S1.size a ≤ S2048.size a
  k0_off29_inb : ∀ i : grid0.Coords, ∀ a, (k0_off29 i) a + S1.size a ≤ S2048.size a
  k0_off31_inb : ∀ i : grid0.Coords, ∀ (r : Fin 2), ∀ a, (k0_off31 i (BitVec.ofNat 32 (6 + r.val))) a + S1.size a ≤ S2048.size a
  k0_off33_inb : ∀ i : grid0.Coords, ∀ a, (k0_off33 i) a + S1.size a ≤ S2048.size a
  k0_off35_inb : ∀ i : grid0.Coords, ∀ (r : Fin 2), ∀ a, (k0_off35 i (BitVec.ofNat 32 (7 + r.val))) a + S1.size a ≤ S2048.size a
  k0_off37_inb : ∀ i : grid0.Coords, ∀ a, (k0_off37 i) a + S1.size a ≤ S2048.size a
  k0_off39_inb : ∀ i : grid0.Coords, ∀ (r : Fin 2), ∀ a, (k0_off39 i (BitVec.ofNat 32 (8 + r.val))) a + S1.size a ≤ S2048.size a
  k0_off41_inb : ∀ i : grid0.Coords, ∀ a, (k0_off41 i) a + S1.size a ≤ S2048.size a
  k0_off43_inb : ∀ i : grid0.Coords, ∀ (r : Fin 2), ∀ a, (k0_off43 i (BitVec.ofNat 32 (9 + r.val))) a + S1.size a ≤ S2048.size a
  k0_off45_inb : ∀ i : grid0.Coords, ∀ a, (k0_off45 i) a + S1.size a ≤ S2048.size a
  k0_off47_inb : ∀ i : grid0.Coords, ∀ (r : Fin 2), ∀ a, (k0_off47 i (BitVec.ofNat 32 (10 + r.val))) a + S1.size a ≤ S2048.size a
  k0_off49_inb : ∀ i : grid0.Coords, ∀ a, (k0_off49 i) a + S1.size a ≤ S2048.size a
  k0_off51_inb : ∀ i : grid0.Coords, ∀ (r : Fin 2), ∀ a, (k0_off51 i (BitVec.ofNat 32 (11 + r.val))) a + S1.size a ≤ S2048.size a
  k0_off53_inb : ∀ i : grid0.Coords, ∀ a, (k0_off53 i) a + S1.size a ≤ S2048.size a
  k0_off55_inb : ∀ i : grid0.Coords, ∀ (r : Fin 2), ∀ a, (k0_off55 i (BitVec.ofNat 32 (12 + r.val))) a + S1.size a ≤ S2048.size a
  k0_off57_inb : ∀ i : grid0.Coords, ∀ a, (k0_off57 i) a + S1.size a ≤ S2048.size a
  k0_off59_inb : ∀ i : grid0.Coords, ∀ (r : Fin 2), ∀ a, (k0_off59 i (BitVec.ofNat 32 (13 + r.val))) a + S1.size a ≤ S2048.size a
  k0_off61_inb : ∀ i : grid0.Coords, ∀ a, (k0_off61 i) a + S1.size a ≤ S2048.size a
  k0_off63_inb : ∀ i : grid0.Coords, ∀ (r : Fin 2), ∀ a, (k0_off63 i (BitVec.ofNat 32 (14 + r.val))) a + S1.size a ≤ S2048.size a
  k0_off65_inb : ∀ i : grid0.Coords, ∀ a, (k0_off65 i) a + S1.size a ≤ S2048.size a
  k0_off67_inb : ∀ i : grid0.Coords, ∀ (r : Fin 2), ∀ a, (k0_off67 i (BitVec.ofNat 32 (15 + r.val))) a + S1.size a ≤ S2048.size a
  k0_off69_inb : ∀ i : grid0.Coords, ∀ a, (k0_off69 i) a + S1.size a ≤ S2048.size a
  k0_off71_inb : ∀ i : grid0.Coords, ∀ (r : Fin 2), ∀ a, (k0_off71 i (BitVec.ofNat 32 (16 + r.val))) a + S1.size a ≤ S2048.size a
  k0_off73_inb : ∀ i : grid0.Coords, ∀ a, (k0_off73 i) a + S1.size a ≤ S2048.size a
  k0_off75_inb : ∀ i : grid0.Coords, ∀ (r : Fin 2), ∀ a, (k0_off75 i (BitVec.ofNat 32 (17 + r.val))) a + S1.size a ≤ S2048.size a
  k0_off77_inb : ∀ i : grid0.Coords, ∀ a, (k0_off77 i) a + S1.size a ≤ S2048.size a
  k0_off79_inb : ∀ i : grid0.Coords, ∀ (r : Fin 2), ∀ a, (k0_off79 i (BitVec.ofNat 32 (18 + r.val))) a + S1.size a ≤ S2048.size a
  k0_off81_inb : ∀ i : grid0.Coords, ∀ a, (k0_off81 i) a + S1.size a ≤ S2048.size a
  k0_off83_inb : ∀ i : grid0.Coords, ∀ (r : Fin 2), ∀ a, (k0_off83 i (BitVec.ofNat 32 (19 + r.val))) a + S1.size a ≤ S2048.size a
  k0_off85_inb : ∀ i : grid0.Coords, ∀ a, (k0_off85 i) a + S1.size a ≤ S2048.size a
  k0_off87_inb : ∀ i : grid0.Coords, ∀ (r : Fin 2), ∀ a, (k0_off87 i (BitVec.ofNat 32 (20 + r.val))) a + S1.size a ≤ S2048.size a
  k0_off89_inb : ∀ i : grid0.Coords, ∀ a, (k0_off89 i) a + S1.size a ≤ S2048.size a
  k0_off91_inb : ∀ i : grid0.Coords, ∀ (r : Fin 2), ∀ a, (k0_off91 i (BitVec.ofNat 32 (21 + r.val))) a + S1.size a ≤ S2048.size a
  k0_off93_inb : ∀ i : grid0.Coords, ∀ a, (k0_off93 i) a + S1.size a ≤ S2048.size a
  k0_off95_inb : ∀ i : grid0.Coords, ∀ (r : Fin 2), ∀ a, (k0_off95 i (BitVec.ofNat 32 (22 + r.val))) a + S1.size a ≤ S2048.size a
  k0_off97_inb : ∀ i : grid0.Coords, ∀ a, (k0_off97 i) a + S1.size a ≤ S2048.size a
  k0_off99_inb : ∀ i : grid0.Coords, ∀ (r : Fin 2), ∀ a, (k0_off99 i (BitVec.ofNat 32 (23 + r.val))) a + S1.size a ≤ S2048.size a
  k0_off101_inb : ∀ i : grid0.Coords, ∀ a, (k0_off101 i) a + S1.size a ≤ S2048.size a
  k0_off103_inb : ∀ i : grid0.Coords, ∀ (r : Fin 2), ∀ a, (k0_off103 i (BitVec.ofNat 32 (24 + r.val))) a + S1.size a ≤ S2048.size a
  k0_off105_inb : ∀ i : grid0.Coords, ∀ a, (k0_off105 i) a + S1.size a ≤ S2048.size a
  k0_off107_inb : ∀ i : grid0.Coords, ∀ (r : Fin 2), ∀ a, (k0_off107 i (BitVec.ofNat 32 (25 + r.val))) a + S1.size a ≤ S2048.size a
  k0_off109_inb : ∀ i : grid0.Coords, ∀ a, (k0_off109 i) a + S1.size a ≤ S2048.size a
  k0_off111_inb : ∀ i : grid0.Coords, ∀ (r : Fin 2), ∀ a, (k0_off111 i (BitVec.ofNat 32 (26 + r.val))) a + S1.size a ≤ S2048.size a
  k0_off113_inb : ∀ i : grid0.Coords, ∀ a, (k0_off113 i) a + S1.size a ≤ S2048.size a
  k0_off115_inb : ∀ i : grid0.Coords, ∀ (r : Fin 2), ∀ a, (k0_off115 i (BitVec.ofNat 32 (27 + r.val))) a + S1.size a ≤ S2048.size a
  k0_off117_inb : ∀ i : grid0.Coords, ∀ a, (k0_off117 i) a + S1.size a ≤ S2048.size a
  k0_off119_inb : ∀ i : grid0.Coords, ∀ (r : Fin 2), ∀ a, (k0_off119 i (BitVec.ofNat 32 (28 + r.val))) a + S1.size a ≤ S2048.size a
  k0_off121_inb : ∀ i : grid0.Coords, ∀ a, (k0_off121 i) a + S1.size a ≤ S2048.size a
  k0_off123_inb : ∀ i : grid0.Coords, ∀ (r : Fin 2), ∀ a, (k0_off123 i (BitVec.ofNat 32 (29 + r.val))) a + S1.size a ≤ S2048.size a
  k0_off125_inb : ∀ i : grid0.Coords, ∀ a, (k0_off125 i) a + S1.size a ≤ S2048.size a
  k0_off127_inb : ∀ i : grid0.Coords, ∀ (r : Fin 2), ∀ a, (k0_off127 i (BitVec.ofNat 32 (30 + r.val))) a + S1.size a ≤ S2048.size a
  k0_off129_inb : ∀ i : grid0.Coords, ∀ a, (k0_off129 i) a + S1.size a ≤ S2048.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S32x1.size a ≤ S2048x1.size a
  hwx0_0 : ∀ i : grid0.Coords, EltTy.bits .f32 = 32 ∨ (Rect.block (s := S2048x1) S32x1.size (cc0_transform_1 i) (hinb0_0 i)).WholeWords (EltTy.packing .f32)

variable [Facts₀]

abbrev cc0_scratch1 : DmaSems sig S2 := SemArray.consecutive 2 S2 hcc0_scratch1

abbrev spec0_0 : Pipeline.WinSpec sig grid0.rank :=
  Pipeline.WinSpec.ofSpec (Memref.whole main_v29) S32x1.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S2048x120006 : Shape := ⟨2, ![2048, 120006]⟩
abbrev S2048x40000 : Shape := ⟨2, ![2048, 40000]⟩
abbrev S2048x2 : Shape := ⟨2, ![2048, 2]⟩
abbrev S2048x1 : Shape := ⟨2, ![2048, 1]⟩
abbrev S2048 : Shape := ⟨1, ![2048]⟩
abbrev S_ : Shape := ⟨0, ![]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 74
  | .vmem => 0
  | .smem => 0
  | _ => 0

abbrev bufTy : (tb : Table) → Fin (tcTables nBuf tb) → BufTy
  | .hbm, ⟨0, _⟩ => ⟨S2048x120006, .f32⟩
  | .hbm, ⟨1, _⟩ => ⟨S2048x40000, .f32⟩
  | .hbm, ⟨2, _⟩ => ⟨S2048x2, .f32⟩
  | .hbm, ⟨3, _⟩ => ⟨S2048x2, .f32⟩
  | .hbm, ⟨4, _⟩ => ⟨S2048x2, .f32⟩
  | .hbm, ⟨5, _⟩ => ⟨S2048x2, .f32⟩
  | .hbm, ⟨6, _⟩ => ⟨S2048x2, .f32⟩
  | .hbm, ⟨7, _⟩ => ⟨S2048x2, .i32⟩
  | .hbm, ⟨8, _⟩ => ⟨S2048x1, .i32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048x1, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S2048x1, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S2048x1, .i32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S2048, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S_, .i32⟩
  | .hbm, ⟨49, _⟩ => ⟨S2048x1, .i32⟩
  | .hbm, ⟨50, _⟩ => ⟨S2048x1, .i1⟩
  | .hbm, ⟨51, _⟩ => ⟨S_, .i32⟩
  | .hbm, ⟨52, _⟩ => ⟨S2048x1, .i32⟩
  | .hbm, ⟨53, _⟩ => ⟨S2048x1, .i32⟩
  | .hbm, ⟨54, _⟩ => ⟨S2048x1, .i32⟩
  | .hbm, ⟨55, _⟩ => ⟨S2048x1x1, .i32⟩
  | .hbm, ⟨56, _⟩ => ⟨S1, .i32⟩
  | .hbm, ⟨57, _⟩ => ⟨S_, .i32⟩
  | .hbm, ⟨58, _⟩ => ⟨S2048x1x1, .i32⟩
  | .hbm, ⟨59, _⟩ => ⟨S2048x1x1, .i1⟩
  | .hbm, ⟨60, _⟩ => ⟨S1x1x1, .i32⟩
  | .hbm, ⟨61, _⟩ => ⟨S2048x1x1, .i32⟩
  | .hbm, ⟨62, _⟩ => ⟨S2048x1x1, .i1⟩
  | .hbm, ⟨63, _⟩ => ⟨S2048x1x1, .i1⟩
  | .hbm, ⟨64, _⟩ => ⟨S_, .i1⟩
  | .hbm, ⟨65, _⟩ => ⟨S2048x1, .i1⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x1, .i1⟩
  | .hbm, ⟨71, _⟩ => ⟨S_, .f32⟩
  | .hbm, ⟨72, _⟩ => ⟨S2048x1, .f32⟩
  | .hbm, ⟨73, _⟩ => ⟨S2048x1, .f32⟩
  | _, _ => ⟨S2048x120006, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_c_0 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c_1 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_c_3 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c_4 : Ref sig .tc := ⟨.hbm, 39, rfl⟩
abbrev main_c_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v33 : Ref sig .tc := ⟨.hbm, 46, rfl⟩
abbrev main_v34 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_cst : Ref sig .tc := ⟨.hbm, 67, rfl⟩
abbrev main_call1_v14 : Ref sig .tc := ⟨.hbm, 68, rfl⟩
abbrev main_v35 : Ref sig .tc := ⟨.hbm, 69, rfl⟩
abbrev main_v36 : Ref sig .tc := ⟨.hbm, 70, rfl⟩
abbrev main_cst : Ref sig .tc := ⟨.hbm, 71, rfl⟩
abbrev main_call2_v0 : Ref sig .tc := ⟨.hbm, 72, rfl⟩
abbrev main_v37 : Ref sig .tc := ⟨.hbm, 73, rfl⟩

abbrev nD : Nat := 1
abbrev τ : Topo := Topo.v7x

variable {F : FTy → Type} [FloatOps F]

class Facts₀ : Prop where
  slices_S2048x120006_S2048x40000_0_0 : S2048x120006.Slices ![0, 0] S2048x40000
  slices_S2048x120006_S2048x2_0_120000 : S2048x120006.Slices ![0, 120000] S2048x2
  slices_S2048x120006_S2048x2_0_120002 : S2048x120006.Slices ![0, 120002] S2048x2
  slices_S2048x120006_S2048x2_0_120004 : S2048x120006.Slices ![0, 120004] S2048x2
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  slices_S2048x2_S2048x1_0_1 : S2048x2.Slices ![0, 1] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  h_S_ : 0 < S_.numel
  gather_S2048x40000_S2048x1x1_S2048x1_n_1_0_0_1_2_11_wf : GatherDims.WF S2048x40000 S2048x1x1 S2048x1 [] [1] [0] [1] [0] 2 ![1, 1]

variable [Facts₀]

def gather_S2048x40000_S2048x1x1_S2048x1_n_1_0_0_1_2_11 : GatherDims S2048x40000 S2048x1x1 S2048x1 where
  offsetDims := []
  collapsedSliceDims := [1]
  operandBatchingDims := [0]
  startIndicesBatchingDims := [0]
  startIndexMap := [1]
  indexVectorDim := 2
  sliceSizes := ![1, 1]
  wf := gather_S2048x40000_S2048x1x1_S2048x1_n_1_0_0_1_2_11_wf

class Facts : Prop extends Facts₀ where

variable [Facts]
-- ==== Proof.KB.Kit.lean ====
/-
  The region of `Kernel` as its launch finds it. Before the region @main runs seven stretches of host
  operations: the six trailing columns of each row are sliced off, the cell index is computed from them
  (point / resolution + origin, truncated, row * 200 + column, clipped to [0, 39999]), and split into a
  chunk number (index div 128), a lane (index mod 128) and an out-of-bounds flag. Those three integer
  vectors are the region's prefetched tables. Here: the contents of every buffer when the region is entered
  (`V`), that the argument array is still as launched, the tables' contents, the kernel's own two DMA
  semaphore cells, and the region invariant spelled conjunct by conjunct: the scratch ring at some contents,
  the generator register, both cells at zero, the argument array whole at its launch contents, and the read
  halves of the three tables.
-/
import proofs.«135630_j56307021251002_2_alg».proof.Proof.Gen.Kernel.Launch
import proofs.«135630_j56307021251002_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the seven stretches and then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The three tables' contents when the region is entered (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The window's index map reads no table, so every contents is admissible. -/
abbrev adm : (pcfg0 (F := F)).Adm := ⟨tbl m, trivial⟩
abbrev cfgM : Pipeline.Cfg sig Λ₀ := cfg0 (adm m)

abbrev tbM0_0 : Memref sig .tc .smem S2048 .i32 := Memref.whole main_v26
abbrev tbM0_1 : Memref sig .tc .smem S2048 .i32 := Memref.whole main_v27
abbrev tbM0_2 : Memref sig .tc .smem S2048 .i32 := Memref.whole main_v28
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' read halves, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The kernel's own cells, its scratch and the array it copies from -/

abbrev ms0_0 (t : Fin (cfgM m).N) : Memref sig .tc .vmem S32x1 .f32 := spec0_0.stage ((cfgM m).slots t 0)
abbrev hs0_0 (t : Fin (cfgM m).N) : (ms0_0 m t).IsWhole := hstage0_0 (((cfgM m).slots t 0).cast nbuf0_0)
abbrev scM0_0 : Memref sig .tc .vmem S2x8x128 .f32 := Memref.whole cc0_scratch0
abbrev hbM0_0 : Memref sig .tc .hbm S2048x120006 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The two cells of the kernel's semaphore array. -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant between points, conjunct by conjunct. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0 ∗ semVal ((c : Thread nD τ), SemLoc.dma 3) 0) ∗ iprop(hbPt0 c hbM0_0 (V m c main_arg0))) := by
  rw [Pipeline.ΦD_eq, scopedRest0_eq, ownSems00_eq, hbmPts0_eq]; simp only [scM0_0, owns_whole]; try rfl

/-- The kernel body at point `t`, on what the pipeline calls it with. -/
abbrev bodyAt0 (t : Fin (cfgM m).N) : Prog (TpuEff nD τ sig (Elt F) Λ₀ .tc) PUnit :=
  cc0__sdf_gather_kernel (grid0.coords t) (Memref.whole main_v26) (Memref.isWhole_whole _) (Memref.whole main_v27) (Memref.isWhole_whole _) (Memref.whole main_v28) (Memref.isWhole_whole _) (Memref.whole main_arg0) (Memref.isWhole_whole _) (spec0_0.stage ((cfgM m).slots t 0)) (hstage0_0 (((cfgM m).slots t 0).cast nbuf0_0)) (Memref.whole cc0_scratch0) (Memref.isWhole_whole _) cc0_scratch1

end Cert.Kernel.Hand

end
-- ==== Proof.KB.Chk.lean ====
/-
  The side conditions the body assumes. For row k of a grid point (0 ≤ k < 32) the body reads the row's
  chunk number w from the first table and slices the 128 columns [128 w, 128 w + 128) of row 32 i + k out of
  the [2048, 120006] array; it assumes that 128 w, computed in 32-bit words, is a multiple of 128 and that the
  slice lies inside the array. Both hold as soon as w ≤ 312: then 128 w ≤ 39936 does not wrap, and
  39936 + 128 = 40064 ≤ 120006; the row 32 i + k is below 2048 because i < 64.
-/
import proofs.«135630_j56307021251002_2_alg».proof.Proof.KB.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- One row's side condition from the bound on its chunk number, for any grid coordinate `i0 < 64` and any row
    offset `k < 32` inside the point. -/
theorem chk_core (i0 : Nat) (hi : i0 < 64) (k : BitVec 32) (hk : k.toNat < 32) (v : BitVec 32) (h : v.toNat ≤ 312) :
    128 ∣ (Scalar.muli v 128#32).toNat ∧
    ∀ (a : Fin 2),
      ![(Scalar.addi (Scalar.muli (BitVec.ofNat 32 i0) 32#32) k).toNat, (Scalar.muli v 128#32).toNat] a +
          ![1, 128] a ≤ ![2048, 120006] a := by
  have e1 : (Scalar.muli v 128#32).toNat = v.toNat * 128 := by
    simp only [Scalar.muli, IntOp.muli, BitVec.toNat_mul, BitVec.toNat_ofNat]
    omega
  have e2 : (Scalar.addi (Scalar.muli (BitVec.ofNat 32 i0) 32#32) k).toNat = i0 * 32 + k.toNat := by
    simp only [Scalar.muli, Scalar.addi, IntOp.muli, IntOp.addi, BitVec.toNat_mul, BitVec.toNat_add, BitVec.toNat_ofNat]
    omega
  rw [e1, e2]
  refine ⟨Dvd.intro_left _ rfl, fun a => ?_⟩
  match a with
  | ⟨0, _⟩ => show i0 * 32 + k.toNat + 1 ≤ 2048; omega
  | ⟨1, _⟩ => show v.toNat * 128 + 128 ≤ 120006; omega

/-- Every word of the chunk-number table is at most 312 (= 39999 div 128). -/
def WordsOk (c : Dev nD) (xt0 : TbBuf0 (F := F) c tbM0_0) : Prop :=
  ∀ y : S2048.Idx, BitVec.toNat (tbM0_0.view.read (Elt F) xt0 y : BitVec 32) ≤ 312

/-- … so every word a load reads off it is. -/
theorem WordsOk.word {c : Dev nD} {xt0 : TbBuf0 (F := F) c tbM0_0} (h : WordsOk c xt0) (r : LoadRect S2048) (x : r.shape.Idx) :
    BitVec.toNat (tbM0_0.view.readAt (Elt F) r xt0 x : BitVec 32) ≤ 312 := h (r.idx x)

end Cert.Kernel.Hand

end
-- ==== Proof.KB.Ring.lean ====
/-
  The scratch ring as the body uses it. The scratch is [2, 8, 128]; a copy lands in sublane row 0 of slot s,
  the 128 entries [s, 0, ·], and the body loads that row back. While the copy into one slot is in flight the
  body reads the other slot, so the scratch is held as three separate pieces: row [0, 0, ·], row [1, 0, ·],
  and the remaining fourteen rows, which nothing touches. The three element sets are pairwise disjoint and
  cover the scratch, so the scratch whole at anything is the three pieces at anything, and back.
-/
import proofs.«135630_j56307021251002_2_alg».proof.Proof.KB.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- Row 0 of slot 0 and of slot 1, spelt as the body's transfers spell their destination. -/
abbrev rslotA : Memref sig .tc .vmem S128 .f32 :=
  (scM0_0.slice (Rect.unit (s := S2x8x128) ![0, 0, 0] S1x1x128.size inb_S2x8x128_S1x1x128_0_0_0) (fun _ => rfl)).squeeze S128 squeezes_S1x1x128_S128
abbrev rslotB : Memref sig .tc .vmem S128 .f32 :=
  (scM0_0.slice (Rect.unit (s := S2x8x128) ![1, 0, 0] S1x1x128.size inb_S2x8x128_S1x1x128_1_0_0) (fun _ => rfl)).squeeze S128 squeezes_S1x1x128_S128

theorem inb_slot (s : Fin 2) : ∀ a, (![s.val, 0, 0] : Fin 3 → Nat) a + S1x1x128.size a ≤ S2x8x128.size a := by
  have := s.isLt; intro a; fin_cases a <;> simp <;> omega
abbrev slotSet (s : Fin 2) : Finset S2x8x128.Idx := (Rect.unit (s := S2x8x128) ![s.val, 0, 0] S1x1x128.size (inb_slot s)).set
theorem rslotA_set : rslotA.view.set = slotSet 0 := by
  simp only [Memref.view_squeeze, View.set_reshape]; exact View.set_slice_whole _ _
theorem rslotB_set : rslotB.view.set = slotSet 1 := by
  simp only [Memref.view_squeeze, View.set_reshape]; exact View.set_slice_whole _ _
theorem slots_disjoint (s s' : Fin 2) (h : s ≠ s') : Disjoint (slotSet s) (slotSet s') :=
  Ring.lead_disjoint (s := S2x8x128) (0 : Fin 3) 1 (fun s : Fin 2 => (![s.val, 0, 0] : Fin 3 → Nat)) S1x1x128.size inb_slot (fun s => by simp) rfl s s' h

/-- The three pieces' element sets. -/
def pieceSet : Fin 3 → Finset S2x8x128.Idx
  | 0 => slotSet 0
  | 1 => slotSet 1
  | 2 => Finset.univ \ (slotSet 0 ∪ slotSet 1)
theorem pieces_disjoint : ∀ s s' : Fin 3, s ≠ s' → Disjoint (pieceSet s) (pieceSet s') := by
  have h01 := slots_disjoint 0 1 (by decide)
  have hA : Disjoint (slotSet 0) (Finset.univ \ (slotSet 0 ∪ slotSet 1)) :=
    Finset.disjoint_sdiff.mono_right (Finset.sdiff_subset_sdiff (Finset.Subset.refl _) Finset.subset_union_left)
  have hB : Disjoint (slotSet 1) (Finset.univ \ (slotSet 0 ∪ slotSet 1)) :=
    Finset.disjoint_sdiff.mono_right (Finset.sdiff_subset_sdiff (Finset.Subset.refl _) Finset.subset_union_right)
  intro s s' h
  match s, s', h with
  | 0, 1, _ => exact h01
  | 1, 0, _ => exact h01.symm
  | 0, 2, _ => exact hA
  | 2, 0, _ => exact hA.symm
  | 1, 2, _ => exact hB
  | 2, 1, _ => exact hB.symm
  | 0, 0, h => exact absurd rfl h
  | 1, 1, h => exact absurd rfl h
  | 2, 2, h => exact absurd rfl h
theorem pieces_cover : Finset.univ.biUnion pieceSet = Finset.univ := by
  ext y
  simp only [Finset.mem_biUnion, Finset.mem_univ, true_and, iff_true]
  by_cases h : y ∈ slotSet 0 ∪ slotSet 1
  · rcases Finset.mem_union.mp h with h | h
    · exact ⟨0, h⟩
    · exact ⟨1, h⟩
  · exact ⟨2, Finset.mem_sdiff.mpr ⟨Finset.mem_univ _, h⟩⟩

section InOut
variable (c : Dev nD)
abbrev slotPA (f : HbBuf0 (F := F) c rslotA) : sProp 𝕄 := rslotA.view.loc (c : Thread nD τ) ↦[rslotA.view.set]{fullShare} f
abbrev slotPB (f : HbBuf0 (F := F) c rslotB) : sProp 𝕄 := rslotB.view.loc (c : Thread nD τ) ↦[rslotB.view.set]{fullShare} f
abbrev restP (f : Buf (Elt F) ((c : Thread nD τ).loc cc0_scratch0)) : sProp 𝕄 := ((c : Thread nD τ).loc cc0_scratch0) ↦[pieceSet 2]{fullShare} f
theorem slotPA_eq (f) : slotPA (F := F) c f = (((c : Thread nD τ).loc cc0_scratch0) ↦[pieceSet 0]{fullShare} f : sProp 𝕄) := by
  unfold slotPA; rw [rslotA_set]; rfl
theorem slotPB_eq (f) : slotPB (F := F) c f = (((c : Thread nD τ).loc cc0_scratch0) ↦[pieceSet 1]{fullShare} f : sProp 𝕄) := by
  unfold slotPB; rw [rslotB_set]; rfl

set_option maxHeartbeats 1000000 in
/-- The scratch whole at anything is its three pieces at something each, -/
theorem scratch_in : iprop(∃ d, owns (c : Thread nD τ) scM0_0 fullShare d) ⊢ (iprop((∃ f, slotPA (F := F) c f) ∗ (∃ f, slotPB (F := F) c f) ∗ ∃ f, restP (F := F) c f) : sProp 𝕄) := by
  simp only [scM0_0, owns_whole]
  exact Ring.slots3_split (U := Pipeline.UD sig nD τ) (ℓ := (c : Thread nD τ).loc cc0_scratch0) (q := fullShare) pieceSet pieces_disjoint pieces_cover
    (slotPA c) (slotPB c) (restP c) (slotPA_eq c) (slotPB_eq c) (fun _ => rfl)
set_option maxHeartbeats 1000000 in
/-- and back. -/
theorem scratch_out : (iprop((∃ f, slotPA (F := F) c f) ∗ (∃ f, slotPB (F := F) c f) ∗ ∃ f, restP (F := F) c f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) pieceSet pieces_disjoint pieces_cover
    (slotPA c) (slotPB c) (restP c) (slotPA_eq c) (slotPB_eq c) (fun _ => rfl)
end InOut

end Cert.Kernel.Hand

end
-- ==== Proof.KB.Run.lean ====
/-
  The kernel body at one grid point, run once. Held: the output's staging buffer (at anything), the scratch
  ring as its three pieces (at anything), both DMA cells at zero, the [2048, 120006] array whole, the three
  tables' read halves, and the core's record of waits. Row by row the body starts the copy of the next row's
  128-column chunk into the other slot, waits for its own, selects the lane the second table names, and stores
  the one number (or the out-of-bounds constant when the third table's flag is set) at row k of the staging
  buffer. Every copy started in the point is waited for in the point, so the cells are back at zero and the
  array and the ring's pieces are held again at the end. Each assumed side condition follows from the chunk
  numbers' bound. The 32 stores into the staging buffer are the witness the run finds.
-/
import proofs.«135630_j56307021251002_2_alg».proof.Proof.KB.Chk
import proofs.«135630_j56307021251002_2_alg».proof.Proof.KB.Ring

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option maxHeartbeats 8000000 in
noncomputable def kernelRun0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    { L : List (View.Piece (Elt F) S32x1 .f32) //
      ∀ (W : Waits sig Unit) (K : PUnit → sProp 𝕄),
        iprop((∃ d, owns (c : Thread nD τ) arg5 fullShare d) ∗ (∃ f, slotPA (F := F) c f) ∗ (∃ f, slotPB (F := F) c f) ∗ (∃ f, restP (F := F) c f)
            ∗ semVal ((c : Thread nD τ), SemLoc.dma 2) 0 ∗ semVal ((c : Thread nD τ), SemLoc.dma 3) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((∃ f, arg5.view.loc (c : Thread nD τ) ↦[arg5.view.set]{fullShare} arg5.view.writes (Elt F) f L)
                ∗ (∃ f, slotPA (F := F) c f) ∗ (∃ f, slotPB (F := F) c f) ∗ (∃ f, restP (F := F) c f)
                ∗ semVal ((c : Thread nD τ), SemLoc.dma 2) 0 ∗ semVal ((c : Thread nD τ), SemLoc.dma 3) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__sdf_gather_kernel i tbM0_0 (Memref.isWhole_whole _) tbM0_1 (Memref.isWhole_whole _) tbM0_2 (Memref.isWhole_whole _)
                hbM0_0 (Memref.isWhole_whole _) arg5 harg5 scM0_0 (Memref.isWhole_whole _) cc0_scratch1) K } := by
  refine ⟨?_, fun W K => ?run⟩
  case run =>
    simp only [cc0__sdf_gather_kernel_eq_skeleton]; unfold cc0__sdf_gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%d1, %f1, -, H1⟩, ⟨%fa, HSa⟩, ⟨%fb, HSb⟩, ⟨%fr, HSr⟩, Hq0, Hq1, Hh0, HT0, HT1, HT2, HW, Hk⟩
    sl_exec (disch := exact chk_core _ (Fin.isLt _) _ (by decide) _ (hW.word _ _))
    sl_step
    iapply Hk
    isplitl [H1]; · iexists _; iexact H1
    isplitl [HSa]; · iexists _; iexact HSa
    isplitl [HSb]; · iexists _; iexact HSb
    isplitl [HSr]; · iexists _; iexact HSr
    isplitl [Hq0]; · iexact Hq0
    isplitl [Hq1]; · iexact Hq1
    isplitl [Hh0]; · iexact Hh0
    isplitl [HT0]; · iexact HT0
    isplitl [HT1]; · iexact HT1
    isplitl [HT2]; · iexact HT2
    iexists _; iexact HW

end Cert.Kernel.Hand

end
-- ==== Proof.KB.Frame.lean ====
/-
  The frame of `Kernel`: the proof data of its one region, the body obligation at every grid point, the launch,
  and the run's post read at the argument array.
  After the body at point t the output's staging buffer holds the 32 stores of that point read back; the
  invariant between points is the scratch at anything, the generator register, the kernel's two DMA cells at
  zero, the argument array whole at its launch contents, and the tables' read halves. The body needs the
  chunk-number table's words to be at most 312 (`TblOk`), which the host's clip and division give for every
  input.
-/
import proofs.«135630_j56307021251002_2_alg».proof.Proof.KB.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every chunk number the region finds in its first table is at most 312. -/
def TblOk : Prop := ∀ c : Dev nD, WordsOk (F := F) c (tbl m 0)

/-- The point's 32 stores, each of one entry, tile the [32, 1] block. -/
theorem cover0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) (y : S32x1.Idx) :
    ∃ pc ∈ (kernelRun0 c i arg5 harg5 fh0 xt0 xt1 xt2 hW).1, y ∈ pc.1.set :=
  View.cover_of_tiledL (kernelRun0 c i arg5 harg5 fh0 xt0 xt1 xt2 hW).1 S1x1.size (by sl_kernel_rfl) y

abbrev VO0 : View sig .tc .vmem S32x1 .f32 := (Memref.whole cc0_stg0_0 : Memref sig .tc .vmem S32x1 .f32).view

/-- What the run leaves in the output's staging buffer: its stores read back. -/
def out0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) : Vec F S32x1 .f32 :=
  VO0.read (Elt F) (VO0.writes (Elt F) VO0.junk (kernelRun0 c i arg5 harg5 fh0 xt0 xt1 xt2 hW).1)

/-- What the output's staging buffer holds after the body at point `t`. -/
def outsAt0 (hT : TblOk m) (c : Dev nD) (t : Fin (cfgM m).N) : Vec F S32x1 .f32 :=
  out0 c (grid0.coords t) (ms0_0 m t) (hs0_0 m t) (V m c main_arg0) (tbl m 0) (tbl m 1) (tbl m 2) (hT c)

/-- The region's proof data on core `c`. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => (outsAt0 m hT c t)
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]
theorem after0_0 (hT : TblOk m) (c : Dev nD) (t : Fin (cfgM m).N) : (dats m hT 0 c).after 0 t = (outsAt0 m hT c t) := by dsimp only [dats]; try rfl

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d)))
def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t))

set_option maxHeartbeats 2000000 in
/-- The body at any point: the invariant hands the run the scratch (split into the ring's pieces), the cells at
    zero, the array and the tables, and takes them back as they were. -/
theorem sound_body (hT : TblOk m) (c : Dev nD) (t : Fin (cfgM m).N) :
    bodyPre m hT c t ⊢ wp frame (wpE (defs₀ (F := F)) Variants.none c none) Set.univ (bodyAt0 m t) (fun _ => bodyPost m hT c t) := by
  unfold bodyPre bodyPost bodyAt0
  rw [show (dats m hT 0 c).Φ t.succ = (dats m hT 0 c).Φ t.castSucc from rfl, after0_0]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0
  iintro ⟨⟨⟨HS0, Hg, ⟨Hq0, Hq1⟩, Hh0⟩, ⟨HT0, HT1, HT2⟩⟩, ⟨%W, -, HW⟩, ⟨%d0, H0⟩⟩
  ihave HS3 := (scratch_in (F := F) c) $$ HS0
  icases HS3 with ⟨HSa, HSb, HSr⟩
  iapply ((kernelRun0 c (grid0.coords t) _ _ (V m c main_arg0) (tbl m 0) (tbl m 1) (tbl m 2) (hT c)).2 W _)
  isplitl [H0]; · iexists _; iexact H0
  isplitl [HSa]; · iexact HSa
  isplitl [HSb]; · iexact HSb
  isplitl [HSr]; · iexact HSr
  isplitl [Hq0]; · iexact Hq0
  isplitl [Hq1]; · iexact Hq1
  isplitl [Hh0]; · iexact Hh0
  isplitl [HT0]; · iexact HT0
  isplitl [HT1]; · iexact HT1
  isplitl [HT2]; · iexact HT2
  isplitl [HW]; · iexact HW
  iintro ⟨⟨%e1, H1⟩, HSa, HSb, HSr, Hq0, Hq1, Hh0, HT0, HT1, HT2, ⟨%W', HW'⟩⟩
  isplitl [HSa HSb HSr Hg Hq0 Hq1 Hh0 HT0 HT1 HT2]
  · isplitl [HSa HSb HSr Hg Hq0 Hq1 Hh0]
    · isplitl [HSa HSb HSr]
      · iapply (scratch_out (F := F) c)
        isplitl [HSa]; · iexact HSa
        isplitl [HSb]; · iexact HSb
        iexact HSr
      isplitl [Hg]
      · iexact Hg
      isplitl [Hq0 Hq1]
      · isplitl [Hq0]; · iexact Hq0
        iexact Hq1
      iexact Hh0
    isplitl [HT0]; · iexact HT0
    isplitl [HT1]; · iexact HT1
    iexact HT2
  isplitl [HW']
  · iexists W'; isplitr; · ipureintro; exact fun _ _ => Or.inl trivial
    iexact HW'
  unfold owns; iexists _; isplitr
  swap; · iexact H1
  ipureintro; exact View.read_writes_of_cover _ _ _ _ _ (cover0 c _ _ _ _ _ _ _ _)

theorem body_obligation (hT : TblOk m) (c : Dev nD) : BodyObligation (dats (F := F) m hT 0 c) (defs₀ (F := F)) Variants.none () Set.univ := fun t => by
  rw [bigSep_W0, bigSep_W0]
  exact sound_body m hT c t

set_option backward.isDefEq.respectTransparency.types false in
/-- Every weakly fair execution of @main terminates, and the final state has the output array at what the proof
    data compute and every other unscoped buffer as the region found it. -/
theorem run_main (hT : TblOk m) : θ_run defs (onTc (τ := τ) (main (F := F))) (s₀ m ρ) (Pipeline.FramePost (Pipeline.pin pcfgs fun _ => adm m) (dats m hT) 0 (V m)) :=
  Pipeline.θ_run_frameP_dma pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V := V m) (hmain := hmain m Variants.none) (hA := A_eq m hT) (hpf := V_pre m)
    (hin := fun _ => .rfl) (hout := fun c => by
      show iprop(Pipeline.ΦD osem0 spec0 H0 (V m) c ∗ Pipeline.ΦT pre0 (tbl m) c) ⊢ _
      iintro ⟨HD, -⟩; iexact HD)

/-- The frame: the program runs to the end, faults nowhere, and the argument array ends as launched. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (by decide : main_arg0 ∈ Pipeline.restRefs sig spec0)).trans (V_main_arg0 m c)) (run_main m ρ hT)

end Cert.Kernel.Hand

end
-- ==== Proof.LibClipDiv.lean ====
/-
  Word arithmetic of a clipped index split by 128.
  A 32-bit word clipped (signed) to [0, 39999] is non-negative and below 40000. On such a word the signed
  division and remainder by 128 are the unsigned ones, whichever unit computes them (128 is neither zero nor
  minus one, so no corner case arises). jnp spells floor division as truncating division corrected by one when
  the signs differ and the remainder is not zero, and the remainder as the truncating remainder corrected by the
  divisor under the same kind of test; on a non-negative word with a positive divisor neither correction fires,
  so the two chains are plain `/` and `%`. Hence the chunk number is at most 39999 / 128 = 312, and
  128 * (w / 128) + w % 128 = w.
-/
import Idealize.ShloMosaic.PureOps.Vector

namespace Cert.LibClipDiv

open Idealize.ShloMosaic

/-- The clip to [0, 39999], as `minimum 39999 (maximum 0 v)` over signed words, lands in [0, 39999]. -/
theorem clip_bound (v : BitVec 32) : (IntOp.minsi 39999#32 (IntOp.maxsi 0#32 v)).toNat ≤ 39999 := by
  have hv := v.isLt
  unfold IntOp.minsi IntOp.maxsi
  simp only [BitVec.slt, BitVec.toInt_eq_toNat_cond, BitVec.toNat_ofNat, decide_eq_true_eq]
  split_ifs <;> simp_all <;> omega

theorem msb_of_le (x : BitVec 32) (h : x.toNat ≤ 39999) : x.msb = false := by
  rw [BitVec.msb_eq_decide]; simp; omega

theorem not_corner (x : BitVec 32) : ¬ IntOp.SDivCorner x 128#32 := by
  rintro (h0 | ⟨_, h1⟩)
  · exact absurd h0 (by decide)
  · exact absurd h1 (by decide)

/-- Signed division by 128 of a word in [0, 39999] is the unsigned one. -/
theorem divsi_128 (u : ArithUnit) (x : BitVec 32) (h : x.toNat ≤ 39999) : IntOp.divsi u x 128#32 = x / 128#32 := by
  have hm := msb_of_le x h
  have h128 : (128#32 : BitVec 32).msb = false := by decide
  unfold IntOp.divsi
  rw [if_neg (not_corner x)]
  simp [BitVec.sdiv, hm, h128]

/-- Signed remainder by 128 of a word in [0, 39999] is the unsigned one. -/
theorem remsi_128 (u : ArithUnit) (x : BitVec 32) (h : x.toNat ≤ 39999) : IntOp.remsi u x 128#32 = x % 128#32 := by
  have hm := msb_of_le x h
  have h128 : (128#32 : BitVec 32).msb = false := by decide
  unfold IntOp.remsi
  rw [if_neg (not_corner x)]
  simp [BitVec.srem, hm, h128]

/-- The sign of a word: 0, 1 or -1. -/
def sgn (x : BitVec 32) : BitVec 32 := if x = 0 then 0 else if x.msb then -1 else 1

/-- jnp's floor division by 128 over truncating division, at one word. -/
def fdiv (u : ArithUnit) (x : BitVec 32) : BitVec 32 :=
  Scalar.select (IntOp.andi (IntOp.cmpi .ne (sgn x) (sgn 128#32)) (IntOp.cmpi .ne (IntOp.remsi u x 128#32) 0#32))
    (IntOp.subi (IntOp.divsi u x 128#32) 1#32) (IntOp.divsi u x 128#32)

theorem fdiv_eq (u : ArithUnit) (x : BitVec 32) (h : x.toNat ≤ 39999) : fdiv u x = x / 128#32 := by
  unfold fdiv
  rw [divsi_128 u x h, remsi_128 u x h]
  have hm := msb_of_le x h
  by_cases hx : x = 0
  · subst hx; decide
  · have h1 : sgn x = 1#32 := by unfold sgn; rw [if_neg hx, hm]; rfl
    have h2 : IntOp.cmpi .ne (1#32) (sgn 128#32) = 0#1 := by decide
    rw [h1, h2]
    simp [IntOp.andi, Scalar.select]

/-- The chunk number of a clipped index is at most 312. -/
theorem fdiv_le (u : ArithUnit) (x : BitVec 32) (h : x.toNat ≤ 39999) : (fdiv u x).toNat ≤ 312 := by
  rw [fdiv_eq u x h, BitVec.toNat_udiv]
  show x.toNat / 128 ≤ 312
  omega

/-- jnp's remainder by 128 over the truncating remainder, at one word. -/
def fmod (u : ArithUnit) (x : BitVec 32) : BitVec 32 :=
  Scalar.select
    (IntOp.andi
      (IntOp.cmpi .ne (IntOp.cmpi .slt (IntOp.remsi u x (Scalar.select (IntOp.cmpi .eq 128#32 0#32) 1#32 128#32)) 0#32)
        (IntOp.cmpi .slt (Scalar.select (IntOp.cmpi .eq 128#32 0#32) 1#32 128#32) 0#32))
      (IntOp.cmpi .ne (IntOp.remsi u x (Scalar.select (IntOp.cmpi .eq 128#32 0#32) 1#32 128#32)) 0#32))
    (IntOp.addi (IntOp.remsi u x (Scalar.select (IntOp.cmpi .eq 128#32 0#32) 1#32 128#32)) (Scalar.select (IntOp.cmpi .eq 128#32 0#32) 1#32 128#32))
    (IntOp.remsi u x (Scalar.select (IntOp.cmpi .eq 128#32 0#32) 1#32 128#32))

theorem fmod_eq (u : ArithUnit) (x : BitVec 32) (h : x.toNat ≤ 39999) : fmod u x = x % 128#32 := by
  have hm2 : Scalar.select (IntOp.cmpi .eq 128#32 0#32) 1#32 128#32 = 128#32 := by decide
  unfold fmod
  rw [hm2, remsi_128 u x h]
  have hlt : (x % 128#32).toNat < 128 := by
    rw [BitVec.toNat_umod]; exact Nat.mod_lt _ (by decide)
  have hs : IntOp.cmpi .slt (x % 128#32) 0#32 = 0#1 := by
    have : (x % 128#32).slt 0#32 = false := by
      simp only [BitVec.slt, BitVec.toInt_eq_toNat_cond, BitVec.toNat_ofNat]
      simp; omega
    simp [IntOp.cmpi, this]
  have h9 : IntOp.cmpi .slt (128#32) 0#32 = 0#1 := by decide
  have h11 : IntOp.cmpi .ne (0#1) (0#1) = 0#1 := by decide
  rw [hs, h9, h11]
  simp [IntOp.andi, Scalar.select]

/-- The lane of a clipped index is below 128, and chunk and lane put the index back together. -/
theorem split_128 (x : BitVec 32) : 128 * (x / 128#32).toNat + (x % 128#32).toNat = x.toNat := by
  rw [BitVec.toNat_udiv, BitVec.toNat_umod]
  exact Nat.div_add_mod _ _

end Cert.LibClipDiv
-- ==== Proof.KB.Tables.lean ====
/-
  The chunk-number table, read off the host operations before the region. Whatever the six trailing columns
  hold, the flattened cell index is clipped to [0, 39999] and then floor-divided by 128; entry by entry that is
  the plain quotient of a word in [0, 39999] by 128, so every entry of the table is at most 312. This is the
  bound the kernel's side conditions need, and it holds for every input.
-/
import proofs.«135630_j56307021251002_2_alg».proof.Proof.KB.Frame
import proofs.«135630_j56307021251002_2_alg».proof.Proof.LibClipDiv
import Idealize.ShloMosaic.Lib.StableHlo.Run
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

open Idealize.ShloMosaic.StableHlo

variable (m : (ℓ : Loc nD τ sig) → Buf (Elt F) ℓ)

/-- The clip to [0, 39999] of a vector of words, as the host spells it. -/
def clipVec (s : IVec S2048 32) : IVec S2048 32 :=
  minsi (broadcastInDim S2048 ![] bcast_S_S2048 (id (constantI S_ 32 39999#32))) (maxsi (broadcastInDim S2048 ![] bcast_S_S2048 (id (constantI S_ 32 0#32))) s)

/-- jnp's floor division by 128 of a vector of words, as the host spells it. -/
def floorDiv128 (z : IVec S2048 32) : IVec S2048 32 :=
  select
    (andi (cmpi .ne (signi z) (broadcastInDim S2048 ![] bcast_S_S2048 (signi (id (constantI S_ 32 128#32)))))
      (cmpi .ne (Host.remsi z (broadcastInDim S2048 ![] bcast_S_S2048 (id (constantI S_ 32 128#32)))) (broadcastInDim S2048 ![] bcast_S_S2048 (constantI S_ 32 0#32))))
    (subi (Host.divsi z (broadcastInDim S2048 ![] bcast_S_S2048 (id (constantI S_ 32 128#32)))) (broadcastInDim S2048 ![] bcast_S_S2048 (constantI S_ 32 1#32)))
    (Host.divsi z (broadcastInDim S2048 ![] bcast_S_S2048 (id (constantI S_ 32 128#32))))

/-- A scalar broadcast to the 2048 rows reads the scalar at every row. -/
theorem bc_apply {α : Type} (s : S_.Idx → α) (y : S2048.Idx) : broadcastInDim S2048 ![] bcast_S_S2048 s y = s (fun a => a.elim0) :=
  broadcastInDim_apply ![] bcast_S_S2048 s y (fun a => a.elim0) (fun a => a.elim0)

theorem clipVec_apply (s : IVec S2048 32) (y : S2048.Idx) :
    clipVec s y = IntOp.minsi 39999#32 (IntOp.maxsi 0#32 (s y)) := by
  show IntOp.minsi (broadcastInDim S2048 ![] bcast_S_S2048 (id (constantI S_ 32 39999#32)) y) (IntOp.maxsi (broadcastInDim S2048 ![] bcast_S_S2048 (id (constantI S_ 32 0#32)) y) (s y)) = _
  rw [bc_apply, bc_apply]; rfl

theorem floorDiv128_apply (z : IVec S2048 32) (y : S2048.Idx) :
    floorDiv128 z y = Cert.LibClipDiv.fdiv .host (z y) := by
  show Scalar.select
      (IntOp.andi (IntOp.cmpi .ne (signi z y) (broadcastInDim S2048 ![] bcast_S_S2048 (signi (id (constantI S_ 32 128#32))) y))
        (IntOp.cmpi .ne (IntOp.remsi .host (z y) (broadcastInDim S2048 ![] bcast_S_S2048 (id (constantI S_ 32 128#32)) y)) (broadcastInDim S2048 ![] bcast_S_S2048 (constantI S_ 32 0#32) y)))
      (IntOp.subi (IntOp.divsi .host (z y) (broadcastInDim S2048 ![] bcast_S_S2048 (id (constantI S_ 32 128#32)) y)) (broadcastInDim S2048 ![] bcast_S_S2048 (constantI S_ 32 1#32) y))
      (IntOp.divsi .host (z y) (broadcastInDim S2048 ![] bcast_S_S2048 (id (constantI S_ 32 128#32)) y)) = _
  simp only [bc_apply]; rfl

set_option maxHeartbeats 8000000 in
/-- The first table is the floor division by 128 of the clipped cell index. -/
theorem tbl0_shape : ∃ s : IVec S2048 32, (tbl (F := F) m 0 : S2048.Idx → BitVec 32) = floorDiv128 (clipVec s) := by
  refine ⟨?w, ?h⟩
  case h =>
    unfold tbl
    show V m 0 main_v26 = _
    dsimp only [V]
    simp only [hostOps0, hostOps0_1, hostOps0_2, hostOps0_3, hostOps0_4, hostOps0_5, hostOps0_6, List.flatten_cons, List.flatten_nil, List.append_nil, List.cons_append, List.nil_append]
    after_results_simp
    rfl

/-- Every chunk number is at most 312, for every input. -/
theorem tblOk : TblOk (F := F) m := by
  intro c y
  obtain rfl : c = 0 := Subsingleton.elim _ _
  obtain ⟨s, hs⟩ := tbl0_shape (F := F) m
  show BitVec.toNat ((tbl (F := F) m 0 : S2048.Idx → BitVec 32) y) ≤ 312
  rw [hs, floorDiv128_apply, clipVec_apply]
  exact Cert.LibClipDiv.fdiv_le _ _ (Cert.LibClipDiv.clip_bound _)

end Cert.Kernel.Hand

end
-- ==== Proof.KI.Kit.lean ====
/-
  The region of `KernelIdeal` as its launch finds it. Before the region @main runs seven stretches of host
  operations: the six trailing columns of each row are sliced off, the cell index is computed from them
  (point / resolution + origin, truncated, row * 200 + column, clipped to [0, 39999]), and split into a
  chunk number (index div 128), a lane (index mod 128) and an out-of-bounds flag. Those three integer
  vectors are the region's prefetched tables. Here: the contents of every buffer when the region is entered
  (`V`), that the argument array is still as launched, the tables' contents, the kernel's own two DMA
  semaphore cells, and the region invariant spelled conjunct by conjunct: the scratch ring at some contents,
  the generator register, both cells at zero, the argument array whole at its launch contents, and the read
  halves of the three tables.
-/
import proofs.«135630_j56307021251002_2_alg».proof.Proof.Gen.KernelIdeal.Launch
import proofs.«135630_j56307021251002_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s buffers when the region is entered: the launch contents after the seven stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- @main is the seven stretches and then the region. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables -/

/-- The three tables' contents when the region is entered (one device). -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- The window's index map reads no table, so every contents is admissible. -/
abbrev adm : (pcfg0 (F := F)).Adm := ⟨tbl m, trivial⟩
abbrev cfgM : Pipeline.Cfg sig Λ₀ := cfg0 (adm m)

abbrev tbM0_0 : Memref sig .tc .smem S2048 .i32 := Memref.whole main_v26
abbrev tbM0_1 : Memref sig .tc .smem S2048 .i32 := Memref.whole main_v27
abbrev tbM0_2 : Memref sig .tc .smem S2048 .i32 := Memref.whole main_v28
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' read halves, table by table. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The kernel's own cells, its scratch and the array it copies from -/

abbrev ms0_0 (t : Fin (cfgM m).N) : Memref sig .tc .vmem S32x1 .f32 := spec0_0.stage ((cfgM m).slots t 0)
abbrev hs0_0 (t : Fin (cfgM m).N) : (ms0_0 m t).IsWhole := hstage0_0 (((cfgM m).slots t 0).cast nbuf0_0)
abbrev scM0_0 : Memref sig .tc .vmem S2x8x128 .f32 := Memref.whole cc0_scratch0
abbrev hbM0_0 : Memref sig .tc .hbm S2048x120006 .f32 := Memref.whole main_arg0
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The two cells of the kernel's semaphore array. -/
abbrev osem0 : Fin 2 → SemLoc sig := fun j => (![SemLoc.dma 2, SemLoc.dma 3] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0) := by
  rw [Pipeline.ownSems0_eq_of_list c osem0 [0, 1] (by decide) (by decide)]; rfl
def H0 : Finset (Ref sig .tc) := {main_arg0}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant between points, conjunct by conjunct. -/
theorem PhiD0_eq (c : Dev nD) :
    (Pipeline.ΦD osem0 spec0 H0 (V m) c : sProp 𝕄)
      = iprop(iprop((∃ d, owns (c : Thread nD τ) scM0_0 fullShare d)) ∗ (∃ r, prngReg c r) ∗ iprop(semVal ((c : Thread nD τ), SemLoc.dma 2) 0 ∗ semVal ((c : Thread nD τ), SemLoc.dma 3) 0) ∗ iprop(hbPt0 c hbM0_0 (V m c main_arg0))) := by
  rw [Pipeline.ΦD_eq, scopedRest0_eq, ownSems00_eq, hbmPts0_eq]; simp only [scM0_0, owns_whole]; try rfl

/-- The kernel body at point `t`, on what the pipeline calls it with. -/
abbrev bodyAt0 (t : Fin (cfgM m).N) : Prog (TpuEff nD τ sig (Elt F) Λ₀ .tc) PUnit :=
  cc0__sdf_gather_kernel (grid0.coords t) (Memref.whole main_v26) (Memref.isWhole_whole _) (Memref.whole main_v27) (Memref.isWhole_whole _) (Memref.whole main_v28) (Memref.isWhole_whole _) (Memref.whole main_arg0) (Memref.isWhole_whole _) (spec0_0.stage ((cfgM m).slots t 0)) (hstage0_0 (((cfgM m).slots t 0).cast nbuf0_0)) (Memref.whole cc0_scratch0) (Memref.isWhole_whole _) cc0_scratch1

end Cert.KernelIdeal.Hand

end
-- ==== Proof.KI.Chk.lean ====
/-
  The side conditions the body assumes. For row k of a grid point (0 ≤ k < 32) the body reads the row's
  chunk number w from the first table and slices the 128 columns [128 w, 128 w + 128) of row 32 i + k out of
  the [2048, 120006] array; it assumes that 128 w, computed in 32-bit words, is a multiple of 128 and that the
  slice lies inside the array. Both hold as soon as w ≤ 312: then 128 w ≤ 39936 does not wrap, and
  39936 + 128 = 40064 ≤ 120006; the row 32 i + k is below 2048 because i < 64.
-/
import proofs.«135630_j56307021251002_2_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- One row's side condition from the bound on its chunk number, for any grid coordinate `i0 < 64` and any row
    offset `k < 32` inside the point. -/
theorem chk_core (i0 : Nat) (hi : i0 < 64) (k : BitVec 32) (hk : k.toNat < 32) (v : BitVec 32) (h : v.toNat ≤ 312) :
    128 ∣ (Scalar.muli v 128#32).toNat ∧
    ∀ (a : Fin 2),
      ![(Scalar.addi (Scalar.muli (BitVec.ofNat 32 i0) 32#32) k).toNat, (Scalar.muli v 128#32).toNat] a +
          ![1, 128] a ≤ ![2048, 120006] a := by
  have e1 : (Scalar.muli v 128#32).toNat = v.toNat * 128 := by
    simp only [Scalar.muli, IntOp.muli, BitVec.toNat_mul, BitVec.toNat_ofNat]
    omega
  have e2 : (Scalar.addi (Scalar.muli (BitVec.ofNat 32 i0) 32#32) k).toNat = i0 * 32 + k.toNat := by
    simp only [Scalar.muli, Scalar.addi, IntOp.muli, IntOp.addi, BitVec.toNat_mul, BitVec.toNat_add, BitVec.toNat_ofNat]
    omega
  rw [e1, e2]
  refine ⟨Dvd.intro_left _ rfl, fun a => ?_⟩
  match a with
  | ⟨0, _⟩ => show i0 * 32 + k.toNat + 1 ≤ 2048; omega
  | ⟨1, _⟩ => show v.toNat * 128 + 128 ≤ 120006; omega

/-- Every word of the chunk-number table is at most 312 (= 39999 div 128). -/
def WordsOk (c : Dev nD) (xt0 : TbBuf0 (F := F) c tbM0_0) : Prop :=
  ∀ y : S2048.Idx, BitVec.toNat (tbM0_0.view.read (Elt F) xt0 y : BitVec 32) ≤ 312

/-- … so every word a load reads off it is. -/
theorem WordsOk.word {c : Dev nD} {xt0 : TbBuf0 (F := F) c tbM0_0} (h : WordsOk c xt0) (r : LoadRect S2048) (x : r.shape.Idx) :
    BitVec.toNat (tbM0_0.view.readAt (Elt F) r xt0 x : BitVec 32) ≤ 312 := h (r.idx x)

end Cert.KernelIdeal.Hand

end
-- ==== Proof.KI.Ring.lean ====
/-
  The scratch ring as the body uses it. The scratch is [2, 8, 128]; a copy lands in sublane row 0 of slot s,
  the 128 entries [s, 0, ·], and the body loads that row back. While the copy into one slot is in flight the
  body reads the other slot, so the scratch is held as three separate pieces: row [0, 0, ·], row [1, 0, ·],
  and the remaining fourteen rows, which nothing touches. The three element sets are pairwise disjoint and
  cover the scratch, so the scratch whole at anything is the three pieces at anything, and back.
-/
import proofs.«135630_j56307021251002_2_alg».proof.Proof.KI.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- Row 0 of slot 0 and of slot 1, spelt as the body's transfers spell their destination. -/
abbrev rslotA : Memref sig .tc .vmem S128 .f32 :=
  (scM0_0.slice (Rect.unit (s := S2x8x128) ![0, 0, 0] S1x1x128.size inb_S2x8x128_S1x1x128_0_0_0) (fun _ => rfl)).squeeze S128 squeezes_S1x1x128_S128
abbrev rslotB : Memref sig .tc .vmem S128 .f32 :=
  (scM0_0.slice (Rect.unit (s := S2x8x128) ![1, 0, 0] S1x1x128.size inb_S2x8x128_S1x1x128_1_0_0) (fun _ => rfl)).squeeze S128 squeezes_S1x1x128_S128

theorem inb_slot (s : Fin 2) : ∀ a, (![s.val, 0, 0] : Fin 3 → Nat) a + S1x1x128.size a ≤ S2x8x128.size a := by
  have := s.isLt; intro a; fin_cases a <;> simp <;> omega
abbrev slotSet (s : Fin 2) : Finset S2x8x128.Idx := (Rect.unit (s := S2x8x128) ![s.val, 0, 0] S1x1x128.size (inb_slot s)).set
theorem rslotA_set : rslotA.view.set = slotSet 0 := by
  simp only [Memref.view_squeeze, View.set_reshape]; exact View.set_slice_whole _ _
theorem rslotB_set : rslotB.view.set = slotSet 1 := by
  simp only [Memref.view_squeeze, View.set_reshape]; exact View.set_slice_whole _ _
theorem slots_disjoint (s s' : Fin 2) (h : s ≠ s') : Disjoint (slotSet s) (slotSet s') :=
  Ring.lead_disjoint (s := S2x8x128) (0 : Fin 3) 1 (fun s : Fin 2 => (![s.val, 0, 0] : Fin 3 → Nat)) S1x1x128.size inb_slot (fun s => by simp) rfl s s' h

/-- The three pieces' element sets. -/
def pieceSet : Fin 3 → Finset S2x8x128.Idx
  | 0 => slotSet 0
  | 1 => slotSet 1
  | 2 => Finset.univ \ (slotSet 0 ∪ slotSet 1)
theorem pieces_disjoint : ∀ s s' : Fin 3, s ≠ s' → Disjoint (pieceSet s) (pieceSet s') := by
  have h01 := slots_disjoint 0 1 (by decide)
  have hA : Disjoint (slotSet 0) (Finset.univ \ (slotSet 0 ∪ slotSet 1)) :=
    Finset.disjoint_sdiff.mono_right (Finset.sdiff_subset_sdiff (Finset.Subset.refl _) Finset.subset_union_left)
  have hB : Disjoint (slotSet 1) (Finset.univ \ (slotSet 0 ∪ slotSet 1)) :=
    Finset.disjoint_sdiff.mono_right (Finset.sdiff_subset_sdiff (Finset.Subset.refl _) Finset.subset_union_right)
  intro s s' h
  match s, s', h with
  | 0, 1, _ => exact h01
  | 1, 0, _ => exact h01.symm
  | 0, 2, _ => exact hA
  | 2, 0, _ => exact hA.symm
  | 1, 2, _ => exact hB
  | 2, 1, _ => exact hB.symm
  | 0, 0, h => exact absurd rfl h
  | 1, 1, h => exact absurd rfl h
  | 2, 2, h => exact absurd rfl h
theorem pieces_cover : Finset.univ.biUnion pieceSet = Finset.univ := by
  ext y
  simp only [Finset.mem_biUnion, Finset.mem_univ, true_and, iff_true]
  by_cases h : y ∈ slotSet 0 ∪ slotSet 1
  · rcases Finset.mem_union.mp h with h | h
    · exact ⟨0, h⟩
    · exact ⟨1, h⟩
  · exact ⟨2, Finset.mem_sdiff.mpr ⟨Finset.mem_univ _, h⟩⟩

section InOut
variable (c : Dev nD)
abbrev slotPA (f : HbBuf0 (F := F) c rslotA) : sProp 𝕄 := rslotA.view.loc (c : Thread nD τ) ↦[rslotA.view.set]{fullShare} f
abbrev slotPB (f : HbBuf0 (F := F) c rslotB) : sProp 𝕄 := rslotB.view.loc (c : Thread nD τ) ↦[rslotB.view.set]{fullShare} f
abbrev restP (f : Buf (Elt F) ((c : Thread nD τ).loc cc0_scratch0)) : sProp 𝕄 := ((c : Thread nD τ).loc cc0_scratch0) ↦[pieceSet 2]{fullShare} f
theorem slotPA_eq (f) : slotPA (F := F) c f = (((c : Thread nD τ).loc cc0_scratch0) ↦[pieceSet 0]{fullShare} f : sProp 𝕄) := by
  unfold slotPA; rw [rslotA_set]; rfl
theorem slotPB_eq (f) : slotPB (F := F) c f = (((c : Thread nD τ).loc cc0_scratch0) ↦[pieceSet 1]{fullShare} f : sProp 𝕄) := by
  unfold slotPB; rw [rslotB_set]; rfl

set_option maxHeartbeats 1000000 in
/-- The scratch whole at anything is its three pieces at something each, -/
theorem scratch_in : iprop(∃ d, owns (c : Thread nD τ) scM0_0 fullShare d) ⊢ (iprop((∃ f, slotPA (F := F) c f) ∗ (∃ f, slotPB (F := F) c f) ∗ ∃ f, restP (F := F) c f) : sProp 𝕄) := by
  simp only [scM0_0, owns_whole]
  exact Ring.slots3_split (U := Pipeline.UD sig nD τ) (ℓ := (c : Thread nD τ).loc cc0_scratch0) (q := fullShare) pieceSet pieces_disjoint pieces_cover
    (slotPA c) (slotPB c) (restP c) (slotPA_eq c) (slotPB_eq c) (fun _ => rfl)
set_option maxHeartbeats 1000000 in
/-- and back. -/
theorem scratch_out : (iprop((∃ f, slotPA (F := F) c f) ∗ (∃ f, slotPB (F := F) c f) ∗ ∃ f, restP (F := F) c f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) pieceSet pieces_disjoint pieces_cover
    (slotPA c) (slotPB c) (restP c) (slotPA_eq c) (slotPB_eq c) (fun _ => rfl)
end InOut

end Cert.KernelIdeal.Hand

end
-- ==== Proof.KI.Run.lean ====
/-
  The kernel body at one grid point, run once. Held: the output's staging buffer (at anything), the scratch
  ring as its three pieces (at anything), both DMA cells at zero, the [2048, 120006] array whole, the three
  tables' read halves, and the core's record of waits. Row by row the body starts the copy of the next row's
  128-column chunk into the other slot, waits for its own, selects the lane the second table names, and stores
  the one number (or the out-of-bounds constant when the third table's flag is set) at row k of the staging
  buffer. Every copy started in the point is waited for in the point, so the cells are back at zero and the
  array and the ring's pieces are held again at the end. Each assumed side condition follows from the chunk
  numbers' bound. The 32 stores into the staging buffer are the witness the run finds.
-/
import proofs.«135630_j56307021251002_2_alg».proof.Proof.KI.Chk
import proofs.«135630_j56307021251002_2_alg».proof.Proof.KI.Ring

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 8000000 in
noncomputable def kernelRun0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    { L : List (View.Piece (Elt F) S32x1 .f32) //
      ∀ (W : Waits sig Unit) (K : PUnit → sProp 𝕄),
        iprop((∃ d, owns (c : Thread nD τ) arg5 fullShare d) ∗ (∃ f, slotPA (F := F) c f) ∗ (∃ f, slotPB (F := F) c f) ∗ (∃ f, restP (F := F) c f)
            ∗ semVal ((c : Thread nD τ), SemLoc.dma 2) 0 ∗ semVal ((c : Thread nD τ), SemLoc.dma 3) 0 ∗ hbPt0 c hbM0_0 fh0
            ∗ tbPt0 c tbM0_0 xt0 ∗ tbPt0 c tbM0_1 xt1 ∗ tbPt0 c tbM0_2 xt2 ∗ owes (c : Thread nD τ) 0 W
            ∗ (iprop((∃ f, arg5.view.loc (c : Thread nD τ) ↦[arg5.view.set]{fullShare} arg5.view.writes (Elt F) f L)
                ∗ (∃ f, slotPA (F := F) c f) ∗ (∃ f, slotPB (F := F) c f) ∗ (∃ f, restP (F := F) c f)
                ∗ semVal ((c : Thread nD τ), SemLoc.dma 2) 0 ∗ semVal ((c : Thread nD τ), SemLoc.dma 3) 0 ∗ hbPt0 c hbM0_0 fh0
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ
              (cc0__sdf_gather_kernel i tbM0_0 (Memref.isWhole_whole _) tbM0_1 (Memref.isWhole_whole _) tbM0_2 (Memref.isWhole_whole _)
                hbM0_0 (Memref.isWhole_whole _) arg5 harg5 scM0_0 (Memref.isWhole_whole _) cc0_scratch1) K } := by
  refine ⟨?_, fun W K => ?run⟩
  case run =>
    simp only [cc0__sdf_gather_kernel_eq_skeleton]; unfold cc0__sdf_gather_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%d1, %f1, -, H1⟩, ⟨%fa, HSa⟩, ⟨%fb, HSb⟩, ⟨%fr, HSr⟩, Hq0, Hq1, Hh0, HT0, HT1, HT2, HW, Hk⟩
    sl_exec (disch := exact chk_core _ (Fin.isLt _) _ (by decide) _ (hW.word _ _))
    sl_step
    iapply Hk
    isplitl [H1]; · iexists _; iexact H1
    isplitl [HSa]; · iexists _; iexact HSa
    isplitl [HSb]; · iexists _; iexact HSb
    isplitl [HSr]; · iexists _; iexact HSr
    isplitl [Hq0]; · iexact Hq0
    isplitl [Hq1]; · iexact Hq1
    isplitl [Hh0]; · iexact Hh0
    isplitl [HT0]; · iexact HT0
    isplitl [HT1]; · iexact HT1
    isplitl [HT2]; · iexact HT2
    iexists _; iexact HW

end Cert.KernelIdeal.Hand

end
-- ==== Proof.KI.Frame.lean ====
/-
  The frame of `KernelIdeal`: the proof data of its one region, the body obligation at every grid point, the launch,
  and the run's post read at the argument array.
  After the body at point t the output's staging buffer holds the 32 stores of that point read back; the
  invariant between points is the scratch at anything, the generator register, the kernel's two DMA cells at
  zero, the argument array whole at its launch contents, and the tables' read halves. The body needs the
  chunk-number table's words to be at most 312 (`TblOk`), which the host's clip and division give for every
  input.
-/
import proofs.«135630_j56307021251002_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every chunk number the region finds in its first table is at most 312. -/
def TblOk : Prop := ∀ c : Dev nD, WordsOk (F := F) c (tbl m 0)

/-- The point's 32 stores, each of one entry, tile the [32, 1] block. -/
theorem cover0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) (y : S32x1.Idx) :
    ∃ pc ∈ (kernelRun0 c i arg5 harg5 fh0 xt0 xt1 xt2 hW).1, y ∈ pc.1.set :=
  View.cover_of_tiledL (kernelRun0 c i arg5 harg5 fh0 xt0 xt1 xt2 hW).1 S1x1.size (by sl_kernel_rfl) y

abbrev VO0 : View sig .tc .vmem S32x1 .f32 := (Memref.whole cc0_stg0_0 : Memref sig .tc .vmem S32x1 .f32).view

/-- What the run leaves in the output's staging buffer: its stores read back. -/
def out0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) : Vec F S32x1 .f32 :=
  VO0.read (Elt F) (VO0.writes (Elt F) VO0.junk (kernelRun0 c i arg5 harg5 fh0 xt0 xt1 xt2 hW).1)

/-- What the output's staging buffer holds after the body at point `t`. -/
def outsAt0 (hT : TblOk m) (c : Dev nD) (t : Fin (cfgM m).N) : Vec F S32x1 .f32 :=
  out0 c (grid0.coords t) (ms0_0 m t) (hs0_0 m t) (V m c main_arg0) (tbl m 0) (tbl m 1) (tbl m 2) (hT c)

/-- The region's proof data on core `c`. -/
def dats (hT : TblOk m) (_ : Fin 1) (c : Dev nD) : Dat τ (Elt F) Unit ℕ (Pipeline.UD sig nD τ) ℕ (cfgM m) c where
  A w := V m c (Pipeline.arrRef spec0 w)
  after w t := match w with
    | ⟨0, _⟩ => (outsAt0 m hT c t)
  Φ _ := iprop(Pipeline.ΦD osem0 spec0 H0 (V m) c ∗ Pipeline.ΦT pre0 (tbl m) c)
  q _ := fullShare
  owed _ := 0

theorem A_eq (hT : TblOk m) (c : Dev nD) (w : Fin (cfgM m).W) : (dats m hT 0 c).A w = V m c (Pipeline.arrRef spec0 w) := by
  dsimp only [dats]
theorem after0_0 (hT : TblOk m) (c : Dev nD) (t : Fin (cfgM m).N) : (dats m hT 0 c).after 0 t = (outsAt0 m hT c t) := by dsimp only [dats]; try rfl

def bodyPre (hT : TblOk m) (c : Dev nD) (t : Fin (cfgM m).N) : sProp 𝕄 :=
  iprop((dats m hT 0 c).Φ t.castSucc ∗ (dats m hT 0 c).owesAt () t.castSucc
    ∗ (∃ d, owns (c : Thread nD τ) (ms0_0 m t) fullShare ((dats m hT 0 c).before 0 t d)))
def bodyPost (hT : TblOk m) (c : Dev nD) (t : Fin (cfgM m).N) : sProp 𝕄 :=
  iprop((dats m hT 0 c).Φ t.succ ∗ (dats m hT 0 c).owesAt () t.succ
    ∗ owns (c : Thread nD τ) (ms0_0 m t) fullShare ((dats m hT 0 c).after 0 t))

set_option maxHeartbeats 2000000 in
/-- The body at any point: the invariant hands the run the scratch (split into the ring's pieces), the cells at
    zero, the array and the tables, and takes them back as they were. -/
theorem sound_body (hT : TblOk m) (c : Dev nD) (t : Fin (cfgM m).N) :
    bodyPre m hT c t ⊢ wp frame (wpE (defs₀ (F := F)) Variants.none c none) Set.univ (bodyAt0 m t) (fun _ => bodyPost m hT c t) := by
  unfold bodyPre bodyPost bodyAt0
  rw [show (dats m hT 0 c).Φ t.succ = (dats m hT 0 c).Φ t.castSucc from rfl, after0_0]
  rw [show (dats m hT 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hT 0 c).owed t.castSucc = 0 from rfl, show (dats m hT 0 c).owed t.succ = 0 from rfl]
  unfold outsAt0
  unfold out0
  iintro ⟨⟨⟨HS0, Hg, ⟨Hq0, Hq1⟩, Hh0⟩, ⟨HT0, HT1, HT2⟩⟩, ⟨%W, -, HW⟩, ⟨%d0, H0⟩⟩
  ihave HS3 := (scratch_in (F := F) c) $$ HS0
  icases HS3 with ⟨HSa, HSb, HSr⟩
  iapply ((kernelRun0 c (grid0.coords t) _ _ (V m c main_arg0) (tbl m 0) (tbl m 1) (tbl m 2) (hT c)).2 W _)
  isplitl [H0]; · iexists _; iexact H0
  isplitl [HSa]; · iexact HSa
  isplitl [HSb]; · iexact HSb
  isplitl [HSr]; · iexact HSr
  isplitl [Hq0]; · iexact Hq0
  isplitl [Hq1]; · iexact Hq1
  isplitl [Hh0]; · iexact Hh0
  isplitl [HT0]; · iexact HT0
  isplitl [HT1]; · iexact HT1
  isplitl [HT2]; · iexact HT2
  isplitl [HW]; · iexact HW
  iintro ⟨⟨%e1, H1⟩, HSa, HSb, HSr, Hq0, Hq1, Hh0, HT0, HT1, HT2, ⟨%W', HW'⟩⟩
  isplitl [HSa HSb HSr Hg Hq0 Hq1 Hh0 HT0 HT1 HT2]
  · isplitl [HSa HSb HSr Hg Hq0 Hq1 Hh0]
    · isplitl [HSa HSb HSr]
      · iapply (scratch_out (F := F) c)
        isplitl [HSa]; · iexact HSa
        isplitl [HSb]; · iexact HSb
        iexact HSr
      isplitl [Hg]
      · iexact Hg
      isplitl [Hq0 Hq1]
      · isplitl [Hq0]; · iexact Hq0
        iexact Hq1
      iexact Hh0
    isplitl [HT0]; · iexact HT0
    isplitl [HT1]; · iexact HT1
    iexact HT2
  isplitl [HW']
  · iexists W'; isplitr; · ipureintro; exact fun _ _ => Or.inl trivial
    iexact HW'
  unfold owns; iexists _; isplitr
  swap; · iexact H1
  ipureintro; exact View.read_writes_of_cover _ _ _ _ _ (cover0 c _ _ _ _ _ _ _ _)

theorem body_obligation (hT : TblOk m) (c : Dev nD) : BodyObligation (dats (F := F) m hT 0 c) (defs₀ (F := F)) Variants.none () Set.univ := fun t => by
  rw [bigSep_W0, bigSep_W0]
  exact sound_body m hT c t

set_option backward.isDefEq.respectTransparency.types false in
/-- Every weakly fair execution of @main terminates, and the final state has the output array at what the proof
    data compute and every other unscoped buffer as the region found it. -/
theorem run_main (hT : TblOk m) : θ_run defs (onTc (τ := τ) (main (F := F))) (s₀ m ρ) (Pipeline.FramePost (Pipeline.pin pcfgs fun _ => adm m) (dats m hT) 0 (V m)) :=
  Pipeline.θ_run_frameP_dma pcfgs (fun _ => adm m) (dats m hT) (0 : Fin 1) launch0 osem0 defs₀ Variants.none ownSemFacts0 H0 H0_sub m ρ main
    (hbody := fun c => (body_obligation m hT c).loose) (hshare := fun c => (dats m hT 0 c).share_full fun _ => rfl)
    (howed := fun _ _ => rfl) (V := V m) (hmain := hmain m Variants.none) (hA := A_eq m hT) (hpf := V_pre m)
    (hin := fun _ => .rfl) (hout := fun c => by
      show iprop(Pipeline.ΦD osem0 spec0 H0 (V m) c ∗ Pipeline.ΦT pre0 (tbl m) c) ⊢ _
      iintro ⟨HD, -⟩; iexact HD)

/-- The frame: the program runs to the end, faults nowhere, and the argument array ends as launched. -/
theorem frame (hT : TblOk m) : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (by decide : main_arg0 ∈ Pipeline.restRefs sig spec0)).trans (V_main_arg0 m c)) (run_main m ρ hT)

end Cert.KernelIdeal.Hand

end
-- ==== Proof.KI.Tables.lean ====
/-
  The chunk-number table, read off the host operations before the region. Whatever the six trailing columns
  hold, the flattened cell index is clipped to [0, 39999] and then floor-divided by 128; entry by entry that is
  the plain quotient of a word in [0, 39999] by 128, so every entry of the table is at most 312. This is the
  bound the kernel's side conditions need, and it holds for every input.
-/
import proofs.«135630_j56307021251002_2_alg».proof.Proof.KI.Frame
import proofs.«135630_j56307021251002_2_alg».proof.Proof.LibClipDiv
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.StableHlo

variable (m : (ℓ : Loc nD τ sig) → Buf (Elt F) ℓ)

/-- The clip to [0, 39999] of a vector of words, as the host spells it. -/
def clipVec (s : IVec S2048 32) : IVec S2048 32 :=
  minsi (broadcastInDim S2048 ![] bcast_S_S2048 (id (constantI S_ 32 39999#32))) (maxsi (broadcastInDim S2048 ![] bcast_S_S2048 (id (constantI S_ 32 0#32))) s)

/-- jnp's floor division by 128 of a vector of words, as the host spells it. -/
def floorDiv128 (z : IVec S2048 32) : IVec S2048 32 :=
  select
    (andi (cmpi .ne (signi z) (broadcastInDim S2048 ![] bcast_S_S2048 (signi (id (constantI S_ 32 128#32)))))
      (cmpi .ne (Host.remsi z (broadcastInDim S2048 ![] bcast_S_S2048 (id (constantI S_ 32 128#32)))) (broadcastInDim S2048 ![] bcast_S_S2048 (constantI S_ 32 0#32))))
    (subi (Host.divsi z (broadcastInDim S2048 ![] bcast_S_S2048 (id (constantI S_ 32 128#32)))) (broadcastInDim S2048 ![] bcast_S_S2048 (constantI S_ 32 1#32)))
    (Host.divsi z (broadcastInDim S2048 ![] bcast_S_S2048 (id (constantI S_ 32 128#32))))

/-- A scalar broadcast to the 2048 rows reads the scalar at every row. -/
theorem bc_apply {α : Type} (s : S_.Idx → α) (y : S2048.Idx) : broadcastInDim S2048 ![] bcast_S_S2048 s y = s (fun a => a.elim0) :=
  broadcastInDim_apply ![] bcast_S_S2048 s y (fun a => a.elim0) (fun a => a.elim0)

theorem clipVec_apply (s : IVec S2048 32) (y : S2048.Idx) :
    clipVec s y = IntOp.minsi 39999#32 (IntOp.maxsi 0#32 (s y)) := by
  show IntOp.minsi (broadcastInDim S2048 ![] bcast_S_S2048 (id (constantI S_ 32 39999#32)) y) (IntOp.maxsi (broadcastInDim S2048 ![] bcast_S_S2048 (id (constantI S_ 32 0#32)) y) (s y)) = _
  rw [bc_apply, bc_apply]; rfl

theorem floorDiv128_apply (z : IVec S2048 32) (y : S2048.Idx) :
    floorDiv128 z y = Cert.LibClipDiv.fdiv .host (z y) := by
  show Scalar.select
      (IntOp.andi (IntOp.cmpi .ne (signi z y) (broadcastInDim S2048 ![] bcast_S_S2048 (signi (id (constantI S_ 32 128#32))) y))
        (IntOp.cmpi .ne (IntOp.remsi .host (z y) (broadcastInDim S2048 ![] bcast_S_S2048 (id (constantI S_ 32 128#32)) y)) (broadcastInDim S2048 ![] bcast_S_S2048 (constantI S_ 32 0#32) y)))
      (IntOp.subi (IntOp.divsi .host (z y) (broadcastInDim S2048 ![] bcast_S_S2048 (id (constantI S_ 32 128#32)) y)) (broadcastInDim S2048 ![] bcast_S_S2048 (constantI S_ 32 1#32) y))
      (IntOp.divsi .host (z y) (broadcastInDim S2048 ![] bcast_S_S2048 (id (constantI S_ 32 128#32)) y)) = _
  simp only [bc_apply]; rfl

set_option maxHeartbeats 8000000 in
/-- The first table is the floor division by 128 of the clipped cell index. -/
theorem tbl0_shape : ∃ s : IVec S2048 32, (tbl (F := F) m 0 : S2048.Idx → BitVec 32) = floorDiv128 (clipVec s) := by
  refine ⟨?w, ?h⟩
  case h =>
    unfold tbl
    show V m 0 main_v26 = _
    dsimp only [V]
    simp only [hostOps0, hostOps0_1, hostOps0_2, hostOps0_3, hostOps0_4, hostOps0_5, hostOps0_6, List.flatten_cons, List.flatten_nil, List.append_nil, List.cons_append, List.nil_append]
    after_results_simp
    rfl

/-- Every chunk number is at most 312, for every input. -/
theorem tblOk : TblOk (F := F) m := by
  intro c y
  obtain rfl : c = 0 := Subsingleton.elim _ _
  obtain ⟨s, hs⟩ := tbl0_shape (F := F) m
  show BitVec.toNat ((tbl (F := F) m 0 : S2048.Idx → BitVec 32) y) ≤ 312
  rw [hs, floorDiv128_apply, clipVec_apply]
  exact Cert.LibClipDiv.fdiv_le _ _ (Cert.LibClipDiv.clip_bound _)

end Cert.KernelIdeal.Hand

end
-- ==== Proof.KI.Rows.lean ====
/-
  The 32 numbers one grid point stores, row by row. Row k of the point's [32, 1] block is the k-th store of the
  body; reading the block back at (k, 0) skips the 31 - k newer stores, which lie in other rows, and finds the
  k-th. What that store wrote is, by unfolding the body's arithmetic, one fixed expression (`rowPay`) of three
  things: the lane word the second table holds at row 32 i + k, the flag word the third table holds there, and
  the chunk the body loaded from the ring slot of k's parity after the copy of row 32 i + k's chunk (the one the
  first table names) landed there, over whatever had landed in that slot before.
-/
import proofs.«135630_j56307021251002_2_alg».proof.Proof.KI.Tables
import Idealize.ShloMosaic.Lib.ValueIdx
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

section Rows
variable (c : Dev nD) (i : grid0.Coords)

/-- Row `32 i + k` as the body's table loads spell it. -/
def rowOff (k : BitVec 32) : Fin 1 → Nat :=
  ![(Scalar.indexCast (Scalar.addi (Scalar.muli (BitVec.ofNat 32 (i 0).val) 32#32) k)).toNat]
theorem rowOff_val (k : BitVec 32) (hk : k.toNat < 32) : rowOff i k = ![(i 0).val * 32 + k.toNat] := by
  have hi : (i 0).val < 64 := (i 0).isLt
  unfold rowOff
  congr 1
  simp only [Scalar.indexCast, Scalar.muli, Scalar.addi, IntOp.muli, IntOp.addi, BitVec.toNat_mul, BitVec.toNat_add, BitVec.toNat_ofNat]
  omega
theorem rowOff_inb (k : BitVec 32) (hk : k.toNat < 32) : ∀ a, rowOff i k a + S1.size a ≤ S2048.size a := by
  have hi : (i 0).val < 64 := (i 0).isLt
  rw [rowOff_val i k hk]
  intro a; match a with | ⟨0, _⟩ => show (i 0).val * 32 + k.toNat + 1 ≤ 2048; omega

/-- The word a table holds at row `32 i + k`, as the body's load reads it. -/
def wordAt (M : Memref sig .tc .smem S2048 .i32) (xt : TbBuf0 (F := F) c M) (k : BitVec 32) (hk : k.toNat < 32) : Elt F .i32 :=
  M.view.readAt (Elt F) (Rect.unit (s := S2048) (rowOff i k) S1.size (rowOff_inb i k hk)).toLoadRect xt (Shape.Idx.first (numel1_S1.symm ▸ Nat.one_pos))

/-- Where row `32 i + k`'s chunk `w` starts in the [2048, 120006] array, as the body's slice spells it. -/
def srcOff (k w : BitVec 32) : Fin 2 → Nat :=
  ![(Scalar.addi (Scalar.muli (BitVec.ofNat 32 (i 0).val) 32#32) k).toNat, (Scalar.muli w 128#32).toNat]
theorem srcOff_inb (k : BitVec 32) (hk : k.toNat < 32) (w : BitVec 32) (hw : w.toNat ≤ 312) :
    ∀ a, srcOff i k w a + S1x128.size a ≤ S2048x120006.size a :=
  (chk_core (i 0).val (i 0).isLt k hk w hw).2

/-- The 128 columns of row `32 i + k` that chunk `w` names, as a memref of the array. -/
def srcM (k : BitVec 32) (hk : k.toNat < 32) (w : BitVec 32) (hw : w.toNat ≤ 312) : Memref sig .tc .hbm S128 .f32 :=
  (hbM0_0.slice (Rect.unit (s := S2048x120006) (srcOff i k w) S1x128.size (srcOff_inb i k hk w hw)) (fun _ => rfl)).squeeze S128 squeezes_S1x128_S128

/-- What a copy of that chunk delivers. -/
def dmaPay (fh0 : HbBuf0 (F := F) c hbM0_0) (k : BitVec 32) (hk : k.toNat < 32) (w : BitVec 32) (hw : w.toNat ≤ 312) : S128.Idx → Elt F .f32 :=
  ReadAs.same.apply ((srcM i k hk w hw).view.read (Elt F) fh0)

/-- What the body loads from slot 0 (slot 1) once a copy of `p` has landed there. -/
def chunkA (p : S128.Idx → Elt F .f32) (L : List (View.Piece (Elt F) S128 .f32)) : Vec F S1x1x128 .f32 :=
  scM0_0.view.readAt (Elt F) (Rect.unit (s := S2x8x128) ![0, 0, 0] S1x1x128.size inb_S2x8x128_S1x1x128_0_0_0).toLoadRect
    (rslotA.view.writes (Elt F) rslotA.view.junk (⟨Rect.whole S128, p⟩ :: L))
def chunkB (p : S128.Idx → Elt F .f32) (L : List (View.Piece (Elt F) S128 .f32)) : Vec F S1x1x128 .f32 :=
  scM0_0.view.readAt (Elt F) (Rect.unit (s := S2x8x128) ![1, 0, 0] S1x1x128.size inb_S2x8x128_S1x1x128_1_0_0).toLoadRect
    (rslotB.view.writes (Elt F) rslotB.view.junk (⟨Rect.whole S128, p⟩ :: L))

/-- One row's stored number from its lane word, its flag word and its loaded chunk: the lanes other than the
    named one are replaced by zero and the 128 lanes summed; a set flag replaces the sum by the constant. -/
def rowPay (idxw oobw : Elt F .i32) (chunk : Vec F S1x1x128 .f32) : FVec F S1x1 .f32 :=
  Scalar.select (Scalar.cmpi .ne oobw 0#32) (broadcast S1x1 (Scalar.ofBits .f32 0xBDCCCCCD#32))
    (shapeCast S1x1
      (multiReduction .add [1] S1
        (select (cmpi .eq (iota .tc S1x128 32 [1] iota_S1x128_d1_w32) (broadcast S1x128 idxw))
          (shapeCast S1x128 chunk shapeCasts_S1x1x128_S1x128) (broadcast S1x128 (Scalar.ofBits .f32 0x00000000#32)))
        0x00000000#32 reduces_S1x128_S1 (.inl rfl) rfl)
      shapeCasts_S1_S1x1)
end Rows

set_option maxHeartbeats 400000 in
theorem row_0 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (0 : Fin 32) (0 : Fin 1))
      = rowPay (wordAt c i tbM0_1 xt1 0#32 (by decide)) (wordAt c i tbM0_2 xt2 0#32 (by decide))
          (chunkA (dmaPay c i fh0 0#32 (by decide) (wordAt c i tbM0_0 xt0 0#32 (by decide)) (hW.word _ _)) L) (ix2 (0 : Fin 1) (0 : Fin 1)) := by
  refine ⟨?L, ?h⟩
  case h =>
    iterate 31 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_1 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (1 : Fin 32) (0 : Fin 1))
      = rowPay (wordAt c i tbM0_1 xt1 1#32 (by decide)) (wordAt c i tbM0_2 xt2 1#32 (by decide))
          (chunkB (dmaPay c i fh0 1#32 (by decide) (wordAt c i tbM0_0 xt0 1#32 (by decide)) (hW.word _ _)) L) (ix2 (0 : Fin 1) (0 : Fin 1)) := by
  refine ⟨?L, ?h⟩
  case h =>
    iterate 30 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_2 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (2 : Fin 32) (0 : Fin 1))
      = rowPay (wordAt c i tbM0_1 xt1 2#32 (by decide)) (wordAt c i tbM0_2 xt2 2#32 (by decide))
          (chunkA (dmaPay c i fh0 2#32 (by decide) (wordAt c i tbM0_0 xt0 2#32 (by decide)) (hW.word _ _)) L) (ix2 (0 : Fin 1) (0 : Fin 1)) := by
  refine ⟨?L, ?h⟩
  case h =>
    iterate 29 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_3 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (3 : Fin 32) (0 : Fin 1))
      = rowPay (wordAt c i tbM0_1 xt1 3#32 (by decide)) (wordAt c i tbM0_2 xt2 3#32 (by decide))
          (chunkB (dmaPay c i fh0 3#32 (by decide) (wordAt c i tbM0_0 xt0 3#32 (by decide)) (hW.word _ _)) L) (ix2 (0 : Fin 1) (0 : Fin 1)) := by
  refine ⟨?L, ?h⟩
  case h =>
    iterate 28 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_4 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (4 : Fin 32) (0 : Fin 1))
      = rowPay (wordAt c i tbM0_1 xt1 4#32 (by decide)) (wordAt c i tbM0_2 xt2 4#32 (by decide))
          (chunkA (dmaPay c i fh0 4#32 (by decide) (wordAt c i tbM0_0 xt0 4#32 (by decide)) (hW.word _ _)) L) (ix2 (0 : Fin 1) (0 : Fin 1)) := by
  refine ⟨?L, ?h⟩
  case h =>
    iterate 27 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_5 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (5 : Fin 32) (0 : Fin 1))
      = rowPay (wordAt c i tbM0_1 xt1 5#32 (by decide)) (wordAt c i tbM0_2 xt2 5#32 (by decide))
          (chunkB (dmaPay c i fh0 5#32 (by decide) (wordAt c i tbM0_0 xt0 5#32 (by decide)) (hW.word _ _)) L) (ix2 (0 : Fin 1) (0 : Fin 1)) := by
  refine ⟨?L, ?h⟩
  case h =>
    iterate 26 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_6 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (6 : Fin 32) (0 : Fin 1))
      = rowPay (wordAt c i tbM0_1 xt1 6#32 (by decide)) (wordAt c i tbM0_2 xt2 6#32 (by decide))
          (chunkA (dmaPay c i fh0 6#32 (by decide) (wordAt c i tbM0_0 xt0 6#32 (by decide)) (hW.word _ _)) L) (ix2 (0 : Fin 1) (0 : Fin 1)) := by
  refine ⟨?L, ?h⟩
  case h =>
    iterate 25 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_7 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (7 : Fin 32) (0 : Fin 1))
      = rowPay (wordAt c i tbM0_1 xt1 7#32 (by decide)) (wordAt c i tbM0_2 xt2 7#32 (by decide))
          (chunkB (dmaPay c i fh0 7#32 (by decide) (wordAt c i tbM0_0 xt0 7#32 (by decide)) (hW.word _ _)) L) (ix2 (0 : Fin 1) (0 : Fin 1)) := by
  refine ⟨?L, ?h⟩
  case h =>
    iterate 24 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_8 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (8 : Fin 32) (0 : Fin 1))
      = rowPay (wordAt c i tbM0_1 xt1 8#32 (by decide)) (wordAt c i tbM0_2 xt2 8#32 (by decide))
          (chunkA (dmaPay c i fh0 8#32 (by decide) (wordAt c i tbM0_0 xt0 8#32 (by decide)) (hW.word _ _)) L) (ix2 (0 : Fin 1) (0 : Fin 1)) := by
  refine ⟨?L, ?h⟩
  case h =>
    iterate 23 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_9 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (9 : Fin 32) (0 : Fin 1))
      = rowPay (wordAt c i tbM0_1 xt1 9#32 (by decide)) (wordAt c i tbM0_2 xt2 9#32 (by decide))
          (chunkB (dmaPay c i fh0 9#32 (by decide) (wordAt c i tbM0_0 xt0 9#32 (by decide)) (hW.word _ _)) L) (ix2 (0 : Fin 1) (0 : Fin 1)) := by
  refine ⟨?L, ?h⟩
  case h =>
    iterate 22 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_10 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (10 : Fin 32) (0 : Fin 1))
      = rowPay (wordAt c i tbM0_1 xt1 10#32 (by decide)) (wordAt c i tbM0_2 xt2 10#32 (by decide))
          (chunkA (dmaPay c i fh0 10#32 (by decide) (wordAt c i tbM0_0 xt0 10#32 (by decide)) (hW.word _ _)) L) (ix2 (0 : Fin 1) (0 : Fin 1)) := by
  refine ⟨?L, ?h⟩
  case h =>
    iterate 21 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_11 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (11 : Fin 32) (0 : Fin 1))
      = rowPay (wordAt c i tbM0_1 xt1 11#32 (by decide)) (wordAt c i tbM0_2 xt2 11#32 (by decide))
          (chunkB (dmaPay c i fh0 11#32 (by decide) (wordAt c i tbM0_0 xt0 11#32 (by decide)) (hW.word _ _)) L) (ix2 (0 : Fin 1) (0 : Fin 1)) := by
  refine ⟨?L, ?h⟩
  case h =>
    iterate 20 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_12 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (12 : Fin 32) (0 : Fin 1))
      = rowPay (wordAt c i tbM0_1 xt1 12#32 (by decide)) (wordAt c i tbM0_2 xt2 12#32 (by decide))
          (chunkA (dmaPay c i fh0 12#32 (by decide) (wordAt c i tbM0_0 xt0 12#32 (by decide)) (hW.word _ _)) L) (ix2 (0 : Fin 1) (0 : Fin 1)) := by
  refine ⟨?L, ?h⟩
  case h =>
    iterate 19 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_13 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (13 : Fin 32) (0 : Fin 1))
      = rowPay (wordAt c i tbM0_1 xt1 13#32 (by decide)) (wordAt c i tbM0_2 xt2 13#32 (by decide))
          (chunkB (dmaPay c i fh0 13#32 (by decide) (wordAt c i tbM0_0 xt0 13#32 (by decide)) (hW.word _ _)) L) (ix2 (0 : Fin 1) (0 : Fin 1)) := by
  refine ⟨?L, ?h⟩
  case h =>
    iterate 18 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_14 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (14 : Fin 32) (0 : Fin 1))
      = rowPay (wordAt c i tbM0_1 xt1 14#32 (by decide)) (wordAt c i tbM0_2 xt2 14#32 (by decide))
          (chunkA (dmaPay c i fh0 14#32 (by decide) (wordAt c i tbM0_0 xt0 14#32 (by decide)) (hW.word _ _)) L) (ix2 (0 : Fin 1) (0 : Fin 1)) := by
  refine ⟨?L, ?h⟩
  case h =>
    iterate 17 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_15 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (15 : Fin 32) (0 : Fin 1))
      = rowPay (wordAt c i tbM0_1 xt1 15#32 (by decide)) (wordAt c i tbM0_2 xt2 15#32 (by decide))
          (chunkB (dmaPay c i fh0 15#32 (by decide) (wordAt c i tbM0_0 xt0 15#32 (by decide)) (hW.word _ _)) L) (ix2 (0 : Fin 1) (0 : Fin 1)) := by
  refine ⟨?L, ?h⟩
  case h =>
    iterate 16 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_16 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (16 : Fin 32) (0 : Fin 1))
      = rowPay (wordAt c i tbM0_1 xt1 16#32 (by decide)) (wordAt c i tbM0_2 xt2 16#32 (by decide))
          (chunkA (dmaPay c i fh0 16#32 (by decide) (wordAt c i tbM0_0 xt0 16#32 (by decide)) (hW.word _ _)) L) (ix2 (0 : Fin 1) (0 : Fin 1)) := by
  refine ⟨?L, ?h⟩
  case h =>
    iterate 15 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_17 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (17 : Fin 32) (0 : Fin 1))
      = rowPay (wordAt c i tbM0_1 xt1 17#32 (by decide)) (wordAt c i tbM0_2 xt2 17#32 (by decide))
          (chunkB (dmaPay c i fh0 17#32 (by decide) (wordAt c i tbM0_0 xt0 17#32 (by decide)) (hW.word _ _)) L) (ix2 (0 : Fin 1) (0 : Fin 1)) := by
  refine ⟨?L, ?h⟩
  case h =>
    iterate 14 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_18 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (18 : Fin 32) (0 : Fin 1))
      = rowPay (wordAt c i tbM0_1 xt1 18#32 (by decide)) (wordAt c i tbM0_2 xt2 18#32 (by decide))
          (chunkA (dmaPay c i fh0 18#32 (by decide) (wordAt c i tbM0_0 xt0 18#32 (by decide)) (hW.word _ _)) L) (ix2 (0 : Fin 1) (0 : Fin 1)) := by
  refine ⟨?L, ?h⟩
  case h =>
    iterate 13 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_19 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (19 : Fin 32) (0 : Fin 1))
      = rowPay (wordAt c i tbM0_1 xt1 19#32 (by decide)) (wordAt c i tbM0_2 xt2 19#32 (by decide))
          (chunkB (dmaPay c i fh0 19#32 (by decide) (wordAt c i tbM0_0 xt0 19#32 (by decide)) (hW.word _ _)) L) (ix2 (0 : Fin 1) (0 : Fin 1)) := by
  refine ⟨?L, ?h⟩
  case h =>
    iterate 12 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_20 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (20 : Fin 32) (0 : Fin 1))
      = rowPay (wordAt c i tbM0_1 xt1 20#32 (by decide)) (wordAt c i tbM0_2 xt2 20#32 (by decide))
          (chunkA (dmaPay c i fh0 20#32 (by decide) (wordAt c i tbM0_0 xt0 20#32 (by decide)) (hW.word _ _)) L) (ix2 (0 : Fin 1) (0 : Fin 1)) := by
  refine ⟨?L, ?h⟩
  case h =>
    iterate 11 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_21 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (21 : Fin 32) (0 : Fin 1))
      = rowPay (wordAt c i tbM0_1 xt1 21#32 (by decide)) (wordAt c i tbM0_2 xt2 21#32 (by decide))
          (chunkB (dmaPay c i fh0 21#32 (by decide) (wordAt c i tbM0_0 xt0 21#32 (by decide)) (hW.word _ _)) L) (ix2 (0 : Fin 1) (0 : Fin 1)) := by
  refine ⟨?L, ?h⟩
  case h =>
    iterate 10 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_22 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (22 : Fin 32) (0 : Fin 1))
      = rowPay (wordAt c i tbM0_1 xt1 22#32 (by decide)) (wordAt c i tbM0_2 xt2 22#32 (by decide))
          (chunkA (dmaPay c i fh0 22#32 (by decide) (wordAt c i tbM0_0 xt0 22#32 (by decide)) (hW.word _ _)) L) (ix2 (0 : Fin 1) (0 : Fin 1)) := by
  refine ⟨?L, ?h⟩
  case h =>
    iterate 9 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_23 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (23 : Fin 32) (0 : Fin 1))
      = rowPay (wordAt c i tbM0_1 xt1 23#32 (by decide)) (wordAt c i tbM0_2 xt2 23#32 (by decide))
          (chunkB (dmaPay c i fh0 23#32 (by decide) (wordAt c i tbM0_0 xt0 23#32 (by decide)) (hW.word _ _)) L) (ix2 (0 : Fin 1) (0 : Fin 1)) := by
  refine ⟨?L, ?h⟩
  case h =>
    iterate 8 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_24 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (24 : Fin 32) (0 : Fin 1))
      = rowPay (wordAt c i tbM0_1 xt1 24#32 (by decide)) (wordAt c i tbM0_2 xt2 24#32 (by decide))
          (chunkA (dmaPay c i fh0 24#32 (by decide) (wordAt c i tbM0_0 xt0 24#32 (by decide)) (hW.word _ _)) L) (ix2 (0 : Fin 1) (0 : Fin 1)) := by
  refine ⟨?L, ?h⟩
  case h =>
    iterate 7 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_25 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (25 : Fin 32) (0 : Fin 1))
      = rowPay (wordAt c i tbM0_1 xt1 25#32 (by decide)) (wordAt c i tbM0_2 xt2 25#32 (by decide))
          (chunkB (dmaPay c i fh0 25#32 (by decide) (wordAt c i tbM0_0 xt0 25#32 (by decide)) (hW.word _ _)) L) (ix2 (0 : Fin 1) (0 : Fin 1)) := by
  refine ⟨?L, ?h⟩
  case h =>
    iterate 6 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_26 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (26 : Fin 32) (0 : Fin 1))
      = rowPay (wordAt c i tbM0_1 xt1 26#32 (by decide)) (wordAt c i tbM0_2 xt2 26#32 (by decide))
          (chunkA (dmaPay c i fh0 26#32 (by decide) (wordAt c i tbM0_0 xt0 26#32 (by decide)) (hW.word _ _)) L) (ix2 (0 : Fin 1) (0 : Fin 1)) := by
  refine ⟨?L, ?h⟩
  case h =>
    iterate 5 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_27 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (27 : Fin 32) (0 : Fin 1))
      = rowPay (wordAt c i tbM0_1 xt1 27#32 (by decide)) (wordAt c i tbM0_2 xt2 27#32 (by decide))
          (chunkB (dmaPay c i fh0 27#32 (by decide) (wordAt c i tbM0_0 xt0 27#32 (by decide)) (hW.word _ _)) L) (ix2 (0 : Fin 1) (0 : Fin 1)) := by
  refine ⟨?L, ?h⟩
  case h =>
    iterate 4 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_28 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (28 : Fin 32) (0 : Fin 1))
      = rowPay (wordAt c i tbM0_1 xt1 28#32 (by decide)) (wordAt c i tbM0_2 xt2 28#32 (by decide))
          (chunkA (dmaPay c i fh0 28#32 (by decide) (wordAt c i tbM0_0 xt0 28#32 (by decide)) (hW.word _ _)) L) (ix2 (0 : Fin 1) (0 : Fin 1)) := by
  refine ⟨?L, ?h⟩
  case h =>
    iterate 3 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_29 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (29 : Fin 32) (0 : Fin 1))
      = rowPay (wordAt c i tbM0_1 xt1 29#32 (by decide)) (wordAt c i tbM0_2 xt2 29#32 (by decide))
          (chunkB (dmaPay c i fh0 29#32 (by decide) (wordAt c i tbM0_0 xt0 29#32 (by decide)) (hW.word _ _)) L) (ix2 (0 : Fin 1) (0 : Fin 1)) := by
  refine ⟨?L, ?h⟩
  case h =>
    iterate 2 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_30 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (30 : Fin 32) (0 : Fin 1))
      = rowPay (wordAt c i tbM0_1 xt1 30#32 (by decide)) (wordAt c i tbM0_2 xt2 30#32 (by decide))
          (chunkA (dmaPay c i fh0 30#32 (by decide) (wordAt c i tbM0_0 xt0 30#32 (by decide)) (hW.word _ _)) L) (ix2 (0 : Fin 1) (0 : Fin 1)) := by
  refine ⟨?L, ?h⟩
  case h =>
    iterate 1 refine (View.read_writes_cons_unit_of_not_mem VO0 _ _ _ _ _ rfl (0 : Fin 2) (Or.inl (by decide))).trans ?_
    refine (View.read_writes_cons_unit_of_mem VO0 _ _ _ _ _ (ix2 (0 : Fin 1) (0 : Fin 1)) rfl (fun a => by match a with | ⟨0, _⟩ => rfl | ⟨1, _⟩ => rfl)).trans ?_
    rfl

set_option maxHeartbeats 400000 in
theorem row_31 (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) :
    ∃ L : List (View.Piece (Elt F) S128 .f32),
    VO0.read (Elt F) (VO0.writes (Elt F) VO0.junk (kernelRun0 c i arg5 harg5 fh0 xt0 xt1 xt2 hW).1) (ix2 (31 : Fin 32) (0 : Fin 1))
      = rowPay (wordAt c i tbM0_1 xt1 31#32 (by decide)) (wordAt c i tbM0_2 xt2 31#32 (by decide))
          (chunkB (dmaPay c i fh0 31#32 (by decide) (wordAt c i tbM0_0 xt0 31#32 (by decide)) (hW.word _ _)) L) (ix2 (0 : Fin 1) (0 : Fin 1)) := by
  refine ⟨?L, ?h⟩
  case h =>
    refine (View.read_writes_cons_unit_of_mem VO0 _ _ _ _ _ (ix2 (0 : Fin 1) (0 : Fin 1)) rfl (fun a => by match a with | ⟨0, _⟩ => rfl | ⟨1, _⟩ => rfl)).trans ?_
    rfl

end Cert.KernelIdeal.Hand
end
-- ==== Proof.KI.Value.lean ====
/-
  One grid point's block, entry by entry, at the exact values. Row k of the block of point i is: the constant
  -0.1 (as the f32 literal reads) when the third table's word at row 32 i + k is not zero; otherwise the
  argument array's entry at row 32 i + k, column 128 w0 + w1, where w0 and w1 are the first and second tables'
  words at that row. This uses that w1 < 128 (the lane is a real lane, so the one-hot select keeps exactly one
  of the 128 loaded numbers and the lane sum is that number) and that w0 ≤ 312 (the chunk lies in the array).
-/
import proofs.«135630_j56307021251002_2_alg».proof.Proof.KI.Rows
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

section Eval
variable (c : Dev nD) (i : grid0.Coords)

/-- A slot read back after a whole-slot copy landed newest holds that copy's payload. -/
theorem slot_read_newest (M : Memref sig .tc .vmem S128 .f32) (p : S128.Idx → Elt F .f32) (L : List (View.Piece (Elt F) S128 .f32)) :
    M.view.read (Elt F) (M.view.writes (Elt F) M.view.junk (⟨Rect.whole S128, p⟩ :: L)) = p := by
  funext y
  have h := View.read_writes_cons_emb M.view M.view.junk (Rect.whole S128) p L y
  rwa [Rect.emb_whole_apply] at h

theorem rm3 (l : Fin 128) : (S1x1x128.rowMajor (ix3 (0 : Fin 1) (0 : Fin 1) l)).val = (S128.rowMajor (ix1 l)).val := by
  rw [Shape.rowMajor_val_three, Shape.rowMajor_val_one]
  show ((0 : Nat) * 1 + 0) * 128 + l.val = l.val
  omega

/-- The chunk the body loads from slot 0 is, lane by lane, the newest copy's payload. -/
theorem chunkA_apply (p : S128.Idx → Elt F .f32) (L : List (View.Piece (Elt F) S128 .f32)) (l : Fin 128) :
    chunkA (F := F) p L (ix3 (0 : Fin 1) (0 : Fin 1) l) = p (ix1 l) := by
  have h1 : shapeCast S128 (chunkA (F := F) p L) (by decide) = p := slot_read_newest rslotA p L
  exact (shapeCast_apply (chunkA (F := F) p L) (by decide) (ix1 l) (ix3 0 0 l) (rm3 l)).symm.trans (congrFun h1 (ix1 l))
theorem chunkB_apply (p : S128.Idx → Elt F .f32) (L : List (View.Piece (Elt F) S128 .f32)) (l : Fin 128) :
    chunkB (F := F) p L (ix3 (0 : Fin 1) (0 : Fin 1) l) = p (ix1 l) := by
  have h1 : shapeCast S128 (chunkB (F := F) p L) (by decide) = p := slot_read_newest rslotB p L
  exact (shapeCast_apply (chunkB (F := F) p L) (by decide) (ix1 l) (ix3 0 0 l) (rm3 l)).symm.trans (congrFun h1 (ix1 l))
end Eval

section Eval2
variable (c : Dev nD) (i : grid0.Coords)

theorem srcOff_val (k : BitVec 32) (hk : k.toNat < 32) (w : BitVec 32) (hw : w.toNat ≤ 312) :
    srcOff i k w = ![(i 0).val * 32 + k.toNat, w.toNat * 128] := by
  have hi : (i 0).val < 64 := (i 0).isLt
  unfold srcOff
  have e1 : (Scalar.muli w 128#32).toNat = w.toNat * 128 := by
    simp only [Scalar.muli, IntOp.muli, BitVec.toNat_mul, BitVec.toNat_ofNat]
    omega
  have e2 : (Scalar.addi (Scalar.muli (BitVec.ofNat 32 (i 0).val) 32#32) k).toNat = (i 0).val * 32 + k.toNat := by
    simp only [Scalar.muli, Scalar.addi, IntOp.muli, IntOp.addi, BitVec.toNat_mul, BitVec.toNat_add, BitVec.toNat_ofNat]
    omega
  rw [e1, e2]

theorem rm2 (l : Fin 128) : (S1x128.rowMajor (ix2 (0 : Fin 1) l)).val = (S128.rowMajor (ix1 l)).val := by
  rw [Shape.rowMajor_val_two, Shape.rowMajor_val_one]
  show (0 : Nat) * 128 + l.val = l.val
  omega

/-- Lane `l` of the copy of row `32 i + k`'s chunk `w` is the array's entry at column `128 w + l` of that row. -/
theorem dmaPay_apply (fh0 : HbBuf0 (F := F) c hbM0_0) (k : BitVec 32) (hk : k.toNat < 32) (w : BitVec 32) (hw : w.toNat ≤ 312)
    (l : Fin 128) (J : S2048x120006.Idx) (h0 : (J 0).val = (i 0).val * 32 + k.toNat) (h1 : (J 1).val = w.toNat * 128 + l.val) :
    dmaPay c i fh0 k hk w hw (ix1 l) = fh0 J := by
  have e : dmaPay c i fh0 k hk w hw
      = shapeCast S128 (hbM0_0.view.readAt (Elt F) (Rect.unit (s := S2048x120006) (srcOff i k w) S1x128.size (srcOff_inb i k hk w hw)).toLoadRect fh0) (show S1x128.ShapeCasts S128 from by decide) := rfl
  rw [e]
  refine (shapeCast_apply _ (show S1x128.ShapeCasts S128 from by decide) (ix1 l) (ix2 (0 : Fin 1) l) (rm2 l)).trans ?_
  show fh0 ((Rect.unit (s := S2048x120006) (srcOff i k w) S1x128.size (srcOff_inb i k hk w hw)).toLoadRect.idx (ix2 (0 : Fin 1) l)) = fh0 J
  congr 1
  funext a
  apply Fin.ext
  have hv := srcOff_val i k hk w hw
  match a with
  | ⟨0, _⟩ =>
    show srcOff i k w 0 + 1 * 0 = (J 0).val
    rw [hv, h0]; show (i 0).val * 32 + k.toNat + 1 * 0 = _; omega
  | ⟨1, _⟩ =>
    show srcOff i k w 1 + 1 * l.val = (J 1).val
    rw [hv, h1]; show w.toNat * 128 + 1 * l.val = _; omega

/-- The word a whole table holds at row `32 i + k`. -/
theorem wordAt_whole (b : Ref sig .tc) (hb : b.ty = ⟨S2048, .i32⟩) : True := trivial
end Eval2

theorem wordAt_apply0 (c : Dev nD) (i : grid0.Coords) (xt : TbBuf0 (F := F) c tbM0_0) (k : BitVec 32) (hk : k.toNat < 32) (J : S2048.Idx)
    (hJ : (J 0).val = (i 0).val * 32 + k.toNat) : wordAt c i tbM0_0 xt k hk = (xt : S2048.Idx → BitVec 32) J := by
  have e : wordAt c i tbM0_0 xt k hk
      = (xt : S2048.Idx → BitVec 32) ((Rect.unit (s := S2048) (rowOff i k) S1.size (rowOff_inb i k hk)).toLoadRect.idx (Shape.Idx.first (numel1_S1.symm ▸ Nat.one_pos))) := rfl
  rw [e]
  congr 1
  funext a
  apply Fin.ext
  match a with
  | ⟨0, _⟩ =>
    show rowOff i k 0 + 1 * 0 = (J 0).val
    rw [rowOff_val i k hk, hJ]; show (i 0).val * 32 + k.toNat + 1 * 0 = _; omega

theorem wordAt_apply1 (c : Dev nD) (i : grid0.Coords) (xt : TbBuf0 (F := F) c tbM0_1) (k : BitVec 32) (hk : k.toNat < 32) (J : S2048.Idx)
    (hJ : (J 0).val = (i 0).val * 32 + k.toNat) : wordAt c i tbM0_1 xt k hk = (xt : S2048.Idx → BitVec 32) J := by
  have e : wordAt c i tbM0_1 xt k hk
      = (xt : S2048.Idx → BitVec 32) ((Rect.unit (s := S2048) (rowOff i k) S1.size (rowOff_inb i k hk)).toLoadRect.idx (Shape.Idx.first (numel1_S1.symm ▸ Nat.one_pos))) := rfl
  rw [e]
  congr 1
  funext a
  apply Fin.ext
  match a with
  | ⟨0, _⟩ =>
    show rowOff i k 0 + 1 * 0 = (J 0).val
    rw [rowOff_val i k hk, hJ]; show (i 0).val * 32 + k.toNat + 1 * 0 = _; omega

theorem wordAt_apply2 (c : Dev nD) (i : grid0.Coords) (xt : TbBuf0 (F := F) c tbM0_2) (k : BitVec 32) (hk : k.toNat < 32) (J : S2048.Idx)
    (hJ : (J 0).val = (i 0).val * 32 + k.toNat) : wordAt c i tbM0_2 xt k hk = (xt : S2048.Idx → BitVec 32) J := by
  have e : wordAt c i tbM0_2 xt k hk
      = (xt : S2048.Idx → BitVec 32) ((Rect.unit (s := S2048) (rowOff i k) S1.size (rowOff_inb i k hk)).toLoadRect.idx (Shape.Idx.first (numel1_S1.symm ▸ Nat.one_pos))) := rfl
  rw [e]
  congr 1
  funext a
  apply Fin.ext
  match a with
  | ⟨0, _⟩ =>
    show rowOff i k 0 + 1 * 0 = (J 0).val
    rw [rowOff_val i k hk, hJ]; show (i 0).val * 32 + k.toNat + 1 * 0 = _; omega

section IdealEval

theorem lift_lane (j : S1.Idx) (k : Fin 128) : reduces_S1x128_S1.lift j k = ix2 (0 : Fin 1) k := by
  have hj : j = reduces_S1x128_S1.drop (ix2 (0 : Fin 1) k) := funext fun a => by
    obtain rfl : a = (0 : Fin 1) := Subsingleton.elim _ _
    apply Fin.ext
    have h1 : (j (0 : Fin 1)).val < 1 := (j (0 : Fin 1)).isLt
    have h2 : ((reduces_S1x128_S1.drop (ix2 (0 : Fin 1) k)) (0 : Fin 1)).val < 1 := ((reduces_S1x128_S1.drop (ix2 (0 : Fin 1) k)) (0 : Fin 1)).isLt
    omega
  rw [hj]
  exact reduces_S1x128_S1.lift_drop (ix2 (0 : Fin 1) k)

/-- With every lane but the named one replaced by zero, the sum of the 128 lanes is the named lane. -/
theorem lane_sum (idxw : BitVec 32) (hidx : idxw.toNat < 128) (X : FVec Ideal S1x128 .f32) (j : S1.Idx) :
    multiReduction (F := Ideal) .add [1] S1
        (select (cmpi .eq (iota .tc S1x128 32 [1] iota_S1x128_d1_w32) (broadcast S1x128 idxw)) X
          (broadcast S1x128 (Scalar.ofBits (F := Ideal) .f32 0x00000000#32)))
        0x00000000#32 reduces_S1x128_S1 (.inl rfl) rfl j
      = X (ix2 (0 : Fin 1) ⟨idxw.toNat, hidx⟩) := by
  refine (Ideal.multiReduction_add_single _ 0x00000000#32 reduces_S1x128_S1 (.inl rfl) rfl j).trans ?_
  have hterm : ∀ k : Fin 128,
      (select (cmpi .eq (iota .tc S1x128 32 [1] iota_S1x128_d1_w32) (broadcast S1x128 idxw)) X
          (broadcast S1x128 (Scalar.ofBits (F := Ideal) .f32 0x00000000#32))) (reduces_S1x128_S1.lift j k)
        = if k.val = idxw.toNat then X (ix2 (0 : Fin 1) k) else 0 := by
    intro k
    rw [lift_lane]
    show Scalar.select (IntOp.cmpi .eq (iota .tc S1x128 32 [1] iota_S1x128_d1_w32 (ix2 (0 : Fin 1) k)) idxw) (X (ix2 (0 : Fin 1) k))
        (Scalar.ofBits (F := Ideal) .f32 0x00000000#32) = _
    rw [iota_single_apply]
    show Scalar.select (IntOp.cmpi .eq (BitVec.ofNat 32 k.val) idxw) (X (ix2 (0 : Fin 1) k)) (Ideal.ofBits .f32 0x00000000#32) = _
    rw [Ideal.ofBits_zero_f32]
    have hk := k.isLt
    by_cases h : k.val = idxw.toNat
    · have e : BitVec.ofNat 32 k.val = idxw := by
        apply BitVec.eq_of_toNat_eq; rw [BitVec.toNat_ofNat]; omega
      rw [if_pos h, e]
      simp [Scalar.select, IntOp.cmpi]
    · have e : BitVec.ofNat 32 k.val ≠ idxw := by
        intro he; apply h; have := congrArg BitVec.toNat he; rw [BitVec.toNat_ofNat] at this; omega
      have e' : (BitVec.ofNat 32 k.val == idxw) = false := beq_eq_false_iff_ne.mpr e
      rw [if_neg h]
      simp [Scalar.select, IntOp.cmpi, e']
  show (∑ k : Fin 128, (select (cmpi .eq (iota .tc S1x128 32 [1] iota_S1x128_d1_w32) (broadcast S1x128 idxw)) X
          (broadcast S1x128 (Scalar.ofBits (F := Ideal) .f32 0x00000000#32))) (reduces_S1x128_S1.lift j k)) = _
  rw [Finset.sum_congr rfl (fun k _ => hterm k)]
  rw [Finset.sum_eq_single_of_mem (⟨idxw.toNat, hidx⟩ : Fin 128) (Finset.mem_univ _)
    (fun b _ hb => if_neg (fun h => hb (Fin.ext h)))]
  exact if_pos rfl

theorem rm1 : (S1.rowMajor (ix1 (0 : Fin 1))).val = (S1x1.rowMajor (ix2 (0 : Fin 1) (0 : Fin 1))).val := by
  rw [Shape.rowMajor_val_one, Shape.rowMajor_val_two]; rfl
theorem rm3' (l : Fin 128) : (S1x1x128.rowMajor (ix3 (0 : Fin 1) (0 : Fin 1) l)).val = (S1x128.rowMajor (ix2 (0 : Fin 1) l)).val := by
  rw [Shape.rowMajor_val_three, Shape.rowMajor_val_two]
  show ((0 : Nat) * 1 + 0) * 128 + l.val = 0 * 128 + l.val
  omega

/-- One row's stored number at the exact values: the loaded chunk's lane the lane word names, or the constant when
    the flag word is not zero. -/
theorem rowPay_apply (idxw oobw : BitVec 32) (hidx : idxw.toNat < 128) (chunk : Vec Ideal S1x1x128 .f32) :
    rowPay (F := Ideal) idxw oobw chunk (ix2 (0 : Fin 1) (0 : Fin 1))
      = if oobw = 0#32 then chunk (ix3 (0 : Fin 1) (0 : Fin 1) ⟨idxw.toNat, hidx⟩) else Ideal.ofBits .f32 0xBDCCCCCD#32 := by
  unfold rowPay
  by_cases ho : oobw = 0#32
  · rw [if_pos ho]
    have hc : Scalar.cmpi .ne oobw 0#32 = 0#1 := by subst ho; decide
    rw [hc]
    simp only [Scalar.select, if_neg (by decide : ¬ ((0#1 : BitVec 1) = 1))]
    refine (shapeCast_apply _ shapeCasts_S1_S1x1 (ix2 (0 : Fin 1) (0 : Fin 1)) (ix1 (0 : Fin 1)) rm1).trans ?_
    refine (lane_sum idxw hidx _ (ix1 (0 : Fin 1))).trans ?_
    exact shapeCast_apply chunk shapeCasts_S1x1x128_S1x128 (ix2 (0 : Fin 1) ⟨idxw.toNat, hidx⟩) (ix3 (0 : Fin 1) (0 : Fin 1) ⟨idxw.toNat, hidx⟩) (rm3' _)
  · rw [if_neg ho]
    have hc : Scalar.cmpi .ne oobw 0#32 = 1#1 := by
      have hb : (oobw != 0#32) = true := bne_iff_ne.mpr ho
      simp [Scalar.cmpi, IntOp.cmpi, hb]
    rw [hc]
    simp only [Scalar.select, if_pos]
    rfl
end IdealEval

theorem kNat (K : Fin 32) : (BitVec.ofNat 32 K.val).toNat = K.val := by
  have := K.isLt
  rw [BitVec.toNat_ofNat]; omega
theorem kLt (K : Fin 32) : (BitVec.ofNat 32 K.val).toNat < 32 := by rw [kNat]; exact K.isLt

/-- Every row of the point at once: what is read back at (K, 0) is `rowPay` of row 32 i + K's lane word, flag word
    and a chunk that is, lane by lane, the copy of that row's chunk. -/
theorem row_all (c : Dev nD) (i : grid0.Coords) (arg5 : Memref sig .tc .vmem S32x1 .f32) (harg5 : arg5.IsWhole)
    (fh0 : HbBuf0 (F := F) c hbM0_0) (xt0 : TbBuf0 (F := F) c tbM0_0) (xt1 : TbBuf0 (F := F) c tbM0_1) (xt2 : TbBuf0 (F := F) c tbM0_2)
    (hW : WordsOk c xt0) (K : Fin 32) :
    ∃ ch : Vec F S1x1x128 .f32,
      (∀ l : Fin 128, ch (ix3 (0 : Fin 1) (0 : Fin 1) l)
          = dmaPay c i fh0 (BitVec.ofNat 32 K.val) (kLt K) (wordAt c i tbM0_0 xt0 (BitVec.ofNat 32 K.val) (kLt K)) (hW.word _ _) (ix1 l)) ∧
      VO0.read (Elt F) (VO0.writes (Elt F) VO0.junk (kernelRun0 c i arg5 harg5 fh0 xt0 xt1 xt2 hW).1) (ix2 K (0 : Fin 1))
        = rowPay (wordAt c i tbM0_1 xt1 (BitVec.ofNat 32 K.val) (kLt K)) (wordAt c i tbM0_2 xt2 (BitVec.ofNat 32 K.val) (kLt K)) ch
            (ix2 (0 : Fin 1) (0 : Fin 1)) := by
  match K with
  | ⟨0, _⟩ => obtain ⟨L, h⟩ := row_0 c i arg5 harg5 fh0 xt0 xt1 xt2 hW; exact ⟨_, fun l => chunkA_apply _ L l, h⟩
  | ⟨1, _⟩ => obtain ⟨L, h⟩ := row_1 c i arg5 harg5 fh0 xt0 xt1 xt2 hW; exact ⟨_, fun l => chunkB_apply _ L l, h⟩
  | ⟨2, _⟩ => obtain ⟨L, h⟩ := row_2 c i arg5 harg5 fh0 xt0 xt1 xt2 hW; exact ⟨_, fun l => chunkA_apply _ L l, h⟩
  | ⟨3, _⟩ => obtain ⟨L, h⟩ := row_3 c i arg5 harg5 fh0 xt0 xt1 xt2 hW; exact ⟨_, fun l => chunkB_apply _ L l, h⟩
  | ⟨4, _⟩ => obtain ⟨L, h⟩ := row_4 c i arg5 harg5 fh0 xt0 xt1 xt2 hW; exact ⟨_, fun l => chunkA_apply _ L l, h⟩
  | ⟨5, _⟩ => obtain ⟨L, h⟩ := row_5 c i arg5 harg5 fh0 xt0 xt1 xt2 hW; exact ⟨_, fun l => chunkB_apply _ L l, h⟩
  | ⟨6, _⟩ => obtain ⟨L, h⟩ := row_6 c i arg5 harg5 fh0 xt0 xt1 xt2 hW; exact ⟨_, fun l => chunkA_apply _ L l, h⟩
  | ⟨7, _⟩ => obtain ⟨L, h⟩ := row_7 c i arg5 harg5 fh0 xt0 xt1 xt2 hW; exact ⟨_, fun l => chunkB_apply _ L l, h⟩
  | ⟨8, _⟩ => obtain ⟨L, h⟩ := row_8 c i arg5 harg5 fh0 xt0 xt1 xt2 hW; exact ⟨_, fun l => chunkA_apply _ L l, h⟩
  | ⟨9, _⟩ => obtain ⟨L, h⟩ := row_9 c i arg5 harg5 fh0 xt0 xt1 xt2 hW; exact ⟨_, fun l => chunkB_apply _ L l, h⟩
  | ⟨10, _⟩ => obtain ⟨L, h⟩ := row_10 c i arg5 harg5 fh0 xt0 xt1 xt2 hW; exact ⟨_, fun l => chunkA_apply _ L l, h⟩
  | ⟨11, _⟩ => obtain ⟨L, h⟩ := row_11 c i arg5 harg5 fh0 xt0 xt1 xt2 hW; exact ⟨_, fun l => chunkB_apply _ L l, h⟩
  | ⟨12, _⟩ => obtain ⟨L, h⟩ := row_12 c i arg5 harg5 fh0 xt0 xt1 xt2 hW; exact ⟨_, fun l => chunkA_apply _ L l, h⟩
  | ⟨13, _⟩ => obtain ⟨L, h⟩ := row_13 c i arg5 harg5 fh0 xt0 xt1 xt2 hW; exact ⟨_, fun l => chunkB_apply _ L l, h⟩
  | ⟨14, _⟩ => obtain ⟨L, h⟩ := row_14 c i arg5 harg5 fh0 xt0 xt1 xt2 hW; exact ⟨_, fun l => chunkA_apply _ L l, h⟩
  | ⟨15, _⟩ => obtain ⟨L, h⟩ := row_15 c i arg5 harg5 fh0 xt0 xt1 xt2 hW; exact ⟨_, fun l => chunkB_apply _ L l, h⟩
  | ⟨16, _⟩ => obtain ⟨L, h⟩ := row_16 c i arg5 harg5 fh0 xt0 xt1 xt2 hW; exact ⟨_, fun l => chunkA_apply _ L l, h⟩
  | ⟨17, _⟩ => obtain ⟨L, h⟩ := row_17 c i arg5 harg5 fh0 xt0 xt1 xt2 hW; exact ⟨_, fun l => chunkB_apply _ L l, h⟩
  | ⟨18, _⟩ => obtain ⟨L, h⟩ := row_18 c i arg5 harg5 fh0 xt0 xt1 xt2 hW; exact ⟨_, fun l => chunkA_apply _ L l, h⟩
  | ⟨19, _⟩ => obtain ⟨L, h⟩ := row_19 c i arg5 harg5 fh0 xt0 xt1 xt2 hW; exact ⟨_, fun l => chunkB_apply _ L l, h⟩
  | ⟨20, _⟩ => obtain ⟨L, h⟩ := row_20 c i arg5 harg5 fh0 xt0 xt1 xt2 hW; exact ⟨_, fun l => chunkA_apply _ L l, h⟩
  | ⟨21, _⟩ => obtain ⟨L, h⟩ := row_21 c i arg5 harg5 fh0 xt0 xt1 xt2 hW; exact ⟨_, fun l => chunkB_apply _ L l, h⟩
  | ⟨22, _⟩ => obtain ⟨L, h⟩ := row_22 c i arg5 harg5 fh0 xt0 xt1 xt2 hW; exact ⟨_, fun l => chunkA_apply _ L l, h⟩
  | ⟨23, _⟩ => obtain ⟨L, h⟩ := row_23 c i arg5 harg5 fh0 xt0 xt1 xt2 hW; exact ⟨_, fun l => chunkB_apply _ L l, h⟩
  | ⟨24, _⟩ => obtain ⟨L, h⟩ := row_24 c i arg5 harg5 fh0 xt0 xt1 xt2 hW; exact ⟨_, fun l => chunkA_apply _ L l, h⟩
  | ⟨25, _⟩ => obtain ⟨L, h⟩ := row_25 c i arg5 harg5 fh0 xt0 xt1 xt2 hW; exact ⟨_, fun l => chunkB_apply _ L l, h⟩
  | ⟨26, _⟩ => obtain ⟨L, h⟩ := row_26 c i arg5 harg5 fh0 xt0 xt1 xt2 hW; exact ⟨_, fun l => chunkA_apply _ L l, h⟩
  | ⟨27, _⟩ => obtain ⟨L, h⟩ := row_27 c i arg5 harg5 fh0 xt0 xt1 xt2 hW; exact ⟨_, fun l => chunkB_apply _ L l, h⟩
  | ⟨28, _⟩ => obtain ⟨L, h⟩ := row_28 c i arg5 harg5 fh0 xt0 xt1 xt2 hW; exact ⟨_, fun l => chunkA_apply _ L l, h⟩
  | ⟨29, _⟩ => obtain ⟨L, h⟩ := row_29 c i arg5 harg5 fh0 xt0 xt1 xt2 hW; exact ⟨_, fun l => chunkB_apply _ L l, h⟩
  | ⟨30, _⟩ => obtain ⟨L, h⟩ := row_30 c i arg5 harg5 fh0 xt0 xt1 xt2 hW; exact ⟨_, fun l => chunkA_apply _ L l, h⟩
  | ⟨31, _⟩ => obtain ⟨L, h⟩ := row_31 c i arg5 harg5 fh0 xt0 xt1 xt2 hW; exact ⟨_, fun l => chunkB_apply _ L l, h⟩
  | ⟨n + 32, h⟩ => exact absurd h (by omega)

/-- Row K of the point's block at the exact values. -/
theorem outs_row (c : Dev nD) (i : grid0.Coords) (arg5 : Memref sig .tc .vmem S32x1 .f32) (harg5 : arg5.IsWhole)
    (fh0 : HbBuf0 (F := Ideal) c hbM0_0) (xt0 : TbBuf0 (F := Ideal) c tbM0_0) (xt1 : TbBuf0 (F := Ideal) c tbM0_1) (xt2 : TbBuf0 (F := Ideal) c tbM0_2)
    (hW : WordsOk c xt0) (hL : ∀ y : S2048.Idx, BitVec.toNat ((xt1 : S2048.Idx → BitVec 32) y) < 128)
    (K : Fin 32) (J0 : S2048.Idx) (hJ0 : (J0 0).val = (i 0).val * 32 + K.val)
    (J : S2048x120006.Idx) (hJr : (J 0).val = (i 0).val * 32 + K.val)
    (hJc : (J 1).val = BitVec.toNat ((xt0 : S2048.Idx → BitVec 32) J0) * 128 + BitVec.toNat ((xt1 : S2048.Idx → BitVec 32) J0)) :
    out0 c i arg5 harg5 fh0 xt0 xt1 xt2 hW (ix2 K (0 : Fin 1))
      = if (xt2 : S2048.Idx → BitVec 32) J0 = 0#32 then (fh0 : S2048x120006.Idx → EReal) J else Ideal.ofBits .f32 0xBDCCCCCD#32 := by
  obtain ⟨ch, hch, hrow⟩ := row_all c i arg5 harg5 fh0 xt0 xt1 xt2 hW K
  have hJ0' : (J0 0).val = (i 0).val * 32 + (BitVec.ofNat 32 K.val).toNat := by rw [kNat]; exact hJ0
  have e0 := wordAt_apply0 c i xt0 (BitVec.ofNat 32 K.val) (kLt K) J0 hJ0'
  have e1 := wordAt_apply1 c i xt1 (BitVec.ofNat 32 K.val) (kLt K) J0 hJ0'
  have e2 := wordAt_apply2 c i xt2 (BitVec.ofNat 32 K.val) (kLt K) J0 hJ0'
  have hidx : BitVec.toNat (wordAt c i tbM0_1 xt1 (BitVec.ofNat 32 K.val) (kLt K) : BitVec 32) < 128 := by rw [e1]; exact hL J0
  unfold out0
  rw [hrow, rowPay_apply _ _ hidx ch, e2]
  refine if_congr Iff.rfl ?_ rfl
  rw [hch ⟨_, hidx⟩]
  refine dmaPay_apply c i fh0 _ (kLt K) _ _ ⟨_, hidx⟩ J (by rw [kNat]; exact hJr) ?_
  show (J 1).val = BitVec.toNat (wordAt c i tbM0_0 xt0 (BitVec.ofNat 32 K.val) (kLt K) : BitVec 32) * 128
      + BitVec.toNat (wordAt c i tbM0_1 xt1 (BitVec.ofNat 32 K.val) (kLt K) : BitVec 32)
  rw [e0, e1]; exact hJc

end Cert.KernelIdeal.Hand
end
-- ==== Proof.KI.Tables3.lean ====
/-
  All three tables in terms of one truncated coordinate pair per row. From the row's six trailing columns the
  host computes ip = trunc(point / resolution + origin) (two words per row), the flat index row * 200 + column,
  its clip to [0, 39999], and the flag "a coordinate outside [0, 200)". The first table is the clipped index
  floor-divided by 128, the second its remainder mod 128, the third the flag widened to a word.
-/
import proofs.«135630_j56307021251002_2_alg».proof.Proof.KI.Tables

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.StableHlo

variable (m : (ℓ : Loc nD τ sig) → Buf (Elt F) ℓ)

/-- The truncated coordinates, as the kernel's host side slices them out of the six trailing columns. -/
def ipK (X : (⟨S2048x120006, .f32⟩ : BufTy).Contents (Elt F)) : (⟨S2048x2, .i32⟩ : BufTy).Contents (Elt F) :=
  fptosi 32
    (addf
      (Host.divf
        (extractStridedSlice S2048x2 ![0, 4] (extractStridedSlice S2048x6 ![0, 120000] X slices_S2048x120006_S2048x6_0_120000) slices_S2048x6_S2048x2_0_4)
        (extractStridedSlice S2048x2 ![0, 0] (extractStridedSlice S2048x6 ![0, 120000] X slices_S2048x120006_S2048x6_0_120000) slices_S2048x6_S2048x2_0_0))
      (extractStridedSlice S2048x2 ![0, 2] (extractStridedSlice S2048x6 ![0, 120000] X slices_S2048x120006_S2048x6_0_120000) slices_S2048x6_S2048x2_0_2))

def rowC (ip : (⟨S2048x2, .i32⟩ : BufTy).Contents (Elt F)) : IVec S2048 32 :=
  shapeCast S2048 (extractStridedSlice S2048x1 ![0, 0] ip slices_S2048x2_S2048x1_0_0) shapeCasts_S2048x1_S2048
def colC (ip : (⟨S2048x2, .i32⟩ : BufTy).Contents (Elt F)) : IVec S2048 32 :=
  shapeCast S2048 (extractStridedSlice S2048x1 ![0, 1] ip slices_S2048x2_S2048x1_0_1) shapeCasts_S2048x1_S2048
/-- row * 200 + column. -/
def flatOf (ip : (⟨S2048x2, .i32⟩ : BufTy).Contents (Elt F)) : IVec S2048 32 :=
  addi (muli (rowC ip) (broadcastInDim S2048 ![] bcast_S_S2048 (constantI S_ 32 200#32))) (colC ip)
/-- a coordinate below 0 or at least 200. -/
def oobOf (ip : (⟨S2048x2, .i32⟩ : BufTy).Contents (Elt F)) : IVec S2048 1 :=
  ori (ori (ori (cmpi .slt (rowC ip) (broadcastInDim S2048 ![] bcast_S_S2048 (constantI S_ 32 0#32))) (cmpi .sge (rowC ip) (broadcastInDim S2048 ![] bcast_S_S2048 (constantI S_ 32 200#32))))
        (cmpi .slt (colC ip) (broadcastInDim S2048 ![] bcast_S_S2048 (constantI S_ 32 0#32))))
    (cmpi .sge (colC ip) (broadcastInDim S2048 ![] bcast_S_S2048 (constantI S_ 32 200#32)))

/-- jnp's remainder's divisor, guarded against zero: 128. -/
def mod2 : IVec S_ 32 :=
  select (cmpi .eq (id (constantI S_ 32 128#32)) (constantI S_ 32 0#32)) (constantI S_ 32 1#32) (id (constantI S_ 32 128#32))
/-- jnp's remainder by 128 of a vector of words, as the host spells it. -/
def rem128 (z : IVec S2048 32) : IVec S2048 32 :=
  select
    (andi
      (cmpi .ne (cmpi .slt (Host.remsi z (broadcastInDim S2048 ![] bcast_S_S2048 mod2)) (broadcastInDim S2048 ![] bcast_S_S2048 (constantI S_ 32 0#32))) (broadcastInDim S2048 ![] bcast_S_S2048 (cmpi .slt mod2 (constantI S_ 32 0#32))))
      (cmpi .ne (Host.remsi z (broadcastInDim S2048 ![] bcast_S_S2048 mod2)) (broadcastInDim S2048 ![] bcast_S_S2048 (constantI S_ 32 0#32))))
    (addi (Host.remsi z (broadcastInDim S2048 ![] bcast_S_S2048 mod2)) (broadcastInDim S2048 ![] bcast_S_S2048 mod2))
    (Host.remsi z (broadcastInDim S2048 ![] bcast_S_S2048 mod2))

set_option maxHeartbeats 8000000 in
theorem tbl0_eq : (tbl (F := F) m 0 : S2048.Idx → BitVec 32) = floorDiv128 (clipVec (flatOf (ipK (m (0, Proc.tc.devRef main_arg0))))) := by
  unfold tbl
  show V m 0 main_v26 = _
  dsimp only [V]
  simp only [hostOps0, hostOps0_1, hostOps0_2, hostOps0_3, hostOps0_4, hostOps0_5, hostOps0_6, List.flatten_cons, List.flatten_nil, List.append_nil, List.cons_append, List.nil_append]
  after_results_simp
  rfl
set_option maxHeartbeats 8000000 in
theorem tbl1_eq : (tbl (F := F) m 1 : S2048.Idx → BitVec 32) = rem128 (clipVec (flatOf (ipK (m (0, Proc.tc.devRef main_arg0))))) := by
  unfold tbl
  show V m 0 main_v27 = _
  dsimp only [V]
  simp only [hostOps0, hostOps0_1, hostOps0_2, hostOps0_3, hostOps0_4, hostOps0_5, hostOps0_6, List.flatten_cons, List.flatten_nil, List.append_nil, List.cons_append, List.nil_append]
  after_results_simp
  rfl
set_option maxHeartbeats 8000000 in
theorem tbl2_eq : (tbl (F := F) m 2 : S2048.Idx → BitVec 32) = extui 32 (oobOf (ipK (m (0, Proc.tc.devRef main_arg0)))) natLt_1_32 := by
  unfold tbl
  show V m 0 main_v28 = _
  dsimp only [V]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Hand

end
-- ==== Proof.KI.Final.lean ====
/-
  The kernel's result array at the exact values, as one function of the argument array and the three tables.
  Grid point t writes back rows 32 t .. 32 t + 31 of the [2048, 1] result; the 64 blocks tile it. Entry (b, 0)
  is the constant when the flag table's word at b is not zero, and otherwise the argument array's entry at row b,
  column 128 w0 + w1 (the first and second tables' words at b).
-/
import proofs.«135630_j56307021251002_2_alg».proof.Proof.KI.Value
import proofs.«135630_j56307021251002_2_alg».proof.Proof.KI.Tables3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx

variable (m : (ℓ : Loc nD τ sig) → Buf (Elt Ideal) ℓ) (ρ : Dev nD → PrngReg)

/-- Every lane word is a lane. -/
def LanesOk : Prop := ∀ y : S2048.Idx, BitVec.toNat ((tbl (F := Ideal) m 1 : S2048.Idx → BitVec 32) y) < 128

/-- Column 128 w0 + w1 (reduced into range so that the function is total; the words of the tables never need it). -/
def kcol (w0 w1 : BitVec 32) : Fin 120006 := ⟨(w0.toNat * 128 + w1.toNat) % 120006, Nat.mod_lt _ (by decide)⟩

/-- The result array in terms of the argument array and the tables. -/
def kval (X : S2048x120006.Idx → EReal) (T0 T1 T2 : S2048.Idx → BitVec 32) : S2048x1.Idx → EReal := fun j =>
  if T2 (ix1 (j 0)) = 0#32 then X (ix2 (j 0) (kcol (T0 (ix1 (j 0))) (T1 (ix1 (j 0))))) else Ideal.ofBits .f32 0xBDCCCCCD#32

theorem coords_val : ∀ t : Fin grid0.N, ((grid0.coords t) 0).val = t.val := by decide +kernel

theorem cfgN : (cfgM m).N = 64 := N_0
theorem cfgGN : (cfgM m).grid.N = 64 := N_0

/-- Point t's block index: rows from 32 t, the one column. -/
theorem index0 (t : Fin (cfgM m).N) : ((cfgM m).win 0).index t = ![t.val, 0] := by
  show cc0_transform_1 (grid0.coords t) = _
  unfold cc0_transform_1
  have h := coords_val t
  have ht : t.val < 64 := lt_of_lt_of_eq t.isLt (cfgN m)
  funext a
  match a with
  | ⟨0, _⟩ =>
    show (BitVec.ofNat 32 ((grid0.coords t) 0).val).toNat = t.val
    rw [h, BitVec.toNat_ofNat]; omega
  | ⟨1, _⟩ => rfl

theorem flush0 (t : Fin (cfgM m).N) : ((cfgM m).win 0).flush t = true := by
  unfold Pipeline.Window.flush
  have ht : t.val < 64 := lt_of_lt_of_eq t.isLt (cfgN m)
  have hG := cfgGN m
  by_cases hl : t.val + 1 = (cfgM m).grid.N
  · simp [hl]; rfl
  · have hlt : t.val + 1 < (cfgM m).grid.N := by omega
    have hne : ((cfgM m).win 0).index ⟨t.val + 1, hlt⟩ ≠ ((cfgM m).win 0).index t := by
      rw [index0, index0]
      intro he
      have := congrFun he 0
      simp at this
    simp only [Bool.and_eq_true, Bool.or_eq_true, decide_eq_true_eq]
    exact ⟨rfl, Or.inr ⟨hlt, hne⟩⟩

/-- Where entry y of point t's block sits in the [2048, 1] result. -/
def blockIdx (t : Fin (cfgM m).N) (y : S32x1.Idx) : S2048x1.Idx :=
  ix2 (⟨t.val * 32 + (y 0).val, by
    have ht : t.val < 64 := lt_of_lt_of_eq t.isLt (cfgN m)
    have hy : (y 0).val < 32 := (y 0).isLt
    omega⟩ : Fin 2048) (⟨0, Nat.one_pos⟩ : Fin 1)

set_option maxHeartbeats 1000000 in
theorem emb_eq (t : Fin (cfgM m).N) (y : S32x1.Idx) : (((cfgM m).win 0).blk t).view.emb y = blockIdx m t y := by
  have hidx := index0 m t
  funext a
  apply Fin.ext
  match a with
  | ⟨0, _⟩ =>
    show ((cfgM m).win 0).index t (⟨0, by decide⟩ : Fin 2) * 32 + 1 * (y 0).val = t.val * 32 + (y 0).val
    rw [hidx]; show t.val * 32 + 1 * (y 0).val = _; omega
  | ⟨1, _⟩ =>
    have hy : (y 1).val < 1 := (y 1).isLt
    show ((cfgM m).win 0).index t (⟨1, by decide⟩ : Fin 2) * 1 + 1 * (y 1).val = 0
    rw [hidx]; show 0 * 1 + 1 * (y 1).val = 0; omega

set_option maxHeartbeats 1000000 in
/-- Entry y of what point t leaves in the staging buffer is `kval` at that entry's place in the result. -/
theorem flushed_pt (hT : TblOk m) (hL : LanesOk m) (c : Dev nD) (t : Fin (cfgM m).N) (y : S32x1.Idx) :
    outsAt0 m hT c t y = kval (V m c main_arg0) (tbl m 0) (tbl m 1) (tbl m 2) (blockIdx m t y) := by
  obtain ⟨K, q, rfl⟩ : ∃ (K : Fin 32) (q : Fin 1), y = ix2 K q := ⟨y 0, y 1, eq_ix2 y⟩
  obtain rfl : q = 0 := Subsingleton.elim _ _
  unfold outsAt0
  have hcv := coords_val t
  have hE0 : ((blockIdx m t (ix2 K (0 : Fin 1))) (0 : Fin 2)).val = ((grid0.coords t) 0).val * 32 + K.val := by
    rw [hcv]; rfl
  have h0 : BitVec.toNat ((tbl (F := Ideal) m 0 : S2048.Idx → BitVec 32) (ix1 ((blockIdx m t (ix2 K (0 : Fin 1))) (0 : Fin 2)))) ≤ 312 :=
    hT c (ix1 ((blockIdx m t (ix2 K (0 : Fin 1))) (0 : Fin 2)))
  have h1 := hL (ix1 ((blockIdx m t (ix2 K (0 : Fin 1))) (0 : Fin 2)))
  exact outs_row c (grid0.coords t) _ _ (V m c main_arg0) (tbl m 0) (tbl m 1) (tbl m 2) (hT c) hL K
    (ix1 ((blockIdx m t (ix2 K (0 : Fin 1))) (0 : Fin 2))) hE0
    (ix2 ((blockIdx m t (ix2 K (0 : Fin 1))) (0 : Fin 2))
      (kcol ((tbl (F := Ideal) m 0 : S2048.Idx → BitVec 32) (ix1 ((blockIdx m t (ix2 K (0 : Fin 1))) (0 : Fin 2))))
        ((tbl (F := Ideal) m 1 : S2048.Idx → BitVec 32) (ix1 ((blockIdx m t (ix2 K (0 : Fin 1))) (0 : Fin 2))))))
    hE0
    (by
      show (BitVec.toNat ((tbl (F := Ideal) m 0 : S2048.Idx → BitVec 32) (ix1 ((blockIdx m t (ix2 K (0 : Fin 1))) (0 : Fin 2)))) * 128
          + BitVec.toNat ((tbl (F := Ideal) m 1 : S2048.Idx → BitVec 32) (ix1 ((blockIdx m t (ix2 K (0 : Fin 1))) (0 : Fin 2))))) % 120006 = _
      exact Nat.mod_eq_of_lt (by omega))

set_option maxHeartbeats 1000000 in
/-- What point t writes back is block t of `kval`. -/
theorem flushed_eq (hT : TblOk m) (hL : LanesOk m) (c : Dev nD) (t : Fin (cfgM m).N) :
    (dats m hT 0 c).flushed 0 t
      = (((cfgM m).win 0).blk t).view.read (Elt Ideal) (kval (V m c main_arg0) (tbl m 0) (tbl m 1) (tbl m 2)) := by
  show ((cfgM m).win 0).cut (grid0.coords t) ((dats m hT 0 c).after 0 t) = _
  rw [after0_0]
  exact funext fun y => (flushed_pt m hT hL c t y).trans
    (congrArg (kval (V m c main_arg0) (tbl m 0) (tbl m 1) (tbl m 2)) (emb_eq m t y).symm)

set_option maxHeartbeats 1000000 in
/-- Every row of the result lies in some point's block: row r is entry r mod 32 of point r div 32's. -/
theorem cover (i : S2048x1.Idx) : ∃ t : Fin (cfgM m).N, ((cfgM m).win 0).flush t = true ∧ i ∈ (((cfgM m).win 0).blk t).view.set := by
  have hi0 : (i 0).val < 2048 := (i 0).isLt
  have hi1 : (i 1).val < 1 := (i 1).isLt
  have hN := cfgN m
  have hlt : (i 0).val / 32 < (cfgM m).N := by rw [hN]; omega
  refine ⟨⟨(i 0).val / 32, hlt⟩, flush0 m _, ?_⟩
  have he := emb_eq m ⟨(i 0).val / 32, hlt⟩ (ix2 (⟨(i 0).val % 32, Nat.mod_lt _ (by decide)⟩ : Fin 32) (⟨0, Nat.one_pos⟩ : Fin 1))
  have hi : blockIdx m ⟨(i 0).val / 32, hlt⟩ (ix2 (⟨(i 0).val % 32, Nat.mod_lt _ (by decide)⟩ : Fin 32) (⟨0, Nat.one_pos⟩ : Fin 1)) = i := by
    funext a
    apply Fin.ext
    match a with
    | ⟨0, _⟩ => show (i 0).val / 32 * 32 + (i 0).val % 32 = (i 0).val; omega
    | ⟨1, _⟩ => show 0 = (i 1).val; omega
  have hmem := View.emb_mem_set (((cfgM m).win 0).blk ⟨(i 0).val / 32, hlt⟩).view
    (ix2 (⟨(i 0).val % 32, Nat.mod_lt _ (by decide)⟩ : Fin 32) (⟨0, Nat.one_pos⟩ : Fin 1))
  rw [he, hi] at hmem
  exact hmem

/-- The result array after the run. -/
theorem final (hT : TblOk m) (hL : LanesOk m) (c : Dev nD) :
    (dats m hT 0 c).arrAt 0 (cfgM m).N = kval (V m c main_arg0) (tbl m 0) (tbl m 1) (tbl m 2) :=
  (dats m hT 0 c).arrAt_eq_of_cover 0 _ (fun t _ => flushed_eq m hT hL c t) (cover m)

/-- The run with its result named: the result array ends at `kval`, the argument as launched. -/
theorem run_value (hT : TblOk m) (hL : LanesOk m) :
    θ_run defs (onTc (τ := τ) (main (F := Ideal))) ⟨m, fun _ => 0, ρ⟩ (fun r => ∀ c : Dev nD,
      r.2.mem ((c.tc : Thread nD τ).loc main_v29) = kval (V m c main_arg0) (tbl m 0) (tbl m 1) (tbl m 2)
      ∧ r.2.mem ((c.tc : Thread nD τ).loc main_arg0) = m ((c.tc : Thread nD τ).loc main_arg0)) :=
  (θ_run defs _ _).mono (fun _ h c =>
    ⟨((h c).1 0).trans (final m hT hL c),
     ((h c).2 main_arg0 (by decide : main_arg0 ∈ Pipeline.restRefs sig spec0)).trans (V_main_arg0 m c)⟩) (run_main m ρ hT)

end Cert.KernelIdeal.Hand
end
-- ==== Proof.LibWordSigns.lean ====
/-
  Signed readings of a word in [0, 39999]: it is not below zero, it is at least zero and at most 39999 as
  signed words, and read signed it is the natural number it holds. And a word split by 128: the quotient times
  128 plus the remainder is the word, and the remainder is below 128.
-/
import Idealize.ShloMosaic.PureOps.Vector

namespace Cert.LibWordSigns

open Idealize.ShloMosaic

theorem slt_zero (x : BitVec 32) (h : x.toNat ≤ 39999) : IntOp.cmpi .slt x 0#32 = 0#1 := by
  have : x.slt 0#32 = false := by
    simp only [BitVec.slt, BitVec.toInt_eq_toNat_cond, BitVec.toNat_ofNat]
    simp; omega
  simp [IntOp.cmpi, this]
theorem sge_zero (x : BitVec 32) (h : x.toNat ≤ 39999) : IntOp.cmpi .sge x 0#32 = 1#1 := by
  have : (0#32 : BitVec 32).sle x = true := by
    simp only [BitVec.sle, BitVec.toInt_eq_toNat_cond, BitVec.toNat_ofNat]
    simp; omega
  simp [IntOp.cmpi, this]
theorem sle_max (x : BitVec 32) (h : x.toNat ≤ 39999) : IntOp.cmpi .sle x 39999#32 = 1#1 := by
  have : x.sle 39999#32 = true := by
    simp only [BitVec.sle, BitVec.toInt_eq_toNat_cond, BitVec.toNat_ofNat]
    simp; omega
  simp [IntOp.cmpi, this]
theorem toInt_toNat (x : BitVec 32) (h : x.toNat ≤ 39999) : x.toInt.toNat = x.toNat := by
  rw [BitVec.toInt_eq_toNat_cond]
  have h2 : 2 * x.toNat < 2 ^ 32 := by omega
  rw [if_pos h2]
  exact Int.toNat_natCast _
theorem split_128 (x : BitVec 32) : (x / 128#32).toNat * 128 + (x % 128#32).toNat = x.toNat := by
  rw [BitVec.toNat_udiv, BitVec.toNat_umod]
  show x.toNat / 128 * 128 + x.toNat % 128 = x.toNat
  omega
theorem mod_lt_128 (x : BitVec 32) : (x % 128#32).toNat < 128 := by
  rw [BitVec.toNat_umod]; exact Nat.mod_lt _ (by decide)

end Cert.LibWordSigns
-- ==== Proof.RefValue.lean ====
/-
  The reference read entry by entry at the exact values. Row b of its [2048, 1] result is the constant -0.1 (as
  the f32 literal reads) when the row's flag is set, and otherwise the argument array's entry at row b and column
  s, the row's cell index clipped to [0, 39999]. On the way: `take_along_axis` first adds 40000 to a negative
  index (never taken, s is not negative), builds an in-range mask 0 ≤ s ≤ 39999 (always true) and reduces it over
  a unit axis, gathers with the index clamped to [0, 39999] (the clamp is the identity on s), and selects the
  gathered entry over NaN under the mask; the slice [:, :40000] the gather reads keeps the column.
-/
import proofs.«135630_j56307021251002_2_alg».proof.Proof.Gen.ReferenceIdeal.Read
import proofs.«135630_j56307021251002_2_alg».proof.Proof.LibClipDiv
import proofs.«135630_j56307021251002_2_alg».proof.Proof.LibWordSigns
import Idealize.ShloMosaic.Lib.ValueIdx
import Idealize.ShloMosaic.Lib.Pipeline.Value
import Idealize.ShloMosaic.PureOps.Reduce
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx

variable {F : FTy → Type} [FloatOps F] (X : (⟨S2048x120006, .f32⟩ : BufTy).Contents (Elt F))

/-- The clipped cell index of a row. -/
theorem safe_apply (i : S2048.Idx) :
    val_main_v33 (F := F) X i = IntOp.minsi 39999#32 (IntOp.maxsi 0#32 (val_main_v13 (F := F) X i)) := by
  rw [val_main_v33_apply, val_main_call0_v4_apply, val_main_call0_v2_apply, val_main_call0_v1_apply]; rfl
theorem safe_le (i : S2048.Idx) : BitVec.toNat (val_main_v33 (F := F) X i : BitVec 32) ≤ 39999 := by
  rw [safe_apply]; exact Cert.LibClipDiv.clip_bound _
theorem v34_le (j : S2048x1.Idx) : BitVec.toNat (val_main_v34 (F := F) X j : BitVec 32) ≤ 39999 := by
  rw [val_main_v34_apply]; exact safe_le X _

/-- The index is not negative, so `take_along_axis` leaves it as it is. -/
theorem v4_eq (j : S2048x1.Idx) : val_main_call1_v4 (F := F) X j = val_main_v34 (F := F) X j := by
  rw [val_main_call1_v4_apply, val_main_call1_v1_apply, val_main_call1_v0_apply]
  have h0 : val_main_call1_c (F := F) (idx_main_call1_v0 j) = 0#32 := rfl
  rw [h0, Cert.LibWordSigns.slt_zero _ (v34_le X j)]
  simp [Scalar.select]
theorem v5_le (i : S2048x1x1.Idx) : BitVec.toNat (val_main_call1_v5 (F := F) X i : BitVec 32) ≤ 39999 := by
  rw [val_main_call1_v5_apply, v4_eq]; exact v34_le X _

/-- The in-range mask is true everywhere. -/
theorem v11_one (i : S2048x1x1.Idx) : val_main_call1_v11 (F := F) X i = 1#1 := by
  rw [val_main_call1_v11_apply, val_main_call1_v7_apply, val_main_call1_v10_apply, val_main_call1_v6_apply,
    val_main_call1_v9_apply, val_main_call1_v8_apply]
  have h6 : val_main_call1_c_2 (F := F) (idx_main_call1_v6 i) = 0#32 := rfl
  have h9 : val_main_call1_c_1 (F := F) (idx_main_call1_v8 (idx_main_call1_v9 i)) = 39999#32 := rfl
  rw [h6, h9, Cert.LibWordSigns.sge_zero _ (v5_le X i), Cert.LibWordSigns.sle_max _ (v5_le X i)]
  rfl

/-- … and so is its `and` over the unit axis. -/
theorem v12_one (j : S2048x1.Idx) : val_main_call1_v12 (F := F) X j = 1#1 := by
  unfold val_main_call1_v12
  rw [Host.reduce_eq_fold_single IntOp.andi _ _ reducesTo_S2048x1x1_S2048x1_d2 (by decide : S2048x1x1.Reduces [2] S2048x1) h_S_ j]
  have hc : (val_main_call1_v11 (F := F) X ∘ (by decide : S2048x1x1.Reduces [2] S2048x1).lift j) = fun _ => 1#1 :=
    funext fun k => v11_one X _
  rw [hc]
  show Finset.fold IntOp.andi (val_main_call1_c_3 (F := F) (Shape.Idx.first h_S_)) (fun _ => 1#1) (Finset.univ : Finset (Fin 1)) = 1#1
  rw [show (Finset.univ : Finset (Fin 1)) = {0} from by decide, Finset.fold_singleton, val_main_call1_c_3_apply]
  rfl

/-- The start-indices index [b, q, 0] of result index (b, q). -/
abbrev gIdx (y : S2048x1.Idx) : S2048x1x1.Idx :=
  fun a => match a with | ⟨0, _⟩ => ⟨(y 0).val, idx2_lt0 y⟩ | ⟨1, _⟩ => ⟨(y 1).val, idx2_lt1 y⟩ | ⟨2, _⟩ => ⟨0, Nat.one_pos⟩

/-- The batched gather read at (b, q): row b of the operand at the start index clamped to [0, 39999]. -/
theorem gather_apply {α : Type} (x : S2048x40000.Idx → α) (idx : IVec S2048x1x1 32) (y : S2048x1.Idx) (J : S2048x40000.Idx)
    (h0 : (J 0).val = (y 0).val)
    (h1 : (J 1).val = min (idx (gIdx y)).toInt.toNat 39999) :
    Host.gather gather_S2048x40000_S2048x1x1_S2048x1_n_1_0_0_1_2_11 x idx y = x J := by
  unfold Host.gather
  congr 1
  funext a
  refine Fin.ext ?_
  have hb0 : (0 : Fin 2) ∈ gather_S2048x40000_S2048x1x1_S2048x1_n_1_0_0_1_2_11.operandBatchingDims := List.mem_singleton.mpr rfl
  have hb1 : (1 : Fin 2) ∉ gather_S2048x40000_S2048x1x1_S2048x1_n_1_0_0_1_2_11.operandBatchingDims := fun h => absurd (List.mem_singleton.mp h) (by decide)
  have hc1 : (1 : Fin 2) ∈ gather_S2048x40000_S2048x1x1_S2048x1_n_1_0_0_1_2_11.collapsedSliceDims := List.mem_singleton.mpr rfl
  match a with
  | ⟨0, _⟩ =>
    refine Eq.trans ?_ h0.symm
    show gather_S2048x40000_S2048x1x1_S2048x1_n_1_0_0_1_2_11.start y idx 0 + gather_S2048x40000_S2048x1x1_S2048x1_n_1_0_0_1_2_11.batchCoord y 0 + gather_S2048x40000_S2048x1x1_S2048x1_n_1_0_0_1_2_11.offCoord y 0 = (y 0).val
    rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  | ⟨1, _⟩ =>
    refine Eq.trans ?_ h1.symm
    show gather_S2048x40000_S2048x1x1_S2048x1_n_1_0_0_1_2_11.start y idx 1 + gather_S2048x40000_S2048x1x1_S2048x1_n_1_0_0_1_2_11.batchCoord y 1 + gather_S2048x40000_S2048x1x1_S2048x1_n_1_0_0_1_2_11.offCoord y 1 = _
    rw [GatherDims.batchCoord_eq_zero _ _ _ hb1,
      GatherDims.offCoord_eq_zero _ _ _ (fun h => ((GatherDims.mem_sKept _ _).mp h).1 hc1)]
    simp only [Nat.add_zero]
    unfold GatherDims.start
    rw [dif_pos (show (1 : Fin 2) ∈ gather_S2048x40000_S2048x1x1_S2048x1_n_1_0_0_1_2_11.startIndexMap from List.mem_singleton.mpr rfl)]
    have hsi : gather_S2048x40000_S2048x1x1_S2048x1_n_1_0_0_1_2_11.siIdx y ⟨List.idxOf (1 : Fin 2) gather_S2048x40000_S2048x1x1_S2048x1_n_1_0_0_1_2_11.startIndexMap,
        List.idxOf_lt_length_iff.2 (List.mem_singleton.mpr rfl)⟩ = gIdx y := by
      funext b; refine Fin.ext ?_
      match b with
      | ⟨0, _⟩ => rfl
      | ⟨1, _⟩ => rfl
      | ⟨2, _⟩ => rfl
    rw [hsi]
    rfl

theorem idx36 (b : Fin 2048) : idx_main_v36 (ix2 b (0 : Fin 1)) = ix1 b := funext fun a => by
  match a with | ⟨0, _⟩ => rfl
theorem idx34_5 (b : Fin 2048) : idx_main_v34 (idx_main_call1_v5 (gIdx (ix2 b (0 : Fin 1)))) = ix1 b := funext fun a => by
  match a with
  | ⟨0, _⟩ =>
    apply Fin.ext
    show ((b.val * 1 + 0) * 1 + 0) / 1 = b.val
    omega

/-- The index the gather reads at row b is the row's clipped cell index. -/
theorem v5_row (b : Fin 2048) :
    val_main_call1_v5 (F := F) X (gIdx (ix2 b (0 : Fin 1))) = val_main_v33 (F := F) X (ix1 b) := by
  rw [val_main_call1_v5_apply, v4_eq, val_main_v34_apply, idx34_5]

/-- Row b of the reference's result at the exact values. -/
theorem ref_apply (Y : (⟨S2048x120006, .f32⟩ : BufTy).Contents (Elt Ideal)) (b : Fin 2048) (J : S2048x120006.Idx)
    (h0 : (J 0).val = b.val) (h1 : (J 1).val = BitVec.toNat (val_main_v33 (F := Ideal) Y (ix1 b) : BitVec 32)) :
    val_main_v37 (F := Ideal) Y (ix2 b (0 : Fin 1))
      = if val_main_v32 (F := Ideal) Y (ix1 b) = 1#1 then Ideal.ofBits .f32 0xBDCCCCCD#32 else (Y : S2048x120006.Idx → EReal) J := by
  have hs := safe_le (F := Ideal) Y (ix1 b)
  rw [val_main_v37_apply, val_main_v36_apply, idx36, val_main_call2_v0_apply, val_main_v35_apply, v12_one]
  have hg : val_main_call1_v13 (F := Ideal) Y (ix2 b (0 : Fin 1)) = (Y : S2048x120006.Idx → EReal) J := by
    unfold val_main_call1_v13
    refine (gather_apply (val_main_v0 (F := Ideal) Y) (val_main_call1_v5 (F := Ideal) Y) (ix2 b (0 : Fin 1))
      (ix2 b ⟨BitVec.toNat (val_main_v33 (F := Ideal) Y (ix1 b) : BitVec 32), by omega⟩) rfl ?_).trans ?_
    · show BitVec.toNat (val_main_v33 (F := Ideal) Y (ix1 b) : BitVec 32) = min (val_main_call1_v5 (F := Ideal) Y (gIdx (ix2 b (0 : Fin 1)))).toInt.toNat 39999
      rw [v5_row, Cert.LibWordSigns.toInt_toNat _ hs]
      omega
    · rw [val_main_v0_apply]
      congr 1
      funext a
      apply Fin.ext
      match a with
      | ⟨0, _⟩ => exact h0.symm
      | ⟨1, _⟩ => exact h1.symm
  rw [hg]
  show Scalar.select (val_main_v32 (F := Ideal) Y (ix1 b)) (val_main_cst (F := Ideal) (idx_main_call2_v0 (ix2 b (0 : Fin 1))))
      (Scalar.select (1#1) ((Y : S2048x120006.Idx → EReal) J) (val_main_call1_v14 (F := Ideal) (ix2 b (0 : Fin 1)))) = _
  simp only [Scalar.select, if_pos]
  rfl

end Cert.ReferenceIdeal.RefValue

end
-- ==== Proof.KI.Bridge.lean ====
/-
  The two results are one array. Entry by entry: the kernel's first and second tables hold the clipped cell index
  s split as s div 128 and s mod 128, so column 128 (s div 128) + (s mod 128) is column s; its third table holds
  the out-of-bounds flag widened to a word, which is zero exactly when the flag is not set. The reference slices
  the three coordinate pairs straight out of the argument where the kernel's host side slices them out of the
  six trailing columns; entry by entry these are the same numbers, so both sides truncate the same quotient and
  both get the same clipped index and the same flag. Hence row b of both results is the argument's entry at
  (b, s), or the constant when the row is flagged.
-/
import proofs.«135630_j56307021251002_2_alg».proof.Proof.KI.Final
import proofs.«135630_j56307021251002_2_alg».proof.Proof.RefValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Idealize.ShloMosaic.ValueIdx
open Cert.LibClipDiv Cert.LibWordSigns

variable (m : (ℓ : Loc nD τ sig) → Buf (Elt Ideal) ℓ)

theorem rem128_apply (z : IVec S2048 32) (y : S2048.Idx) : rem128 z y = fmod .host (z y) := by
  show Scalar.select
      (IntOp.andi
        (IntOp.cmpi .ne (IntOp.cmpi .slt (IntOp.remsi .host (z y) (broadcastInDim S2048 ![] bcast_S_S2048 mod2 y)) (broadcastInDim S2048 ![] bcast_S_S2048 (constantI S_ 32 0#32) y))
          (broadcastInDim S2048 ![] bcast_S_S2048 (cmpi .slt mod2 (constantI S_ 32 0#32)) y))
        (IntOp.cmpi .ne (IntOp.remsi .host (z y) (broadcastInDim S2048 ![] bcast_S_S2048 mod2 y)) (broadcastInDim S2048 ![] bcast_S_S2048 (constantI S_ 32 0#32) y)))
      (IntOp.addi (IntOp.remsi .host (z y) (broadcastInDim S2048 ![] bcast_S_S2048 mod2 y)) (broadcastInDim S2048 ![] bcast_S_S2048 mod2 y))
      (IntOp.remsi .host (z y) (broadcastInDim S2048 ![] bcast_S_S2048 mod2 y)) = _
  simp only [bc_apply]; rfl

/-- The clipped cell index of row b, from the kernel's host side. -/
def sK (X : (⟨S2048x120006, .f32⟩ : BufTy).Contents (Elt Ideal)) (b : S2048.Idx) : BitVec 32 := clipVec (flatOf (ipK X)) b
theorem sK_le (X : (⟨S2048x120006, .f32⟩ : BufTy).Contents (Elt Ideal)) (b : S2048.Idx) : (sK X b).toNat ≤ 39999 := by
  unfold sK; rw [clipVec_apply]; exact clip_bound _

theorem t0_eq (b : S2048.Idx) : (tbl (F := Ideal) m 0 : S2048.Idx → BitVec 32) b = sK (m (0, Proc.tc.devRef main_arg0)) b / 128#32 := by
  rw [congrFun (tbl0_eq m) b, floorDiv128_apply]; exact fdiv_eq _ _ (sK_le _ b)
theorem t1_eq (b : S2048.Idx) : (tbl (F := Ideal) m 1 : S2048.Idx → BitVec 32) b = sK (m (0, Proc.tc.devRef main_arg0)) b % 128#32 := by
  rw [congrFun (tbl1_eq m) b, rem128_apply]; exact fmod_eq _ _ (sK_le _ b)
theorem t2_eq (b : S2048.Idx) : (tbl (F := Ideal) m 2 : S2048.Idx → BitVec 32) b = (oobOf (ipK (m (0, Proc.tc.devRef main_arg0))) b).setWidth 32 := by
  rw [congrFun (tbl2_eq m) b]; rfl
theorem lanesOk : LanesOk m := fun y => by
  show BitVec.toNat ((tbl (F := Ideal) m 1 : S2048.Idx → BitVec 32) y) < 128
  rw [t1_eq]; exact mod_lt_128 _

/-- A pair of columns sliced out of the six trailing columns is that pair sliced out of the array. -/
theorem ess_ess (X : (⟨S2048x120006, .f32⟩ : BufTy).Contents (Elt Ideal)) (o : Nat) (h2 : S2048x6.Slices ![0, o] S2048x2) (ho : o + 2 ≤ 6)
    (i : S2048x2.Idx) (k : S2048x120006.Idx) (hk0 : (k 0).val = (i 0).val) (hk1 : (k 1).val = 120000 + o + (i 1).val) :
    extractStridedSlice S2048x2 ![0, o] (extractStridedSlice S2048x6 ![0, 120000] X slices_S2048x120006_S2048x6_0_120000) h2 i = X k := by
  have hi1 : (i 1).val < 2 := (i 1).isLt
  have hk6 : o + (i 1).val < 6 := by omega
  refine (extractStridedSlice_apply ![0, o] _ h2 i (ix2 (i 0) (⟨o + (i 1).val, hk6⟩ : Fin 6)) (fun a => by
    match a with
    | ⟨0, _⟩ => show (i 0).val = 0 + (i 0).val; omega
    | ⟨1, _⟩ => show o + (i 1).val = o + (i 1).val; rfl)).trans ?_
  exact extractStridedSlice_apply ![0, 120000] X slices_S2048x120006_S2048x6_0_120000 (ix2 (i 0) (⟨o + (i 1).val, hk6⟩ : Fin 6)) k (fun a => by
    match a with
    | ⟨0, _⟩ => show (k 0).val = 0 + (i 0).val; omega
    | ⟨1, _⟩ => show (k 1).val = 120000 + (o + (i 1).val); omega)

/-- … as whole functions. -/
theorem ess_fun (X : (⟨S2048x120006, .f32⟩ : BufTy).Contents (Elt Ideal)) (o : Nat) (h2 : S2048x6.Slices ![0, o] S2048x2) (ho : o + 2 ≤ 6)
    (h3 : S2048x120006.Slices ![0, 120000 + o] S2048x2) :
    extractStridedSlice S2048x2 ![0, o] (extractStridedSlice S2048x6 ![0, 120000] X slices_S2048x120006_S2048x6_0_120000) h2
      = extractStridedSlice S2048x2 ![0, 120000 + o] X h3 := by
  funext i
  have hi1 : (i 1).val < 2 := (i 1).isLt
  have hk : 120000 + o + (i 1).val < 120006 := by omega
  refine (ess_ess X o h2 ho i (ix2 (i 0) (⟨120000 + o + (i 1).val, hk⟩ : Fin 120006)) rfl rfl).trans ?_
  exact (extractStridedSlice_apply ![0, 120000 + o] X h3 i (ix2 (i 0) (⟨120000 + o + (i 1).val, hk⟩ : Fin 120006)) (fun a => by
    match a with
    | ⟨0, _⟩ => show (i 0).val = 0 + (i 0).val; omega
    | ⟨1, _⟩ => show 120000 + o + (i 1).val = 120000 + o + (i 1).val; rfl)).symm

/-- Both sides truncate the same numbers. -/
theorem ip_eq (X : (⟨S2048x120006, .f32⟩ : BufTy).Contents (Elt Ideal)) :
    Cert.ReferenceIdeal.Read.val_main_v6 (F := Ideal) X = ipK X := by
  unfold ipK
  rw [ess_fun X 4 slices_S2048x6_S2048x2_0_4 (by decide) (by decide), ess_fun X 0 slices_S2048x6_S2048x2_0_0 (by decide) (by decide),
    ess_fun X 2 slices_S2048x6_S2048x2_0_2 (by decide) (by decide)]
  rfl

/-- The reference's clipped index and flag are the kernel's. -/
theorem safe_eq (X : (⟨S2048x120006, .f32⟩ : BufTy).Contents (Elt Ideal)) :
    Cert.ReferenceIdeal.Read.val_main_v33 (F := Ideal) X = clipVec (flatOf (Cert.ReferenceIdeal.Read.val_main_v6 (F := Ideal) X)) := rfl
theorem oob_eq (X : (⟨S2048x120006, .f32⟩ : BufTy).Contents (Elt Ideal)) :
    Cert.ReferenceIdeal.Read.val_main_v32 (F := Ideal) X = oobOf (Cert.ReferenceIdeal.Read.val_main_v6 (F := Ideal) X) := rfl

theorem kval_apply (X : S2048x120006.Idx → EReal) (T0 T1 T2 : S2048.Idx → BitVec 32) (b : Fin 2048) :
    kval X T0 T1 T2 (ix2 b (0 : Fin 1))
      = if T2 (ix1 b) = 0#32 then X (ix2 b (kcol (T0 (ix1 b)) (T1 (ix1 b)))) else Ideal.ofBits .f32 0xBDCCCCCD#32 := rfl

/-- The reference's result is the kernel's. -/
theorem results_eq (c : Dev nD) :
    Cert.ReferenceIdeal.Read.val_main_v37 (F := Ideal) (m ((c.tc : Thread nD τ).loc main_arg0))
      = kval (V m c main_arg0) (tbl m 0) (tbl m 1) (tbl m 2) := by
  obtain rfl : c = 0 := Subsingleton.elim _ _
  rw [V_main_arg0]
  funext j
  obtain ⟨b, q, rfl⟩ : ∃ (b : Fin 2048) (q : Fin 1), j = ix2 b q := ⟨j 0, j 1, eq_ix2 j⟩
  obtain rfl : q = 0 := Subsingleton.elim _ _
  have hX : m (((0 : Dev nD).tc : Thread nD τ).loc main_arg0) = m (0, Proc.tc.devRef main_arg0) := rfl
  have hs : Cert.ReferenceIdeal.Read.val_main_v33 (F := Ideal) (m (((0 : Dev nD).tc : Thread nD τ).loc main_arg0)) (ix1 b)
      = sK (m (0, Proc.tc.devRef main_arg0)) (ix1 b) := by
    rw [safe_eq, ip_eq]; try rfl
  have ho : Cert.ReferenceIdeal.Read.val_main_v32 (F := Ideal) (m (((0 : Dev nD).tc : Thread nD τ).loc main_arg0)) (ix1 b)
      = oobOf (ipK (m (0, Proc.tc.devRef main_arg0))) (ix1 b) := by
    rw [oob_eq, ip_eq]; try rfl
  have hle := sK_le (m (0, Proc.tc.devRef main_arg0)) (ix1 b)
  have hcol : (kcol ((tbl (F := Ideal) m 0 : S2048.Idx → BitVec 32) (ix1 b)) ((tbl (F := Ideal) m 1 : S2048.Idx → BitVec 32) (ix1 b))).val
      = (sK (m (0, Proc.tc.devRef main_arg0)) (ix1 b)).toNat := by
    show (BitVec.toNat ((tbl (F := Ideal) m 0 : S2048.Idx → BitVec 32) (ix1 b)) * 128
        + BitVec.toNat ((tbl (F := Ideal) m 1 : S2048.Idx → BitVec 32) (ix1 b))) % 120006 = _
    rw [t0_eq, t1_eq, Cert.LibWordSigns.split_128]
    exact Nat.mod_eq_of_lt (by omega)
  rw [Cert.ReferenceIdeal.RefValue.ref_apply _ b
    (ix2 b (kcol ((tbl (F := Ideal) m 0 : S2048.Idx → BitVec 32) (ix1 b)) ((tbl (F := Ideal) m 1 : S2048.Idx → BitVec 32) (ix1 b)))) rfl
    (by rw [hs]; exact hcol)]
  rw [ho]
  have h2 := t2_eq m (ix1 b)
  refine Eq.trans ?_ (kval_apply (m (((0 : Dev nD).tc : Thread nD τ).loc main_arg0)) (tbl (F := Ideal) m 0) (tbl (F := Ideal) m 1) (tbl (F := Ideal) m 2) b).symm
  have ho2 : oobOf (ipK (m (0, Proc.tc.devRef main_arg0))) (ix1 b) = 0#1 ∨ oobOf (ipK (m (0, Proc.tc.devRef main_arg0))) (ix1 b) = 1#1 := by
    have := (oobOf (ipK (m (0, Proc.tc.devRef main_arg0))) (ix1 b)).isLt
    rcases Nat.lt_or_ge (oobOf (ipK (m (0, Proc.tc.devRef main_arg0))) (ix1 b)).toNat 1 with h | h
    · left; apply BitVec.eq_of_toNat_eq; simp; omega
    · right; apply BitVec.eq_of_toNat_eq; simp; omega
  rcases ho2 with h | h
  · have e2 : (tbl (F := Ideal) m 2 : S2048.Idx → BitVec 32) (ix1 b) = 0#32 := by rw [h2, h]; rfl
    rw [if_neg (by rw [h]; decide)]
    exact (if_pos e2).symm
  · have e2 : ¬ (tbl (F := Ideal) m 2 : S2048.Idx → BitVec 32) (ix1 b) = 0#32 := by
      rw [h2, h]; simp
      show ¬ ((1#32 : BitVec 32) = 0#32)
      decide
    rw [if_pos h]
    exact (if_neg e2).symm

end Cert.KernelIdeal.Hand
end
-- ==== Proof.lean ====
/-
  The certificate of one kernel against its reference. The kernel looks one cell up per row: from the six
  trailing columns of a row it computes a cell index (point / resolution + origin, truncated, row * 200 +
  column), flags the row out of bounds when either coordinate leaves [0, 200), clips the index to [0, 39999],
  and returns the row's entry at that index, or the constant -0.1 when flagged. The kernel computes the index on
  the host exactly as the reference does, splits it into a chunk number (index div 128) and a lane (index mod
  128), copies the 128-column chunk of the row by DMA through a two-slot ring, and selects the lane.
  The frames: both kernel programs run to the end without a fault and leave the argument as launched, because
  the chunk numbers are at most 312 for every input (so every copy's source lies inside the array); the
  reference's frame is its generated run. The idealization rewrote nothing, so `preserves` is `True`.
-/
import proofs.«135630_j56307021251002_2_alg».proof.Defs
import proofs.«135630_j56307021251002_2_alg».proof.Proof.Gen.Kernel
import proofs.«135630_j56307021251002_2_alg».proof.Proof.Gen.KernelIdeal
import proofs.«135630_j56307021251002_2_alg».proof.Proof.Gen.ReferenceIdeal
import proofs.«135630_j56307021251002_2_alg».proof.Proof.Gen.Pre_finite_inputs
import proofs.«135630_j56307021251002_2_alg».proof.Proof.Gen.ReferenceIdeal.Run
import proofs.«135630_j56307021251002_2_alg».proof.Proof.KB.Tables
import proofs.«135630_j56307021251002_2_alg».proof.Proof.KI.Tables
import proofs.«135630_j56307021251002_2_alg».proof.Proof.KI.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ (Cert.Kernel.Hand.tblOk m)
theorem frame_ki : Cert.frame_KernelIdeal := fun m ρ _ => Cert.KernelIdeal.Hand.frame m ρ (Cert.KernelIdeal.Hand.tblOk m)
theorem frame_ri : Cert.frame_ReferenceIdeal := fun m ρ _ =>
  (θ_run Cert.ReferenceIdeal.defs _ _).mono (fun _ h c => (h c).2) (Cert.ReferenceIdeal.Value.run (F := Ideal) m ρ)

/-- At the exact values the two programs, run from memories that agree on the argument, end with the same result
    array: the kernel's is `kval` of the argument and its three tables (its run with the result named), the
    reference's is its generated run's term, and the two are one function of the argument. -/
theorem algebraic : Cert.algebraic_KernelIdeal_ReferenceIdeal := by
  intro m ρ m' ρ' _ hagree
  refine ⟨fun c => Cert.KernelIdeal.Hand.kval (Cert.KernelIdeal.Hand.V m c Cert.KernelIdeal.main_arg0)
      (Cert.KernelIdeal.Hand.tbl m 0) (Cert.KernelIdeal.Hand.tbl m 1) (Cert.KernelIdeal.Hand.tbl m 2),
    Cert.KernelIdeal.Hand.run_value m ρ (Cert.KernelIdeal.Hand.tblOk m) (Cert.KernelIdeal.Hand.lanesOk m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, hagree c]
  exact Cert.KernelIdeal.Hand.results_eq m c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
